-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S2x3200000 : Shape := ⟨2, ![2, 3200000]⟩
abbrev S500x16 : Shape := ⟨2, ![500, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S500x16 : S_.BroadcastsInDim S500x16 (![] : Fin 0 → Fin S500x16.rank)
  reducesTo_S500x16_S_d0_1 : S500x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x500 .f32) (main_arg1 : IVec S2x3200000 32) (main_arg2 : FVec F S500x16 .f32) (main_arg3 : FVec F S16 .f32) (main_arg4 : FVec F S16x40 .f32) (main_arg5 : FVec F S40 .f32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S500x16 .f32 := Host.absf main_arg2
  let main_cst_0 : FVec F S_ .f32 := constant S_ .f32 0x7F800000#32
  let main_v5 : FVec F S500x16 .f32 := broadcastInDim S500x16 ![] bcast_S_S500x16 main_cst_0
  let main_v6 : IVec S500x16 1 := cmpf .olt main_v4 main_v5
  let main_c_1 : IVec S_ 1 := constantI S_ 1 1#1
  let main_v7 : IVec S_ 1 := (fun x v => Host.reduce IntOp.andi x v reducesTo_S500x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x500 : Shape := ⟨2, ![100000, 500]⟩
abbrev S2x3200000 : Shape := ⟨2, ![2, 3200000]⟩
abbrev S500x16 : Shape := ⟨2, ![500, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x16 : Shape := ⟨2, ![100000, 16]⟩
abbrev S4000x500 : Shape := ⟨2, ![4000, 500]⟩
abbrev S4000x1 : Shape := ⟨2, ![4000, 1]⟩
abbrev S4000x16 : Shape := ⟨2, ![4000, 16]⟩
abbrev S3300000x16 : Shape := ⟨2, ![3300000, 16]⟩
abbrev S1x16 : Shape := ⟨2, ![1, 16]⟩
abbrev S100000x40 : Shape := ⟨2, ![100000, 40]⟩
abbrev S4000x40 : Shape := ⟨2, ![4000, 40]⟩
abbrev S3300000x40 : Shape := ⟨2, ![3300000, 40]⟩
abbrev S1x40 : Shape := ⟨2, ![1, 40]⟩
abbrev S4000 : Shape := ⟨1, ![4000]⟩

abbrev nBuf : Space → Nat
  | .hbm => 59
  | .vmem => 22
  | .smem => 0
  | _ => 0

abbrev bufTy : (tb : Table) → Fin (tcTables nBuf tb) → BufTy
  | .hbm, ⟨0, _⟩ => ⟨S100000x500, .f32⟩
  | .hbm, ⟨1, _⟩ => ⟨S2x3200000, .i32⟩
  | .hbm, ⟨2, _⟩ => ⟨S500x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x16, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000x16, .f32⟩
  | .hbm, ⟨38, _⟩ => ⟨S_, .f32⟩
  | .hbm, ⟨39, _⟩ => ⟨S100000x16, .f32⟩
  | .hbm, ⟨40, _⟩ => ⟨S3300000x1, .i32⟩
  | .hbm, ⟨41, _⟩ => ⟨S100000x16, .f32⟩
  | .hbm, ⟨42, _⟩ => ⟨S1x16, .f32⟩
  | .hbm, ⟨43, _⟩ => ⟨S100000x40, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000x40, .f32⟩
  | .hbm, ⟨53, _⟩ => ⟨S_, .f32⟩
  | .hbm, ⟨54, _⟩ => ⟨S100000x40, .f32⟩
  | .hbm, ⟨55, _⟩ => ⟨S3300000x1, .i32⟩
  | .hbm, ⟨56, _⟩ => ⟨S100000x40, .f32⟩
  | .hbm, ⟨57, _⟩ => ⟨S1x40, .f32⟩
  | .hbm, ⟨58, _⟩ => ⟨S100000x40, .f32⟩
  | .local _ .vmem, ⟨0, _⟩ => ⟨S4000x500, .f32⟩
  | .local _ .vmem, ⟨1, _⟩ => ⟨S4000x500, .f32⟩
  | .local _ .vmem, ⟨2, _⟩ => ⟨S500x16, .f32⟩
  | .local _ .vmem, ⟨3, _⟩ => ⟨S4000x1, .f32⟩
  | .local _ .vmem, ⟨4, _⟩ => ⟨S4000x1, .f32⟩
  | .local _ .vmem, ⟨5, _⟩ => ⟨S4000x16, .f32⟩
  | .local _ .vmem, ⟨6, _⟩ => ⟨S4000x16, .f32⟩
  | .local _ .vmem, ⟨7, _⟩ => ⟨S4000x16, .f32⟩
  | .local _ .vmem, ⟨8, _⟩ => ⟨S4000x16, .f32⟩
  | .local _ .vmem, ⟨9, _⟩ => ⟨S4000x1, .f32⟩
  | .local _ .vmem, ⟨10, _⟩ => ⟨S4000x1, .f32⟩
  | .local _ .vmem, ⟨11, _⟩ => ⟨S1x16, .f32⟩
  | .local _ .vmem, ⟨12, _⟩ => ⟨S16x40, .f32⟩
  | .local _ .vmem, ⟨13, _⟩ => ⟨S4000x40, .f32⟩
  | .local _ .vmem, ⟨14, _⟩ => ⟨S4000x40, .f32⟩
  | .local _ .vmem, ⟨15, _⟩ => ⟨S4000x40, .f32⟩
  | .local _ .vmem, ⟨16, _⟩ => ⟨S4000x40, .f32⟩
  | .local _ .vmem, ⟨17, _⟩ => ⟨S4000x1, .f32⟩
  | .local _ .vmem, ⟨18, _⟩ => ⟨S4000x1, .f32⟩
  | .local _ .vmem, ⟨19, _⟩ => ⟨S1x40, .f32⟩
  | .local _ .vmem, ⟨20, _⟩ => ⟨S4000x40, .f32⟩
  | .local _ .vmem, ⟨21, _⟩ => ⟨S4000x40, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x40 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S4000x500_S4000x500_0_0 : ∀ a, (![0, 0] : Fin 2 → Nat) a + S4000x500.size a ≤ S4000x500.size a
  h_S4000x500 : 0 < S4000x500.numel
  bitsLt_bf16_f32 : FTy.bits .bf16 < FTy.bits .f32
  inb_S500x16_S500x16_0_0 : ∀ a, (![0, 0] : Fin 2 → Nat) a + S500x16.size a ≤ S500x16.size a
  h_S500x16 : 0 < S500x16.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x16 : S4000x1.Broadcasts S4000x16
  inb_S4000x16_S4000x16_0_0 : ∀ a, (![0, 0] : Fin 2 → Nat) a + S4000x16.size a ≤ S4000x16.size a
  h_S4000x16 : 0 < S4000x16.numel
  bcast_S_S100000x16 : S_.BroadcastsInDim S100000x16 (![] : Fin 0 → Fin S100000x16.rank)
  shapeCasts_S16_S1x16 : S16.ShapeCasts S1x16
  shapeCasts_S4000x16_S4000x16 : S4000x16.ShapeCasts S4000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S16x40_S16x40_0_0 : ∀ a, (![0, 0] : Fin 2 → Nat) a + S16x40.size a ≤ S16x40.size a
  h_S16x40 : 0 < S16x40.numel
  broadcasts_S4000x1_S4000x40 : S4000x1.Broadcasts S4000x40
  inb_S4000x40_S4000x40_0_0 : ∀ a, (![0, 0] : Fin 2 → Nat) a + S4000x40.size a ≤ S4000x40.size a
  h_S4000x40 : 0 < S4000x40.numel
  bcast_S_S100000x40 : S_.BroadcastsInDim S100000x40 (![] : Fin 0 → Fin S100000x40.rank)
  shapeCasts_S40_S1x40 : S40.ShapeCasts S1x40
  shapeCasts_S4000x40_S4000x40 : S4000x40.ShapeCasts S4000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  reduces_S4000x40_S4000 : S4000x40.Reduces [1] S4000
  shapeCasts_S4000_S4000x1 : S4000.ShapeCasts S4000x1
  scatter_S100000_S3300000x1_S3300000_n_0_0_1_wf : ScatterDims.WF S100000 S3300000x1 S3300000 [] [0] [0] 1
  dot_S4000x500_S500x16_S4000x16_1_0_0_1_n_n_wf : DotDims.WF S4000x500 S500x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S4000x16_S16x40_S4000x40_1_0_0_1_n_n_wf : DotDims.WF S4000x16 S16x40 S4000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x500.size a ≤ S100000x500.size a
  hwx0_0 : ∀ i : grid0.Coords, EltTy.bits .f32 = 32 ∨ (Rect.block (s := S100000x500) S4000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x16.size a ≤ S500x16.size a
  hwx0_1 : ∀ i : grid0.Coords, EltTy.bits .f32 = 32 ∨ (Rect.block (s := S500x16) S500x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x16.size a ≤ S100000x16.size a
  hwx0_3 : ∀ i : grid0.Coords, EltTy.bits .f32 = 32 ∨ (Rect.block (s := S100000x16) S4000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x40.size a ≤ S16x40.size a
  hwx1_3 : ∀ i : grid1.Coords, EltTy.bits .f32 = 32 ∨ (Rect.block (s := S16x40) S16x40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x40.size a ≤ S100000x40.size a
  hwx1_4 : ∀ i : grid1.Coords, EltTy.bits .f32 = 32 ∨ (Rect.block (s := S100000x40) S4000x40.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x40.size a ≤ S100000x40.size a
  hwx2_0 : ∀ i : grid2.Coords, EltTy.bits .f32 = 32 ∨ (Rect.block (s := S100000x40) S4000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x40.size a ≤ S100000x40.size a
  hwx2_3 : ∀ i : grid2.Coords, EltTy.bits .f32 = 32 ∨ (Rect.block (s := S100000x40) S4000x40.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S4000x500_S500x16_S4000x16_1_0_0_1_n_n : DotDims S4000x500 S500x16 S4000x16 where
  lhsContracting := [1]
  rhsContracting := [0]
  lhsNonContracting := [0]
  rhsNonContracting := [1]
  lhsBatch := []
  rhsBatch := []
  wf := dot_S4000x500_S500x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S4000x16_S16x40_S4000x40_1_0_0_1_n_n : DotDims S4000x16 S16x40 S4000x40 where
  lhsContracting := [1]
  rhsContracting := [0]
  lhsNonContracting := [0]
  rhsNonContracting := [1]
  lhsBatch := []
  rhsBatch := []
  wf := dot_S4000x16_S16x40_S4000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S4000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S500x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S16x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S4000x40.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S4000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S4000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x500 : Shape := ⟨2, ![100000, 500]⟩
abbrev S2x3200000 : Shape := ⟨2, ![2, 3200000]⟩
abbrev S500x16 : Shape := ⟨2, ![500, 16]⟩
abbrev S16 : Shape := ⟨1, ![16]⟩
abbrev S16x40 : Shape := ⟨2, ![16, 40]⟩
abbrev S40 : Shape := ⟨1, ![40]⟩
abbrev S100000x16 : Shape := ⟨2, ![100000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x500, .f32⟩
  | 1 => ⟨S2x3200000, .i32⟩
  | 2 => ⟨S500x16, .f32⟩
  | 3 => ⟨S16, .f32⟩
  | 4 => ⟨S16x40, .f32⟩
  | 5 => ⟨S40, .f32⟩
  | 6 => ⟨S100000x16, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x40, .f32⟩
  | 70 => ⟨S100000, .i32⟩
  | 71 => ⟨S1x3200000, .i32⟩
  | 72 => ⟨S3200000, .i32⟩
  | 73 => ⟨S3300000, .i32⟩
  | 74 => ⟨S1x3200000, .i32⟩
  | 75 => ⟨S3200000, .i32⟩
  | 76 => ⟨S3300000, .i32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x40, .f32⟩
  | 119 => ⟨S3300000x1, .f32⟩
  | 120 => ⟨S3300000x40, .f32⟩
  | 121 => ⟨S3300000x40, .f32⟩
  | 122 => ⟨S_, .f32⟩
  | 123 => ⟨S100000x40, .f32⟩
  | 124 => ⟨S3300000x1, .i32⟩
  | 125 => ⟨S100000x40, .f32⟩
  | 126 => ⟨S1x40, .f32⟩
  | 127 => ⟨S100000x40, .f32⟩
  | _ => ⟨S100000x500, .f32⟩

abbrev hbmTy0_1 (i : Nat) : BufTy := match i % 128 with
  | 0 => ⟨S100000x40, .f32⟩
  | 1 => ⟨S_, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x40, .f32⟩
  | 8 => ⟨S100000x40, .f32⟩
  | 9 => ⟨S100000x40, .f32⟩
  | 10 => ⟨S_, .f32⟩
  | 11 => ⟨S100000, .f32⟩
  | 12 => ⟨S100000x1, .f32⟩
  | 13 => ⟨S100000x1, .f32⟩
  | 14 => ⟨S100000x40, .f32⟩
  | 15 => ⟨S100000x40, .f32⟩
  | _ => ⟨S100000x500, .f32⟩

abbrev hbmTy (i : Nat) : BufTy := match i / 128 with
  | 0 => hbmTy0_0 i
  | 1 => hbmTy0_1 i
  | _ => ⟨S100000x500, .f32⟩

abbrev bufTy : (tb : Table) → Fin (tcTables nBuf tb) → BufTy
  | .hbm, ⟨i, _⟩ => hbmTy i
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x500_S500x16_S100000x16_1_0_0_1_n_n_wf : DotDims.WF S100000x500 S500x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def dot_S100000x500_S500x16_S100000x16_1_0_0_1_n_n : DotDims S100000x500 S500x16 S100000x16 where
  lhsContracting := [1]
  rhsContracting := [0]
  lhsNonContracting := [0]
  rhsNonContracting := [1]
  lhsBatch := []
  rhsBatch := []
  wf := dot_S100000x500_S500x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.RefRunH.lean ====
/-
  The run of the reference program, read back as the last stage of its operations.

  The reference's @main is a straight line of 138 host operations.  Every weakly fair execution of it terminates with
  each buffer at the fold of the operations' results over the launch contents.  Evaluating that fold for the result
  buffer in one step would compose all 138 operations into one term; instead the line is cut into seven consecutive
  pieces, and for each piece, from ANY contents, the buffers that later pieces read are shown to hold the corresponding
  stage of the reference (the value each operation writes as a function of @main's arguments), given that the buffers
  the piece reads hold theirs.  A buffer a piece does not write is as the piece found it.  Chaining the seven pieces
  from the launch contents gives the result buffer as the last stage at the arguments' launch contents; no operation
  writes an argument.
-/
import proofs.«102929_j30116310680051_2_alg».proof.Proof.RefReadP
import Idealize.ShloMosaic.Lib.StableHlo.Run

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- @main's 138 operations, in order (a called function's operations stand in its call's place, spelt `TRef.…`). -/
abbrev ops : List (HloOp τ sig (Elt F)) :=
  [ binary main_arg0 main_arg2 main_v0 ((fun l r => Host.dotGeneral dot_S100000x500_S500x16_S100000x16_1_0_0_1_n_n none l r) : (⟨S100000x500, .f32⟩ : BufTy).Contents (Elt F) → (⟨S500x16, .f32⟩ : BufTy).Contents (Elt F) → (⟨S100000x16, .f32⟩ : BufTy).Contents (Elt F)),
    nullary main_v1 (iotaInDim S100000 32 0),
    unary main_arg1 main_v2 ((extractStridedSlice S1x3200000 ![0, 0] · slices_S2x3200000_S1x3200000_0_0) : (⟨S2x3200000, .i32⟩ : BufTy).Contents (Elt F) → (⟨S1x3200000, .i32⟩ : BufTy).Contents (Elt F)),
    reshape main_v2 main_v3 rfl shapeCasts_S1x3200000_S3200000,
    binary main_v3 main_v1 main_v4 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v5 ((extractStridedSlice S1x3200000 ![1, 0] · slices_S2x3200000_S1x3200000_1_0) : (⟨S2x3200000, .i32⟩ : BufTy).Contents (Elt F) → (⟨S1x3200000, .i32⟩ : BufTy).Contents (Elt F)),
    reshape main_v5 main_v6 rfl shapeCasts_S1x3200000_S3200000,
    binary main_v6 main_v1 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v4 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v4 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v4 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v7 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v7 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v7 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v4 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v4 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v4 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v0 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v30 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v7 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    binary main_v47 main_arg4 main_v48 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    nullary main_v49 (iotaInDim S100000 32 0),
    unary main_arg1 main_v50 ((extractStridedSlice S1x3200000 ![0, 0] · slices_S2x3200000_S1x3200000_0_0) : (⟨S2x3200000, .i32⟩ : BufTy).Contents (Elt F) → (⟨S1x3200000, .i32⟩ : BufTy).Contents (Elt F)),
    reshape main_v50 main_v51 rfl shapeCasts_S1x3200000_S3200000,
    binary main_v51 main_v49 main_v52 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v53 ((extractStridedSlice S1x3200000 ![1, 0] · slices_S2x3200000_S1x3200000_1_0) : (⟨S2x3200000, .i32⟩ : BufTy).Contents (Elt F) → (⟨S1x3200000, .i32⟩ : BufTy).Contents (Elt F)),
    reshape main_v53 main_v54 rfl shapeCasts_S1x3200000_S3200000,
    binary main_v54 main_v49 main_v55 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_9 (constant S_ .f32 0x3F800000#32),
    unary main_cst_9 main_v56 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v57 (broadcastInDim S100000 ![] bcast_S_S100000 : (⟨S_, .f32⟩ : BufTy).Contents (Elt F) → (⟨S100000, .f32⟩ : BufTy).Contents (Elt F)),
    unary main_v55 main_v58 (broadcastInDim S3300000x1 ![0] bcast_S3300000_S3300000x1_0 : (⟨S3300000, .i32⟩ : BufTy).Contents (Elt F) → (⟨S3300000x1, .i32⟩ : BufTy).Contents (Elt F)),
    ternary main_v57 main_v58 main_v56 main_v59 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v60 (broadcastInDim S100000 ![] bcast_S_S100000 : (⟨S_, .f32⟩ : BufTy).Contents (Elt F) → (⟨S100000, .f32⟩ : BufTy).Contents (Elt F)),
    binary main_v59 main_v60 main_v61 (cmpf .ogt : (⟨S100000, .f32⟩ : BufTy).Contents (Elt F) → (⟨S100000, .f32⟩ : BufTy).Contents (Elt F) → (⟨S100000, .i1⟩ : BufTy).Contents (Elt F)),
    unary main_v59 main_v62 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v61) (TRef.of (T := ⟨S100000, .f32⟩) main_v62) (TRef.of (T := ⟨S100000, .f32⟩) main_call2_v1) (TRef.of (T := ⟨S100000, .f32⟩) main_v63) select,
    nullary main_c_13 (constantI S_ 32 0#32),
    unary main_c_13 main_v64 (broadcastInDim S3300000 ![] bcast_S_S3300000 : (⟨S_, .i32⟩ : BufTy).Contents (Elt F) → (⟨S3300000, .i32⟩ : BufTy).Contents (Elt F)),
    binary main_v52 main_v64 main_v65 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v66 (broadcastInDim S3300000 ![] bcast_S_S3300000 : (⟨S_, .i32⟩ : BufTy).Contents (Elt F) → (⟨S3300000, .i32⟩ : BufTy).Contents (Elt F)),
    binary main_v52 main_v66 main_v67 (addi : (⟨S3300000, .i32⟩ : BufTy).Contents (Elt F) → (⟨S3300000, .i32⟩ : BufTy).Contents (Elt F) → (⟨S3300000, .i32⟩ : BufTy).Contents (Elt F)),
    ternary main_v65 main_v67 main_v52 main_v68 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v68 main_v69 (broadcastInDim S3300000x1 ![0] bcast_S3300000_S3300000x1_0 : (⟨S3300000, .i32⟩ : BufTy).Contents (Elt F) → (⟨S3300000x1, .i32⟩ : BufTy).Contents (Elt F)),
    binary main_v63 main_v69 main_v70 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v71 (broadcastInDim S3300000 ![] bcast_S_S3300000 : (⟨S_, .i32⟩ : BufTy).Contents (Elt F) → (⟨S3300000, .i32⟩ : BufTy).Contents (Elt F)),
    binary main_v55 main_v71 main_v72 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v73 (broadcastInDim S3300000 ![] bcast_S_S3300000 : (⟨S_, .i32⟩ : BufTy).Contents (Elt F) → (⟨S3300000, .i32⟩ : BufTy).Contents (Elt F)),
    binary main_v55 main_v73 main_v74 (addi : (⟨S3300000, .i32⟩ : BufTy).Contents (Elt F) → (⟨S3300000, .i32⟩ : BufTy).Contents (Elt F) → (⟨S3300000, .i32⟩ : BufTy).Contents (Elt F)),
    ternary main_v72 main_v74 main_v55 main_v75 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v75 main_v76 (broadcastInDim S3300000x1 ![0] bcast_S3300000_S3300000x1_0 : (⟨S3300000, .i32⟩ : BufTy).Contents (Elt F) → (⟨S3300000x1, .i32⟩ : BufTy).Contents (Elt F)),
    binary main_v63 main_v76 main_v77 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v70 main_v77 main_v78 (mulf : (⟨S3300000, .f32⟩ : BufTy).Contents (Elt F) → (⟨S3300000, .f32⟩ : BufTy).Contents (Elt F) → (⟨S3300000, .f32⟩ : BufTy).Contents (Elt F)),
    nullary main_c_17 (constantI S_ 32 0#32),
    unary main_c_17 main_v79 (broadcastInDim S3300000 ![] bcast_S_S3300000 : (⟨S_, .i32⟩ : BufTy).Contents (Elt F) → (⟨S3300000, .i32⟩ : BufTy).Contents (Elt F)),
    binary main_v52 main_v79 main_v80 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v81 (broadcastInDim S3300000 ![] bcast_S_S3300000 : (⟨S_, .i32⟩ : BufTy).Contents (Elt F) → (⟨S3300000, .i32⟩ : BufTy).Contents (Elt F)),
    binary main_v52 main_v81 main_v82 (addi : (⟨S3300000, .i32⟩ : BufTy).Contents (Elt F) → (⟨S3300000, .i32⟩ : BufTy).Contents (Elt F) → (⟨S3300000, .i32⟩ : BufTy).Contents (Elt F)),
    ternary main_v80 main_v82 main_v52 main_v83 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v83 main_v84 (broadcastInDim S3300000x1 ![0] bcast_S3300000_S3300000x1_0 : (⟨S3300000, .i32⟩ : BufTy).Contents (Elt F) → (⟨S3300000x1, .i32⟩ : BufTy).Contents (Elt F)),
    binary main_v48 main_v84 main_v85 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v78 main_v86 (broadcastInDim S3300000x1 ![0] bcast_S3300000_S3300000x1_0 : (⟨S3300000, .f32⟩ : BufTy).Contents (Elt F) → (⟨S3300000x1, .f32⟩ : BufTy).Contents (Elt F)),
    unary main_v86 main_v87 (broadcastInDim S3300000x40 ![0, 1] bcast_S3300000x1_S3300000x40_0_1 : (⟨S3300000x1, .f32⟩ : BufTy).Contents (Elt F) → (⟨S3300000x40, .f32⟩ : BufTy).Contents (Elt F)),
    binary main_v85 main_v87 main_v88 (mulf : (⟨S3300000x40, .f32⟩ : BufTy).Contents (Elt F) → (⟨S3300000x40, .f32⟩ : BufTy).Contents (Elt F) → (⟨S3300000x40, .f32⟩ : BufTy).Contents (Elt F)),
    nullary main_cst_19 (constant S_ .f32 0x00000000#32),
    unary main_cst_19 main_v89 (broadcastInDim S100000x40 ![] bcast_S_S100000x40 : (⟨S_, .f32⟩ : BufTy).Contents (Elt F) → (⟨S100000x40, .f32⟩ : BufTy).Contents (Elt F)),
    unary main_v55 main_v90 (broadcastInDim S3300000x1 ![0] bcast_S3300000_S3300000x1_0 : (⟨S3300000, .i32⟩ : BufTy).Contents (Elt F) → (⟨S3300000x1, .i32⟩ : BufTy).Contents (Elt F)),
    ternary main_v89 main_v90 main_v88 main_v91 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    unary main_arg5 main_v92 (broadcastInDim S1x40 ![1] bcast_S40_S1x40_1 : (⟨S40, .f32⟩ : BufTy).Contents (Elt F) → (⟨S1x40, .f32⟩ : BufTy).Contents (Elt F)),
    unary main_v92 main_v93 (broadcastInDim S100000x40 ![0, 1] bcast_S1x40_S100000x40_0_1 : (⟨S1x40, .f32⟩ : BufTy).Contents (Elt F) → (⟨S100000x40, .f32⟩ : BufTy).Contents (Elt F)),
    binary main_v91 main_v93 main_v94 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call3_cst) (constant S_ .f32 0xFF800000#32),
    TRef.binary (TRef.of (T := ⟨S100000x40, .f32⟩) main_v94) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v94) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v95) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The operations, in consecutive pieces -/

/-- Operations 1 … 22: the first dense product, the two edge lists with the self-loops, the in-degree count and the scale. -/
abbrev opsA : List (HloOp τ sig (Elt F)) :=
  [ binary main_arg0 main_arg2 main_v0 ((fun l r => Host.dotGeneral dot_S100000x500_S500x16_S100000x16_1_0_0_1_n_n none l r) : (⟨S100000x500, .f32⟩ : BufTy).Contents (Elt F) → (⟨S500x16, .f32⟩ : BufTy).Contents (Elt F) → (⟨S100000x16, .f32⟩ : BufTy).Contents (Elt F)),
    nullary main_v1 (iotaInDim S100000 32 0),
    unary main_arg1 main_v2 ((extractStridedSlice S1x3200000 ![0, 0] · slices_S2x3200000_S1x3200000_0_0) : (⟨S2x3200000, .i32⟩ : BufTy).Contents (Elt F) → (⟨S1x3200000, .i32⟩ : BufTy).Contents (Elt F)),
    reshape main_v2 main_v3 rfl shapeCasts_S1x3200000_S3200000,
    binary main_v3 main_v1 main_v4 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v5 ((extractStridedSlice S1x3200000 ![1, 0] · slices_S2x3200000_S1x3200000_1_0) : (⟨S2x3200000, .i32⟩ : BufTy).Contents (Elt F) → (⟨S1x3200000, .i32⟩ : BufTy).Contents (Elt F)),
    reshape main_v5 main_v6 rfl shapeCasts_S1x3200000_S3200000,
    binary main_v6 main_v1 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

/-- Operations 23 … 41: the wrapped source and target words, the two gathers of the scale and the edge weight. -/
abbrev opsB1 : List (HloOp τ sig (Elt F)) :=
  [ nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v4 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v4 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v4 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v7 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v7 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v7 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)) ]

/-- Operations 42 … 64: the first layer's row gather, weighting, aggregation and bias, the rectifier, the second dense product. -/
abbrev opsB2 : List (HloOp τ sig (Elt F)) :=
  [ nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v4 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v4 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v4 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v0 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v30 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v7 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    binary main_v47 main_arg4 main_v48 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)) ]

/-- Operations 65 … 85: the edge lists, the in-degree count and the scale again. -/
abbrev opsC1 : List (HloOp τ sig (Elt F)) :=
  [ nullary main_v49 (iotaInDim S100000 32 0),
    unary main_arg1 main_v50 ((extractStridedSlice S1x3200000 ![0, 0] · slices_S2x3200000_S1x3200000_0_0) : (⟨S2x3200000, .i32⟩ : BufTy).Contents (Elt F) → (⟨S1x3200000, .i32⟩ : BufTy).Contents (Elt F)),
    reshape main_v50 main_v51 rfl shapeCasts_S1x3200000_S3200000,
    binary main_v51 main_v49 main_v52 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v53 ((extractStridedSlice S1x3200000 ![1, 0] · slices_S2x3200000_S1x3200000_1_0) : (⟨S2x3200000, .i32⟩ : BufTy).Contents (Elt F) → (⟨S1x3200000, .i32⟩ : BufTy).Contents (Elt F)),
    reshape main_v53 main_v54 rfl shapeCasts_S1x3200000_S3200000,
    binary main_v54 main_v49 main_v55 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_9 (constant S_ .f32 0x3F800000#32),
    unary main_cst_9 main_v56 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v57 (broadcastInDim S100000 ![] bcast_S_S100000 : (⟨S_, .f32⟩ : BufTy).Contents (Elt F) → (⟨S100000, .f32⟩ : BufTy).Contents (Elt F)),
    unary main_v55 main_v58 (broadcastInDim S3300000x1 ![0] bcast_S3300000_S3300000x1_0 : (⟨S3300000, .i32⟩ : BufTy).Contents (Elt F) → (⟨S3300000x1, .i32⟩ : BufTy).Contents (Elt F)),
    ternary main_v57 main_v58 main_v56 main_v59 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v60 (broadcastInDim S100000 ![] bcast_S_S100000 : (⟨S_, .f32⟩ : BufTy).Contents (Elt F) → (⟨S100000, .f32⟩ : BufTy).Contents (Elt F)),
    binary main_v59 main_v60 main_v61 (cmpf .ogt : (⟨S100000, .f32⟩ : BufTy).Contents (Elt F) → (⟨S100000, .f32⟩ : BufTy).Contents (Elt F) → (⟨S100000, .i1⟩ : BufTy).Contents (Elt F)),
    unary main_v59 main_v62 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v61) (TRef.of (T := ⟨S100000, .f32⟩) main_v62) (TRef.of (T := ⟨S100000, .f32⟩) main_call2_v1) (TRef.of (T := ⟨S100000, .f32⟩) main_v63) select ]

/-- Operations 86 … 104: the wrapped words, the two gathers of the scale and the edge weight again. -/
abbrev opsC2 : List (HloOp τ sig (Elt F)) :=
  [ nullary main_c_13 (constantI S_ 32 0#32),
    unary main_c_13 main_v64 (broadcastInDim S3300000 ![] bcast_S_S3300000 : (⟨S_, .i32⟩ : BufTy).Contents (Elt F) → (⟨S3300000, .i32⟩ : BufTy).Contents (Elt F)),
    binary main_v52 main_v64 main_v65 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v66 (broadcastInDim S3300000 ![] bcast_S_S3300000 : (⟨S_, .i32⟩ : BufTy).Contents (Elt F) → (⟨S3300000, .i32⟩ : BufTy).Contents (Elt F)),
    binary main_v52 main_v66 main_v67 (addi : (⟨S3300000, .i32⟩ : BufTy).Contents (Elt F) → (⟨S3300000, .i32⟩ : BufTy).Contents (Elt F) → (⟨S3300000, .i32⟩ : BufTy).Contents (Elt F)),
    ternary main_v65 main_v67 main_v52 main_v68 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v68 main_v69 (broadcastInDim S3300000x1 ![0] bcast_S3300000_S3300000x1_0 : (⟨S3300000, .i32⟩ : BufTy).Contents (Elt F) → (⟨S3300000x1, .i32⟩ : BufTy).Contents (Elt F)),
    binary main_v63 main_v69 main_v70 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v71 (broadcastInDim S3300000 ![] bcast_S_S3300000 : (⟨S_, .i32⟩ : BufTy).Contents (Elt F) → (⟨S3300000, .i32⟩ : BufTy).Contents (Elt F)),
    binary main_v55 main_v71 main_v72 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v73 (broadcastInDim S3300000 ![] bcast_S_S3300000 : (⟨S_, .i32⟩ : BufTy).Contents (Elt F) → (⟨S3300000, .i32⟩ : BufTy).Contents (Elt F)),
    binary main_v55 main_v73 main_v74 (addi : (⟨S3300000, .i32⟩ : BufTy).Contents (Elt F) → (⟨S3300000, .i32⟩ : BufTy).Contents (Elt F) → (⟨S3300000, .i32⟩ : BufTy).Contents (Elt F)),
    ternary main_v72 main_v74 main_v55 main_v75 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v75 main_v76 (broadcastInDim S3300000x1 ![0] bcast_S3300000_S3300000x1_0 : (⟨S3300000, .i32⟩ : BufTy).Contents (Elt F) → (⟨S3300000x1, .i32⟩ : BufTy).Contents (Elt F)),
    binary main_v63 main_v76 main_v77 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v70 main_v77 main_v78 (mulf : (⟨S3300000, .f32⟩ : BufTy).Contents (Elt F) → (⟨S3300000, .f32⟩ : BufTy).Contents (Elt F) → (⟨S3300000, .f32⟩ : BufTy).Contents (Elt F)) ]

/-- Operations 105 … 123: the second layer's row gather, weighting, aggregation and bias. -/
abbrev opsC3 : List (HloOp τ sig (Elt F)) :=
  [ nullary main_c_17 (constantI S_ 32 0#32),
    unary main_c_17 main_v79 (broadcastInDim S3300000 ![] bcast_S_S3300000 : (⟨S_, .i32⟩ : BufTy).Contents (Elt F) → (⟨S3300000, .i32⟩ : BufTy).Contents (Elt F)),
    binary main_v52 main_v79 main_v80 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v81 (broadcastInDim S3300000 ![] bcast_S_S3300000 : (⟨S_, .i32⟩ : BufTy).Contents (Elt F) → (⟨S3300000, .i32⟩ : BufTy).Contents (Elt F)),
    binary main_v52 main_v81 main_v82 (addi : (⟨S3300000, .i32⟩ : BufTy).Contents (Elt F) → (⟨S3300000, .i32⟩ : BufTy).Contents (Elt F) → (⟨S3300000, .i32⟩ : BufTy).Contents (Elt F)),
    ternary main_v80 main_v82 main_v52 main_v83 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v83 main_v84 (broadcastInDim S3300000x1 ![0] bcast_S3300000_S3300000x1_0 : (⟨S3300000, .i32⟩ : BufTy).Contents (Elt F) → (⟨S3300000x1, .i32⟩ : BufTy).Contents (Elt F)),
    binary main_v48 main_v84 main_v85 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v78 main_v86 (broadcastInDim S3300000x1 ![0] bcast_S3300000_S3300000x1_0 : (⟨S3300000, .f32⟩ : BufTy).Contents (Elt F) → (⟨S3300000x1, .f32⟩ : BufTy).Contents (Elt F)),
    unary main_v86 main_v87 (broadcastInDim S3300000x40 ![0, 1] bcast_S3300000x1_S3300000x40_0_1 : (⟨S3300000x1, .f32⟩ : BufTy).Contents (Elt F) → (⟨S3300000x40, .f32⟩ : BufTy).Contents (Elt F)),
    binary main_v85 main_v87 main_v88 (mulf : (⟨S3300000x40, .f32⟩ : BufTy).Contents (Elt F) → (⟨S3300000x40, .f32⟩ : BufTy).Contents (Elt F) → (⟨S3300000x40, .f32⟩ : BufTy).Contents (Elt F)),
    nullary main_cst_19 (constant S_ .f32 0x00000000#32),
    unary main_cst_19 main_v89 (broadcastInDim S100000x40 ![] bcast_S_S100000x40 : (⟨S_, .f32⟩ : BufTy).Contents (Elt F) → (⟨S100000x40, .f32⟩ : BufTy).Contents (Elt F)),
    unary main_v55 main_v90 (broadcastInDim S3300000x1 ![0] bcast_S3300000_S3300000x1_0 : (⟨S3300000, .i32⟩ : BufTy).Contents (Elt F) → (⟨S3300000x1, .i32⟩ : BufTy).Contents (Elt F)),
    ternary main_v89 main_v90 main_v88 main_v91 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    unary main_arg5 main_v92 (broadcastInDim S1x40 ![1] bcast_S40_S1x40_1 : (⟨S40, .f32⟩ : BufTy).Contents (Elt F) → (⟨S1x40, .f32⟩ : BufTy).Contents (Elt F)),
    unary main_v92 main_v93 (broadcastInDim S100000x40 ![0, 1] bcast_S1x40_S100000x40_0_1 : (⟨S1x40, .f32⟩ : BufTy).Contents (Elt F) → (⟨S100000x40, .f32⟩ : BufTy).Contents (Elt F)),
    binary main_v91 main_v93 main_v94 (addf : (⟨S100000x40, .f32⟩ : BufTy).Contents (Elt F) → (⟨S100000x40, .f32⟩ : BufTy).Contents (Elt F) → (⟨S100000x40, .f32⟩ : BufTy).Contents (Elt F)) ]

/-- Operations 124 … 138: the row-wise log-softmax. -/
abbrev opsD : List (HloOp τ sig (Elt F)) :=
  [ TRef.nullary (TRef.of (T := ⟨S_, .f32⟩) main_call3_cst) (constant S_ .f32 0xFF800000#32),
    TRef.binary (TRef.of (T := ⟨S100000x40, .f32⟩) main_v94) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v94) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v95) subf ]

/-- @main's 138 operations are the seven pieces in order. -/
theorem ops_split : (ops : List (HloOp τ sig (Elt F)))
    = opsA ++ (opsB1 ++ (opsB2 ++ (opsC1 ++ (opsC2 ++ (opsC3 ++ opsD))))) := rfl

/-- The contents after two lines run one after the other: the second line's, from the first line's. -/
theorem after_append (a b : List (HloOp τ sig (Elt F))) (V : Valuation τ sig (Elt F)) :
    after (a ++ b) V = after b (after a V) := by
  induction a generalizing V with
  | nil => rfl
  | cons op a ih => simp only [List.cons_append, after_cons, ih]

/-- A piece leaves a buffer it does not write as it found it: peel its operations off one by one. -/
macro "kept" : tactic => `(tactic| (after_results; try rfl))

/-- Contents carried to a buffer's own type and back are the contents. -/
theorem ofBuf_toBuf {T : BufTy} (x : TRef sig T) (v : T.Contents (Elt F)) : x.ofBuf (x.toBuf v) = v := by
  obtain ⟨r, h, h2, h3⟩ := x
  subst h
  rfl

/-! ## Each piece, from any contents: what its live-out buffers hold, as the stages of the reference read at its arguments -/

theorem pieceA_v0 (V : Valuation τ sig (Elt F)) :
    after (opsA (F := F)) V (Proc.devRef .tc main_v0)
      = ReadP.val_main_v0 (F := F) (V (Proc.devRef .tc main_arg0)) (V (Proc.devRef .tc main_arg2)) := by
  after_results
  rfl

theorem pieceA_v4 (V : Valuation τ sig (Elt F)) :
    after (opsA (F := F)) V (Proc.devRef .tc main_v4) = ReadP.val_main_v4 (F := F) (V (Proc.devRef .tc main_arg1)) := by
  after_results
  unfold ReadP.val_main_v4 ReadP.val_main_v3 ReadP.val_main_v2 ReadP.val_main_v1
  rfl

theorem pieceA_v7 (V : Valuation τ sig (Elt F)) :
    after (opsA (F := F)) V (Proc.devRef .tc main_v7) = ReadP.val_main_v7 (F := F) (V (Proc.devRef .tc main_arg1)) := by
  after_results
  unfold ReadP.val_main_v7 ReadP.val_main_v6 ReadP.val_main_v5 ReadP.val_main_v1
  rfl

theorem pieceA_v15 (V : Valuation τ sig (Elt F)) :
    after (opsA (F := F)) V (Proc.devRef .tc main_v15) = ReadP.val_main_v15 (F := F) (V (Proc.devRef .tc main_arg1)) := by
  after_results
  unfold ReadP.val_main_v15 ReadP.val_main_v13 ReadP.val_main_v14 ReadP.val_main_v12 ReadP.val_main_call0_v1
    ReadP.val_main_call0_v0 ReadP.val_main_cst_1 ReadP.val_main_cst_2 ReadP.val_main_v11 ReadP.val_main_v9
    ReadP.val_main_v10 ReadP.val_main_v8 ReadP.val_main_cst_0 ReadP.val_main_cst ReadP.val_main_v7 ReadP.val_main_v6
    ReadP.val_main_v5 ReadP.val_main_v1
  rfl

theorem pieceB1_v30 (V : Valuation τ sig (Elt F)) (x1 : (⟨S2x3200000, .i32⟩ : BufTy).Contents (Elt F))
    (h4 : V (Proc.devRef .tc main_v4) = ReadP.val_main_v4 (F := F) x1) (h7 : V (Proc.devRef .tc main_v7) = ReadP.val_main_v7 (F := F) x1)
    (h15 : V (Proc.devRef .tc main_v15) = ReadP.val_main_v15 (F := F) x1) :
    after (opsB1 (F := F)) V (Proc.devRef .tc main_v30) = ReadP.val_main_v30 (F := F) x1 := by
  after_results
  rw [h4, h7, h15]
  unfold ReadP.val_main_v30 ReadP.val_main_v22 ReadP.val_main_v29 ReadP.val_main_v21 ReadP.val_main_v28
    ReadP.val_main_v20 ReadP.val_main_v27 ReadP.val_main_v17 ReadP.val_main_v19 ReadP.val_main_v24 ReadP.val_main_v26
    ReadP.val_main_v16 ReadP.val_main_v18 ReadP.val_main_v23 ReadP.val_main_v25 ReadP.val_main_c ReadP.val_main_c_3
    ReadP.val_main_c_4 ReadP.val_main_c_5
  rfl

theorem pieceB2_v48 (V : Valuation τ sig (Elt F)) (x0 : (⟨S100000x500, .f32⟩ : BufTy).Contents (Elt F)) (x1 : (⟨S2x3200000, .i32⟩ : BufTy).Contents (Elt F)) (x2 : (⟨S500x16, .f32⟩ : BufTy).Contents (Elt F)) (x3 : (⟨S16, .f32⟩ : BufTy).Contents (Elt F)) (x4 : (⟨S16x40, .f32⟩ : BufTy).Contents (Elt F))
    (h0 : V (Proc.devRef .tc main_v0) = ReadP.val_main_v0 (F := F) x0 x2) (h4 : V (Proc.devRef .tc main_v4) = ReadP.val_main_v4 (F := F) x1)
    (h7 : V (Proc.devRef .tc main_v7) = ReadP.val_main_v7 (F := F) x1) (h30 : V (Proc.devRef .tc main_v30) = ReadP.val_main_v30 (F := F) x1)
    (h3 : V (Proc.devRef .tc main_arg3) = x3) (h4' : V (Proc.devRef .tc main_arg4) = x4) :
    after (opsB2 (F := F)) V (Proc.devRef .tc main_v48) = ReadP.val_main_v48 (F := F) x0 x1 x2 x3 x4 := by
  after_results
  rw [h0, h4, h7, h30, h3, h4']
  unfold ReadP.val_main_v48 ReadP.val_main_v47 ReadP.val_main_call1_v0 ReadP.val_main_call1_cst ReadP.val_main_v46
    ReadP.val_main_v45 ReadP.val_main_v44 ReadP.val_main_v43 ReadP.val_main_v41 ReadP.val_main_cst_8
    ReadP.val_main_v42 ReadP.val_main_v40 ReadP.val_main_v37 ReadP.val_main_v36 ReadP.val_main_v35 ReadP.val_main_v32
    ReadP.val_main_v34 ReadP.val_main_v31 ReadP.val_main_v33 ReadP.val_main_c_6 ReadP.val_main_c_7 ReadP.val_main_v39
    ReadP.val_main_v38
  rfl

theorem pieceC1_v52 (V : Valuation τ sig (Elt F)) :
    after (opsC1 (F := F)) V (Proc.devRef .tc main_v52) = ReadP.val_main_v52 (F := F) (V (Proc.devRef .tc main_arg1)) := by
  after_results
  unfold ReadP.val_main_v52 ReadP.val_main_v51 ReadP.val_main_v50 ReadP.val_main_v49
  rfl

theorem pieceC1_v55 (V : Valuation τ sig (Elt F)) :
    after (opsC1 (F := F)) V (Proc.devRef .tc main_v55) = ReadP.val_main_v55 (F := F) (V (Proc.devRef .tc main_arg1)) := by
  after_results
  unfold ReadP.val_main_v55 ReadP.val_main_v54 ReadP.val_main_v53 ReadP.val_main_v49
  rfl

theorem pieceC1_v63 (V : Valuation τ sig (Elt F)) :
    after (opsC1 (F := F)) V (Proc.devRef .tc main_v63) = ReadP.val_main_v63 (F := F) (V (Proc.devRef .tc main_arg1)) := by
  after_results
  unfold ReadP.val_main_v63 ReadP.val_main_v61 ReadP.val_main_v62 ReadP.val_main_v60 ReadP.val_main_call2_v1
    ReadP.val_main_call2_v0 ReadP.val_main_cst_11 ReadP.val_main_cst_12 ReadP.val_main_v59 ReadP.val_main_v57
    ReadP.val_main_v58 ReadP.val_main_v56 ReadP.val_main_cst_10 ReadP.val_main_cst_9 ReadP.val_main_v55
    ReadP.val_main_v54 ReadP.val_main_v53 ReadP.val_main_v49
  rfl

theorem pieceC2_v78 (V : Valuation τ sig (Elt F)) (x1 : (⟨S2x3200000, .i32⟩ : BufTy).Contents (Elt F))
    (h52 : V (Proc.devRef .tc main_v52) = ReadP.val_main_v52 (F := F) x1) (h55 : V (Proc.devRef .tc main_v55) = ReadP.val_main_v55 (F := F) x1)
    (h63 : V (Proc.devRef .tc main_v63) = ReadP.val_main_v63 (F := F) x1) :
    after (opsC2 (F := F)) V (Proc.devRef .tc main_v78) = ReadP.val_main_v78 (F := F) x1 := by
  after_results
  rw [h52, h55, h63]
  unfold ReadP.val_main_v78 ReadP.val_main_v70 ReadP.val_main_v77 ReadP.val_main_v69 ReadP.val_main_v76
    ReadP.val_main_v68 ReadP.val_main_v75 ReadP.val_main_v65 ReadP.val_main_v67 ReadP.val_main_v72 ReadP.val_main_v74
    ReadP.val_main_v64 ReadP.val_main_v66 ReadP.val_main_v71 ReadP.val_main_v73 ReadP.val_main_c_13
    ReadP.val_main_c_14 ReadP.val_main_c_15 ReadP.val_main_c_16
  rfl

theorem pieceC3_v94 (V : Valuation τ sig (Elt F)) (x0 : (⟨S100000x500, .f32⟩ : BufTy).Contents (Elt F)) (x1 : (⟨S2x3200000, .i32⟩ : BufTy).Contents (Elt F)) (x2 : (⟨S500x16, .f32⟩ : BufTy).Contents (Elt F)) (x3 : (⟨S16, .f32⟩ : BufTy).Contents (Elt F)) (x4 : (⟨S16x40, .f32⟩ : BufTy).Contents (Elt F)) (x5 : (⟨S40, .f32⟩ : BufTy).Contents (Elt F))
    (h48 : V (Proc.devRef .tc main_v48) = ReadP.val_main_v48 (F := F) x0 x1 x2 x3 x4) (h52 : V (Proc.devRef .tc main_v52) = ReadP.val_main_v52 (F := F) x1)
    (h55 : V (Proc.devRef .tc main_v55) = ReadP.val_main_v55 (F := F) x1) (h78 : V (Proc.devRef .tc main_v78) = ReadP.val_main_v78 (F := F) x1)
    (h5 : V (Proc.devRef .tc main_arg5) = x5) :
    after (opsC3 (F := F)) V (Proc.devRef .tc main_v94) = ReadP.val_main_v94 (F := F) x0 x1 x2 x3 x4 x5 := by
  after_results
  rw [h48, h52, h55, h78, h5]
  unfold ReadP.val_main_v94 ReadP.val_main_v93 ReadP.val_main_v92 ReadP.val_main_v91 ReadP.val_main_v89
    ReadP.val_main_cst_19 ReadP.val_main_v90 ReadP.val_main_v88 ReadP.val_main_v85 ReadP.val_main_v84
    ReadP.val_main_v83 ReadP.val_main_v80 ReadP.val_main_v82 ReadP.val_main_v79 ReadP.val_main_v81 ReadP.val_main_c_17
    ReadP.val_main_c_18 ReadP.val_main_v87 ReadP.val_main_v86
  rfl

theorem pieceD_v95 (V : Valuation τ sig (Elt F)) (x0 : (⟨S100000x500, .f32⟩ : BufTy).Contents (Elt F)) (x1 : (⟨S2x3200000, .i32⟩ : BufTy).Contents (Elt F)) (x2 : (⟨S500x16, .f32⟩ : BufTy).Contents (Elt F)) (x3 : (⟨S16, .f32⟩ : BufTy).Contents (Elt F)) (x4 : (⟨S16x40, .f32⟩ : BufTy).Contents (Elt F)) (x5 : (⟨S40, .f32⟩ : BufTy).Contents (Elt F))
    (h94 : V (Proc.devRef .tc main_v94) = ReadP.val_main_v94 (F := F) x0 x1 x2 x3 x4 x5) :
    after (opsD (F := F)) V (Proc.devRef .tc main_v95) = ReadP.val_main_v95 (F := F) x0 x1 x2 x3 x4 x5 := by
  after_results
  rw [h94]
  repeat rw [ofBuf_toBuf]
  unfold ReadP.val_main_v95 ReadP.val_main_call3_v10 ReadP.val_main_call3_v9 ReadP.val_main_call3_v8
    ReadP.val_main_call3_v7 ReadP.val_main_call3_v6 ReadP.val_main_call3_cst_1 ReadP.val_main_call3_v5
    ReadP.val_main_call3_v4 ReadP.val_main_call3_v3 ReadP.val_main_call3_v2 ReadP.val_main_call3_v1
    ReadP.val_main_call3_cst_0 ReadP.val_main_call3_v0 ReadP.val_main_call3_cst
  rfl

/-! ## The whole line -/

section Whole

variable (m : (ℓ : Loc nD τ sig) → Buf (Elt F) ℓ) (c : Dev nD)

/-- The device's contents after the first piece, from the launch contents. -/
def WA : Valuation τ sig (Elt F) := after opsA (launchContents m c)
/-- … after the second piece. -/
def WB1 : Valuation τ sig (Elt F) := after opsB1 (WA m c)
/-- … after the third piece. -/
def WB2 : Valuation τ sig (Elt F) := after opsB2 (WB1 m c)
/-- … after the fourth piece. -/
def WC1 : Valuation τ sig (Elt F) := after opsC1 (WB2 m c)
/-- … after the fifth piece. -/
def WC2 : Valuation τ sig (Elt F) := after opsC2 (WC1 m c)
/-- … after the sixth piece. -/
def WC3 : Valuation τ sig (Elt F) := after opsC3 (WC2 m c)
/-- … after the last piece: after the whole line. -/
def WD : Valuation τ sig (Elt F) := after opsD (WC3 m c)

theorem after_ops : after (ops (F := F)) (launchContents m c) = WD m c := by
  unfold WD WC3 WC2 WC1 WB2 WB1 WA
  rw [ops_split, after_append, after_append, after_append, after_append, after_append, after_append]

/-! ### After the first piece -/

theorem WA_v0 : WA m c (Proc.devRef .tc main_v0) = ReadP.val_main_v0 (F := F) (m ((c.tc : Thread nD τ).loc main_arg0)) (m ((c.tc : Thread nD τ).loc main_arg2)) := pieceA_v0 _
theorem WA_v4 : WA m c (Proc.devRef .tc main_v4) = ReadP.val_main_v4 (F := F) (m ((c.tc : Thread nD τ).loc main_arg1)) := pieceA_v4 _
theorem WA_v7 : WA m c (Proc.devRef .tc main_v7) = ReadP.val_main_v7 (F := F) (m ((c.tc : Thread nD τ).loc main_arg1)) := pieceA_v7 _
theorem WA_v15 : WA m c (Proc.devRef .tc main_v15) = ReadP.val_main_v15 (F := F) (m ((c.tc : Thread nD τ).loc main_arg1)) := pieceA_v15 _
theorem WA_arg1 : WA m c (Proc.devRef .tc main_arg1) = (m ((c.tc : Thread nD τ).loc main_arg1)) := by unfold WA; kept
theorem WA_arg3 : WA m c (Proc.devRef .tc main_arg3) = (m ((c.tc : Thread nD τ).loc main_arg3)) := by unfold WA; kept
theorem WA_arg4 : WA m c (Proc.devRef .tc main_arg4) = (m ((c.tc : Thread nD τ).loc main_arg4)) := by unfold WA; kept
theorem WA_arg5 : WA m c (Proc.devRef .tc main_arg5) = (m ((c.tc : Thread nD τ).loc main_arg5)) := by unfold WA; kept

/-! ### After the second piece -/

theorem WB1_v30 : WB1 m c (Proc.devRef .tc main_v30) = ReadP.val_main_v30 (F := F) (m ((c.tc : Thread nD τ).loc main_arg1)) :=
  pieceB1_v30 _ _ (WA_v4 m c) (WA_v7 m c) (WA_v15 m c)
theorem WB1_v0 : WB1 m c (Proc.devRef .tc main_v0) = ReadP.val_main_v0 (F := F) (m ((c.tc : Thread nD τ).loc main_arg0)) (m ((c.tc : Thread nD τ).loc main_arg2)) :=
  (show WB1 m c (Proc.devRef .tc main_v0) = WA m c (Proc.devRef .tc main_v0) by unfold WB1; kept).trans (WA_v0 m c)
theorem WB1_v4 : WB1 m c (Proc.devRef .tc main_v4) = ReadP.val_main_v4 (F := F) (m ((c.tc : Thread nD τ).loc main_arg1)) :=
  (show WB1 m c (Proc.devRef .tc main_v4) = WA m c (Proc.devRef .tc main_v4) by unfold WB1; kept).trans (WA_v4 m c)
theorem WB1_v7 : WB1 m c (Proc.devRef .tc main_v7) = ReadP.val_main_v7 (F := F) (m ((c.tc : Thread nD τ).loc main_arg1)) :=
  (show WB1 m c (Proc.devRef .tc main_v7) = WA m c (Proc.devRef .tc main_v7) by unfold WB1; kept).trans (WA_v7 m c)
theorem WB1_arg1 : WB1 m c (Proc.devRef .tc main_arg1) = (m ((c.tc : Thread nD τ).loc main_arg1)) :=
  (show WB1 m c (Proc.devRef .tc main_arg1) = WA m c (Proc.devRef .tc main_arg1) by unfold WB1; kept).trans (WA_arg1 m c)
theorem WB1_arg3 : WB1 m c (Proc.devRef .tc main_arg3) = (m ((c.tc : Thread nD τ).loc main_arg3)) :=
  (show WB1 m c (Proc.devRef .tc main_arg3) = WA m c (Proc.devRef .tc main_arg3) by unfold WB1; kept).trans (WA_arg3 m c)
theorem WB1_arg4 : WB1 m c (Proc.devRef .tc main_arg4) = (m ((c.tc : Thread nD τ).loc main_arg4)) :=
  (show WB1 m c (Proc.devRef .tc main_arg4) = WA m c (Proc.devRef .tc main_arg4) by unfold WB1; kept).trans (WA_arg4 m c)
theorem WB1_arg5 : WB1 m c (Proc.devRef .tc main_arg5) = (m ((c.tc : Thread nD τ).loc main_arg5)) :=
  (show WB1 m c (Proc.devRef .tc main_arg5) = WA m c (Proc.devRef .tc main_arg5) by unfold WB1; kept).trans (WA_arg5 m c)

/-! ### After the third piece: the first layer and the second dense product -/

theorem WB2_v48 : WB2 m c (Proc.devRef .tc main_v48) = ReadP.val_main_v48 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  pieceB2_v48 _ _ _ _ _ _ (WB1_v0 m c) (WB1_v4 m c) (WB1_v7 m c) (WB1_v30 m c) (WB1_arg3 m c) (WB1_arg4 m c)
theorem WB2_arg1 : WB2 m c (Proc.devRef .tc main_arg1) = (m ((c.tc : Thread nD τ).loc main_arg1)) :=
  (show WB2 m c (Proc.devRef .tc main_arg1) = WB1 m c (Proc.devRef .tc main_arg1) by unfold WB2; kept).trans (WB1_arg1 m c)
theorem WB2_arg5 : WB2 m c (Proc.devRef .tc main_arg5) = (m ((c.tc : Thread nD τ).loc main_arg5)) :=
  (show WB2 m c (Proc.devRef .tc main_arg5) = WB1 m c (Proc.devRef .tc main_arg5) by unfold WB2; kept).trans (WB1_arg5 m c)

/-! ### After the fourth piece -/

theorem WC1_v52 : WC1 m c (Proc.devRef .tc main_v52) = ReadP.val_main_v52 (F := F) (m ((c.tc : Thread nD τ).loc main_arg1)) :=
  (pieceC1_v52 _).trans (congrArg _ (WB2_arg1 m c))
theorem WC1_v55 : WC1 m c (Proc.devRef .tc main_v55) = ReadP.val_main_v55 (F := F) (m ((c.tc : Thread nD τ).loc main_arg1)) :=
  (pieceC1_v55 _).trans (congrArg _ (WB2_arg1 m c))
theorem WC1_v63 : WC1 m c (Proc.devRef .tc main_v63) = ReadP.val_main_v63 (F := F) (m ((c.tc : Thread nD τ).loc main_arg1)) :=
  (pieceC1_v63 _).trans (congrArg _ (WB2_arg1 m c))
theorem WC1_v48 : WC1 m c (Proc.devRef .tc main_v48) = ReadP.val_main_v48 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (show WC1 m c (Proc.devRef .tc main_v48) = WB2 m c (Proc.devRef .tc main_v48) by unfold WC1; kept).trans (WB2_v48 m c)
theorem WC1_arg5 : WC1 m c (Proc.devRef .tc main_arg5) = (m ((c.tc : Thread nD τ).loc main_arg5)) :=
  (show WC1 m c (Proc.devRef .tc main_arg5) = WB2 m c (Proc.devRef .tc main_arg5) by unfold WC1; kept).trans (WB2_arg5 m c)

/-! ### After the fifth piece -/

theorem WC2_v78 : WC2 m c (Proc.devRef .tc main_v78) = ReadP.val_main_v78 (F := F) (m ((c.tc : Thread nD τ).loc main_arg1)) :=
  pieceC2_v78 _ _ (WC1_v52 m c) (WC1_v55 m c) (WC1_v63 m c)
theorem WC2_v52 : WC2 m c (Proc.devRef .tc main_v52) = ReadP.val_main_v52 (F := F) (m ((c.tc : Thread nD τ).loc main_arg1)) :=
  (show WC2 m c (Proc.devRef .tc main_v52) = WC1 m c (Proc.devRef .tc main_v52) by unfold WC2; kept).trans (WC1_v52 m c)
theorem WC2_v55 : WC2 m c (Proc.devRef .tc main_v55) = ReadP.val_main_v55 (F := F) (m ((c.tc : Thread nD τ).loc main_arg1)) :=
  (show WC2 m c (Proc.devRef .tc main_v55) = WC1 m c (Proc.devRef .tc main_v55) by unfold WC2; kept).trans (WC1_v55 m c)
theorem WC2_v48 : WC2 m c (Proc.devRef .tc main_v48) = ReadP.val_main_v48 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (show WC2 m c (Proc.devRef .tc main_v48) = WC1 m c (Proc.devRef .tc main_v48) by unfold WC2; kept).trans (WC1_v48 m c)
theorem WC2_arg5 : WC2 m c (Proc.devRef .tc main_arg5) = (m ((c.tc : Thread nD τ).loc main_arg5)) :=
  (show WC2 m c (Proc.devRef .tc main_arg5) = WC1 m c (Proc.devRef .tc main_arg5) by unfold WC2; kept).trans (WC1_arg5 m c)

/-! ### After the sixth piece: the second layer; after the last: the result -/

theorem WC3_v94 : WC3 m c (Proc.devRef .tc main_v94) = ReadP.val_main_v94 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  pieceC3_v94 _ _ _ _ _ _ _ (WC2_v48 m c) (WC2_v52 m c) (WC2_v55 m c) (WC2_v78 m c) (WC2_arg5 m c)

theorem WD_v95 : WD m c (Proc.devRef .tc main_v95) = ReadP.val_main_v95 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  pieceD_v95 _ _ _ _ _ _ _ (WC3_v94 m c)

/-- The result buffer after the whole line is the last stage of the reference read at the launch contents of the arguments. -/
theorem out_eq : after (ops (F := F)) (launchContents m c) (Proc.devRef .tc main_v95)
    = ReadP.val_main_v95 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [after_ops]
  exact WD_v95 m c

/-! ### No piece writes an argument -/

theorem WD_arg0 : WD m c (Proc.devRef .tc main_arg0) = (m ((c.tc : Thread nD τ).loc main_arg0)) :=
  calc WD m c (Proc.devRef .tc main_arg0)
    _ = WC3 m c (Proc.devRef .tc main_arg0) := by unfold WD; kept
    _ = WC2 m c (Proc.devRef .tc main_arg0) := by unfold WC3; kept
    _ = WC1 m c (Proc.devRef .tc main_arg0) := by unfold WC2; kept
    _ = WB2 m c (Proc.devRef .tc main_arg0) := by unfold WC1; kept
    _ = WB1 m c (Proc.devRef .tc main_arg0) := by unfold WB2; kept
    _ = WA m c (Proc.devRef .tc main_arg0) := by unfold WB1; kept
    _ = (m ((c.tc : Thread nD τ).loc main_arg0)) := by unfold WA; kept

theorem WD_arg1 : WD m c (Proc.devRef .tc main_arg1) = (m ((c.tc : Thread nD τ).loc main_arg1)) :=
  calc WD m c (Proc.devRef .tc main_arg1)
    _ = WC3 m c (Proc.devRef .tc main_arg1) := by unfold WD; kept
    _ = WC2 m c (Proc.devRef .tc main_arg1) := by unfold WC3; kept
    _ = WC1 m c (Proc.devRef .tc main_arg1) := by unfold WC2; kept
    _ = WB2 m c (Proc.devRef .tc main_arg1) := by unfold WC1; kept
    _ = WB1 m c (Proc.devRef .tc main_arg1) := by unfold WB2; kept
    _ = WA m c (Proc.devRef .tc main_arg1) := by unfold WB1; kept
    _ = (m ((c.tc : Thread nD τ).loc main_arg1)) := by unfold WA; kept

theorem WD_arg2 : WD m c (Proc.devRef .tc main_arg2) = (m ((c.tc : Thread nD τ).loc main_arg2)) :=
  calc WD m c (Proc.devRef .tc main_arg2)
    _ = WC3 m c (Proc.devRef .tc main_arg2) := by unfold WD; kept
    _ = WC2 m c (Proc.devRef .tc main_arg2) := by unfold WC3; kept
    _ = WC1 m c (Proc.devRef .tc main_arg2) := by unfold WC2; kept
    _ = WB2 m c (Proc.devRef .tc main_arg2) := by unfold WC1; kept
    _ = WB1 m c (Proc.devRef .tc main_arg2) := by unfold WB2; kept
    _ = WA m c (Proc.devRef .tc main_arg2) := by unfold WB1; kept
    _ = (m ((c.tc : Thread nD τ).loc main_arg2)) := by unfold WA; kept

theorem WD_arg3 : WD m c (Proc.devRef .tc main_arg3) = (m ((c.tc : Thread nD τ).loc main_arg3)) :=
  calc WD m c (Proc.devRef .tc main_arg3)
    _ = WC3 m c (Proc.devRef .tc main_arg3) := by unfold WD; kept
    _ = WC2 m c (Proc.devRef .tc main_arg3) := by unfold WC3; kept
    _ = WC1 m c (Proc.devRef .tc main_arg3) := by unfold WC2; kept
    _ = WB2 m c (Proc.devRef .tc main_arg3) := by unfold WC1; kept
    _ = WB1 m c (Proc.devRef .tc main_arg3) := by unfold WB2; kept
    _ = WA m c (Proc.devRef .tc main_arg3) := by unfold WB1; kept
    _ = (m ((c.tc : Thread nD τ).loc main_arg3)) := by unfold WA; kept

theorem WD_arg4 : WD m c (Proc.devRef .tc main_arg4) = (m ((c.tc : Thread nD τ).loc main_arg4)) :=
  calc WD m c (Proc.devRef .tc main_arg4)
    _ = WC3 m c (Proc.devRef .tc main_arg4) := by unfold WD; kept
    _ = WC2 m c (Proc.devRef .tc main_arg4) := by unfold WC3; kept
    _ = WC1 m c (Proc.devRef .tc main_arg4) := by unfold WC2; kept
    _ = WB2 m c (Proc.devRef .tc main_arg4) := by unfold WC1; kept
    _ = WB1 m c (Proc.devRef .tc main_arg4) := by unfold WB2; kept
    _ = WA m c (Proc.devRef .tc main_arg4) := by unfold WB1; kept
    _ = (m ((c.tc : Thread nD τ).loc main_arg4)) := by unfold WA; kept

theorem WD_arg5 : WD m c (Proc.devRef .tc main_arg5) = (m ((c.tc : Thread nD τ).loc main_arg5)) :=
  calc WD m c (Proc.devRef .tc main_arg5)
    _ = WC3 m c (Proc.devRef .tc main_arg5) := by unfold WD; kept
    _ = WC2 m c (Proc.devRef .tc main_arg5) := by unfold WC3; kept
    _ = WC1 m c (Proc.devRef .tc main_arg5) := by unfold WC2; kept
    _ = WB2 m c (Proc.devRef .tc main_arg5) := by unfold WC1; kept
    _ = WB1 m c (Proc.devRef .tc main_arg5) := by unfold WB2; kept
    _ = WA m c (Proc.devRef .tc main_arg5) := by unfold WB1; kept
    _ = (m ((c.tc : Thread nD τ).loc main_arg5)) := by unfold WA; kept

theorem arg0_eq : after (ops (F := F)) (launchContents m c) (Proc.devRef .tc main_arg0) = (m ((c.tc : Thread nD τ).loc main_arg0)) := by
  rw [after_ops]
  exact WD_arg0 m c
theorem arg1_eq : after (ops (F := F)) (launchContents m c) (Proc.devRef .tc main_arg1) = (m ((c.tc : Thread nD τ).loc main_arg1)) := by
  rw [after_ops]
  exact WD_arg1 m c
theorem arg2_eq : after (ops (F := F)) (launchContents m c) (Proc.devRef .tc main_arg2) = (m ((c.tc : Thread nD τ).loc main_arg2)) := by
  rw [after_ops]
  exact WD_arg2 m c
theorem arg3_eq : after (ops (F := F)) (launchContents m c) (Proc.devRef .tc main_arg3) = (m ((c.tc : Thread nD τ).loc main_arg3)) := by
  rw [after_ops]
  exact WD_arg3 m c
theorem arg4_eq : after (ops (F := F)) (launchContents m c) (Proc.devRef .tc main_arg4) = (m ((c.tc : Thread nD τ).loc main_arg4)) := by
  rw [after_ops]
  exact WD_arg4 m c
theorem arg5_eq : after (ops (F := F)) (launchContents m c) (Proc.devRef .tc main_arg5) = (m ((c.tc : Thread nD τ).loc main_arg5)) := by
  rw [after_ops]
  exact WD_arg5 m c

end Whole

set_option maxRecDepth 8192 in
set_option maxHeartbeats 55200000 in
/-- On every device, from any memory with zero counters: every weakly fair execution of @main terminates, and every
    buffer ends at the fold of the 138 operations' results over the device's launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ

/-- On every device, for any float values, from any memory with zero counters: every weakly fair execution of
    @main terminates with the result at the reference's last stage read at the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95) = ReadP.val_main_v95 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v95).trans (out_eq m c),
      (h c main_arg0).trans (arg0_eq m c), (h c main_arg1).trans (arg1_eq m c), (h c main_arg2).trans (arg2_eq m c),
      (h c main_arg3).trans (arg3_eq m c), (h c main_arg4).trans (arg4_eq m c), (h c main_arg5).trans (arg5_eq m c)⟩)
    (run_after m ρ)

end Cert.ReferenceIdeal.RunH

end
-- ==== Proof.KRun.lean ====
/-
  The idealized kernel program's run with its RESULT named. The program is three pipelined regions among stretches of
  host operations; its buffers at each boundary are a fold from the launch memory (`Gen.W0` … `Gen.W8`), and every
  weakly fair execution ends with each unscoped buffer at the last boundary's contents `Gen.W8`. The frame claim reads
  only the six argument arrays off that final state; here the result array `main_v40` is read off it as well:
  it ends at `Gen.W8 m ρ c main_v40`, what region 2's write-backs leave.
-/
import proofs.«102929_j30116310680051_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the argument arrays as launched. -/
theorem run_result : θ_run defs (onTc (τ := τ) (main (F := F))) ⟨m, fun _ => 0, ρ⟩ (fun r => ∀ c : Dev nD,
      r.2.mem ((c.tc : Thread nD τ).loc main_v40) = W8 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v40 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.KRun

end
-- ==== Proof.K0.lean ====
import proofs.«102929_j30116310680051_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
  The value of the first kernel region: each row of the row-blocked product, scaled by the row's entry of the scale
  column. First the body's result at an index of a block, then the blocks assembled into the whole array.
-/

noncomputable section

namespace Cert.KernelIdeal.K0

open Cert.KernelIdeal Cert.KernelIdeal.Gen Idealize.ShloMosaic Idealize.ShloMosaic.TcCoe Idealize.SL.Sem
open Idealize.ShloMosaic.Pipeline (Dat)
open Idealize.ShloMosaic.ValueIdx

/-- A column `[4000, 1]` broadcast over 16 lanes reads, at `(p, q)`, the column's entry in row `p`. -/
theorem column_broadcast (v : S4000x1.Idx → EReal) (h : S4000x1.Broadcasts S4000x16) (p : Fin 4000) (q : Fin 16) :
    broadcastTo S4000x16 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-! The product's two operand indices, coordinate by coordinate: the left operand is read at the output's row and the
    contracted coordinate, the right one at the contracted coordinate and the output's column. -/

theorem lhs_row (i : S4000x16.Idx) (c : dot_S4000x500_S500x16_S4000x16_1_0_0_1_n_n.contr.Idx) :
    (dot_S4000x500_S500x16_S4000x16_1_0_0_1_n_n.lhsIdx i c 0).val = (i 0).val := by
  unfold DotDims.lhsIdx
  rw [dif_neg (show ¬(0 : Fin S4000x500.rank) ∈ dot_S4000x500_S500x16_S4000x16_1_0_0_1_n_n.lhsBatch by decide), dif_pos (show (0 : Fin S4000x500.rank) ∈ dot_S4000x500_S500x16_S4000x16_1_0_0_1_n_n.lhsNonContracting by decide)]
  rfl
theorem lhs_contracted (i : S4000x16.Idx) (c : dot_S4000x500_S500x16_S4000x16_1_0_0_1_n_n.contr.Idx) :
    (dot_S4000x500_S500x16_S4000x16_1_0_0_1_n_n.lhsIdx i c 1).val = (c ⟨0, by decide⟩).val :=
  dot_S4000x500_S500x16_S4000x16_1_0_0_1_n_n.lhsIdx_val_of_single rfl i c
theorem rhs_contracted (i : S4000x16.Idx) (c : dot_S4000x500_S500x16_S4000x16_1_0_0_1_n_n.contr.Idx) :
    (dot_S4000x500_S500x16_S4000x16_1_0_0_1_n_n.rhsIdx i c 0).val = (c ⟨0, by decide⟩).val :=
  dot_S4000x500_S500x16_S4000x16_1_0_0_1_n_n.rhsIdx_val_of_single rfl i c
theorem rhs_column (i : S4000x16.Idx) (c : dot_S4000x500_S500x16_S4000x16_1_0_0_1_n_n.contr.Idx) :
    (dot_S4000x500_S500x16_S4000x16_1_0_0_1_n_n.rhsIdx i c 1).val = (i 1).val := by
  unfold DotDims.rhsIdx
  rw [dif_neg (show ¬(1 : Fin S500x16.rank) ∈ dot_S4000x500_S500x16_S4000x16_1_0_0_1_n_n.rhsBatch by decide), dif_pos (show (1 : Fin S500x16.rank) ∈ dot_S4000x500_S500x16_S4000x16_1_0_0_1_n_n.rhsNonContracting by decide)]
  rfl

theorem lhs_index (p : Fin 4000) (q : Fin 16) (k : Fin 500) :
    dot_S4000x500_S500x16_S4000x16_1_0_0_1_n_n.lhsIdx (ix2 p q) ((contrEquiv1 dot_S4000x500_S500x16_S4000x16_1_0_0_1_n_n 500 rfl rfl).symm k) = ix2 p k := by
  have hk := contrEquiv1_symm_val dot_S4000x500_S500x16_S4000x16_1_0_0_1_n_n 500 rfl rfl k
  exact funext fun a => Fin.ext (by
    match a with
    | ⟨0, _⟩ => exact lhs_row _ _
    | ⟨1, _⟩ => exact (lhs_contracted _ _).trans hk)

theorem rhs_index (p : Fin 4000) (q : Fin 16) (k : Fin 500) :
    dot_S4000x500_S500x16_S4000x16_1_0_0_1_n_n.rhsIdx (ix2 p q) ((contrEquiv1 dot_S4000x500_S500x16_S4000x16_1_0_0_1_n_n 500 rfl rfl).symm k) = ix2 k q := by
  have hk := contrEquiv1_symm_val dot_S4000x500_S500x16_S4000x16_1_0_0_1_n_n 500 rfl rfl k
  exact funext fun a => Fin.ext (by
    match a with
    | ⟨0, _⟩ => exact (rhs_contracted _ _).trans hk
    | ⟨1, _⟩ => exact rhs_column _ _)

/-- The body's result at row `p`, lane `q` of the block: the row's scale times the row of the first operand
    against the column of the second. -/
theorem pay_apply (x0 : Vec Ideal S4000x500 .f32) (x1 : Vec Ideal S500x16 .f32) (x2 : Vec Ideal S4000x1 .f32)
    (p : Fin 4000) (q : Fin 16) :
    k0_pay1 x0 x1 x2 (ix2 p q) = x2 (ix2 p (0 : Fin 1)) * ∑ k : Fin 500, x0 (ix2 p k) * x1 (ix2 k q) := by
  unfold k0_pay1
  rw [mulf_apply, shapeCast_self, column_broadcast]
  refine congrArg (x2 (ix2 p (0 : Fin 1)) * ·) ?_
  refine (Ideal.matmul_constant_zero_apply dot_S4000x500_S500x16_S4000x16_1_0_0_1_n_n none _ _ (ix2 p q)).trans ?_
  rw [← Equiv.sum_comp (contrEquiv1 dot_S4000x500_S500x16_S4000x16_1_0_0_1_n_n 500 rfl rfl).symm]
  refine Finset.sum_congr rfl fun k _ => ?_
  rw [lhs_index, rhs_index]
  rfl

/-! ## From the blocks to the whole array -/

/-- Row `r`, column `j` of the result: the row's scale times the product of row `r` of the first matrix with
    column `j` of the second. -/
def rowForm (a0 : S100000x500.Idx → EReal) (a1 : S500x16.Idx → EReal) (a2 : S100000x1.Idx → EReal)
    (r : Fin 100000) (j : Fin 16) : EReal :=
  a2 (ix2 r (0 : Fin 1)) * ∑ k : Fin 500, a0 (ix2 r k) * a1 (ix2 k j)

/-- The whole result as one function of the three argument arrays, index by index. -/
def G (a0 : S100000x500.Idx → EReal) (a1 : S500x16.Idx → EReal) (a2 : S100000x1.Idx → EReal) :
    S100000x16.Idx → EReal :=
  fun i => rowForm a0 a1 a2 (i 0) (i 1)

/-- `G` at row `r`, column `j`. -/
theorem G_apply (a0 : S100000x500.Idx → EReal) (a1 : S500x16.Idx → EReal) (a2 : S100000x1.Idx → EReal)
    (r : Fin 100000) (j : Fin 16) :
    G a0 a1 a2 (ix2 r j) = a2 (ix2 r (0 : Fin 1)) * ∑ k : Fin 500, a0 (ix2 r k) * a1 (ix2 k j) := rfl

theorem offsets_zero : (![0, 0] : Fin 2 → Nat) = fun _ => 0 := funext fun a => by fin_cases a <;> rfl

/-- The block indices at grid point `t`: the row-blocked windows sit at block row `t`, the weight matrix is
    one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- Where an element of the first operand's block at point `t` sits in its array. -/
theorem emb_lhs (t : Fin cfg0.N) (p : Fin 4000) (k : Fin 500) (r : Fin 100000) (hr : r.val = t.val * 4000 + p.val) :
    ((cfg0.win 0).blk t).view.emb (ix2 p k) = ix2 r k := by
  obtain ⟨e00, e01, -⟩ := idx_facts t
  funext a; apply Fin.ext
  match a with
  | ⟨0, _⟩ => show win0_0.index t (0 : Fin 2) * 4000 + 1 * p.val = r.val; omega
  | ⟨1, _⟩ => show win0_0.index t (1 : Fin 2) * 500 + 1 * k.val = k.val; omega

/-- The weight matrix's one block is the matrix. -/
theorem emb_rhs (t : Fin cfg0.N) (k : Fin 500) (q : Fin 16) :
    ((cfg0.win 1).blk t).view.emb (ix2 k q) = ix2 k q := by
  obtain ⟨-, -, e10, e11, -⟩ := idx_facts t
  funext a; apply Fin.ext
  match a with
  | ⟨0, _⟩ => show win0_1.index t (0 : Fin 2) * 500 + 1 * k.val = k.val; omega
  | ⟨1, _⟩ => show win0_1.index t (1 : Fin 2) * 16 + 1 * q.val = q.val; omega

/-- Where an element of the scale column's block at point `t` sits in its array. -/
theorem emb_scale (t : Fin cfg0.N) (p : Fin 4000) (r : Fin 100000) (hr : r.val = t.val * 4000 + p.val) :
    ((cfg0.win 2).blk t).view.emb (ix2 p (0 : Fin 1)) = ix2 r (0 : Fin 1) := by
  obtain ⟨-, -, -, -, e20, e21, -⟩ := idx_facts t
  funext a; apply Fin.ext
  match a with
  | ⟨0, _⟩ => show win0_2.index t (0 : Fin 2) * 4000 + 1 * p.val = r.val; omega
  | ⟨1, _⟩ => show win0_2.index t (1 : Fin 2) * 1 + 1 * 0 = 0; omega

/-- An element of the first operand's block at point `t`, read off its array. -/
theorem iblk_lhs (c : Dev nD) (t : Fin cfg0.N) (p : Fin 4000) (k : Fin 500) (r : Fin 100000) (hr : r.val = t.val * 4000 + p.val) :
    iblk0 V c 0 t (ix2 p k) = V c main_arg0 (ix2 r k) := by
  show V c main_arg0 (((cfg0.win 0).blk t).view.emb (ix2 p k)) = V c main_arg0 (ix2 r k)
  exact congrArg _ (emb_lhs t p k r hr)

/-- An element of the weight matrix's block, read off its array. -/
theorem iblk_rhs (c : Dev nD) (t : Fin cfg0.N) (k : Fin 500) (q : Fin 16) :
    iblk0 V c 1 t (ix2 k q) = V c main_arg2 (ix2 k q) := by
  show V c main_arg2 (((cfg0.win 1).blk t).view.emb (ix2 k q)) = V c main_arg2 (ix2 k q)
  exact congrArg _ (emb_rhs t k q)

/-- An element of the scale column's block at point `t`, read off its array. -/
theorem iblk_scale (c : Dev nD) (t : Fin cfg0.N) (p : Fin 4000) (r : Fin 100000) (hr : r.val = t.val * 4000 + p.val) :
    iblk0 V c 2 t (ix2 p (0 : Fin 1)) = V c main_v15 (ix2 r (0 : Fin 1)) := by
  show V c main_v15 (((cfg0.win 2).blk t).view.emb (ix2 p (0 : Fin 1))) = V c main_v15 (ix2 r (0 : Fin 1))
  exact congrArg _ (emb_scale t p r hr)

/-- What grid point `t` writes back is block `t` of `G` of the arrays as the region finds them. -/
theorem flushed_eq (c : Dev nD) (t : Fin cfg0.N) :
    (dat0 (F := Ideal) V c).flushed 3 t
      = ((cfg0.win 3).blk t).view.read (Elt Ideal) (G (V c main_arg0) (V c main_arg2) (V c main_v15)) := by
  show (cfg0.win 3).cut (grid0.coords t) ((dat0 V c).after 3 t) = _
  rw [after0_3]
  unfold out0_3
  rw [View.canon_unit_zero offsets_zero]
  simp only [View.ld_unit_zero (S := S4000x500) offsets_zero, View.ld_unit_zero (S := S500x16) offsets_zero,
    View.ld_unit_zero (S := S4000x1) offsets_zero]
  have ht : t.val < 25 := t.isLt
  funext y
  have hy0 : (y 0).val < 4000 := (y 0).isLt
  have hy1 : (y 1).val < 16 := (y 1).isLt
  have hx : (cfg0.win 3).xinj (grid0.coords t) y = ix2 (⟨(y 0).val, hy0⟩ : Fin 4000) (⟨(y 1).val, hy1⟩ : Fin 16) :=
    funext fun a => by match a with | ⟨0, _⟩ => rfl | ⟨1, _⟩ => rfl
  have hr : t.val * 4000 + (y 0).val < 100000 := by omega
  have he : ((cfg0.win 3).blk t).view.emb y
      = ix2 (⟨t.val * 4000 + (y 0).val, hr⟩ : Fin 100000) (⟨(y 1).val, hy1⟩ : Fin 16) := by
    obtain ⟨-, -, -, -, -, -, e30, e31⟩ := idx_facts t
    funext a; apply Fin.ext
    match a with
    | ⟨0, _⟩ => show win0_3.index t (0 : Fin 2) * 4000 + 1 * (y 0).val = t.val * 4000 + (y 0).val; omega
    | ⟨1, _⟩ => show win0_3.index t (1 : Fin 2) * 16 + 1 * (y 1).val = (y 1).val; omega
  show k0_pay1 (iblk0 V c 0 t) (iblk0 V c 1 t) (iblk0 V c 2 t) ((cfg0.win 3).xinj (grid0.coords t) y)
    = G (V c main_arg0) (V c main_arg2) (V c main_v15) (((cfg0.win 3).blk t).view.emb y)
  rw [hx, he, G_apply]
  refine (pay_apply _ _ _ _ _).trans ?_
  exact congrArg₂ (· * ·) (iblk_scale V c t _ _ rfl)
    (Finset.sum_congr rfl fun k _ => congrArg₂ (· * ·) (iblk_lhs V c t _ k _ rfl) (iblk_rhs V c t k _))

end

section
variable (V : (c : Dev nD) → (b : Ref sig .tc) → Buf (Elt Ideal) ((c : Thread nD τ).loc b))

/-- An index of the result is in point `t`'s block iff each coordinate is in the block's range on its axis. -/
theorem mem_blk (t : Fin cfg0.N) (i : S100000x16.Idx) :
    i ∈ ((cfg0.win 3).blk t).view.set ↔ ∀ a : Fin 2, win0_3.index t a * S4000x16.size a ≤ (i a).val ∧ (i a).val < win0_3.index t a * S4000x16.size a + S4000x16.size a := by
  show i ∈ ((View.whole main_v16).slice (win0_3.rect t)).set ↔ _
  rw [View.set_slice_whole, Rect.mem_set_unit]
  exact Iff.rfl

/-- Every index of the result lies in the block of the point that holds its row: row `r` belongs to point `r / 4000`. -/
theorem cover (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  have hN : cfg0.N = 25 := N_0
  have hlt : (i 0).val / 4000 < cfg0.N := by rw [hN]; omega
  refine ⟨⟨(i 0).val / 4000, hlt⟩, flush0_3 _, ?_⟩
  rw [mem_blk]
  obtain ⟨-, -, -, -, -, -, e30, e31⟩ := idx_facts ⟨(i 0).val / 4000, hlt⟩
  intro a
  match a with
  | ⟨0, _⟩ =>
    show win0_3.index ⟨(i 0).val / 4000, hlt⟩ (0 : Fin 2) * 4000 ≤ (i 0).val ∧ (i 0).val < win0_3.index ⟨(i 0).val / 4000, hlt⟩ (0 : Fin 2) * 4000 + 4000
    rw [e30]
    show (i 0).val / 4000 * 4000 ≤ (i 0).val ∧ (i 0).val < (i 0).val / 4000 * 4000 + 4000
    omega
  | ⟨1, _⟩ =>
    show win0_3.index ⟨(i 0).val / 4000, hlt⟩ (1 : Fin 2) * 16 ≤ (i 1).val ∧ (i 1).val < win0_3.index ⟨(i 0).val / 4000, hlt⟩ (1 : Fin 2) * 16 + 16
    omega

/-- The result array after the region: `G` of the arrays the region found. -/
theorem arr_eq (c : Dev nD) :
    (dat0 (F := Ideal) V c).arrAt 3 cfg0.N = G (V c main_arg0) (V c main_arg2) (V c main_v15) :=
  (dat0 (F := Ideal) V c).arrAt_eq_of_cover 3 (G (V c main_arg0) (V c main_arg2) (V c main_v15))
    (fun t _ => flushed_eq V c t) cover

/-- The result at row `r`, column `j`: the row's scale times the product of the row of the first matrix with the
    column of the second (`a0`, `a1`, `a2` name the three arrays as the region finds them). -/
theorem final0 (c : Dev nD) (r : Fin 100000) (j : Fin 16)
    (a0 : S100000x500.Idx → EReal) (a1 : S500x16.Idx → EReal) (a2 : S100000x1.Idx → EReal)
    (h0 : V c main_arg0 = a0) (h1 : V c main_arg2 = a1) (h2 : V c main_v15 = a2) :
    (dat0 (F := Ideal) V c).arrAt 3 cfg0.N (ix2 r j)
      = a2 (ix2 r (0 : Fin 1)) * ∑ k : Fin 500, a0 (ix2 r k) * a1 (ix2 k j) := by
  rw [arr_eq, h0, h1, h2, G_apply]

end

end Cert.KernelIdeal.K0

end
-- ==== Proof.K1.lean ====
import proofs.«102929_j30116310680051_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
  The value of the second kernel region: each row of hidden activations (the scaled aggregate plus the bias, clamped
  below at zero) against the weight matrix, scaled by the row's entry of the scale column. First the body's result at an
  index of a block, then the blocks assembled into the whole array.
-/

noncomputable section

namespace Cert.KernelIdeal.K1

open Cert.KernelIdeal Cert.KernelIdeal.Gen Idealize.ShloMosaic Idealize.ShloMosaic.TcCoe Idealize.SL.Sem
open Idealize.ShloMosaic.Pipeline (Dat)
open Idealize.ShloMosaic.ValueIdx

/-- A column `[4000, 1]` broadcast over 16 lanes reads, at `(p, q)`, the column's entry in row `p`. -/
theorem column_broadcast16 (v : S4000x1.Idx → EReal) (h : S4000x1.Broadcasts S4000x16) (p : Fin 4000) (q : Fin 16) :
    broadcastTo S4000x16 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The same column broadcast over 40 lanes. -/
theorem column_broadcast40 (v : S4000x1.Idx → EReal) (h : S4000x1.Broadcasts S4000x40) (p : Fin 4000) (q : Fin 40) :
    broadcastTo S4000x40 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The bias row `[1, 16]` broadcast over 4000 rows reads, at `(p, q)`, the row's entry in lane `q`. -/
theorem row_broadcast (v : S1x16.Idx → EReal) (h : S1x16.Broadcasts S4000x16) (p : Fin 4000) (q : Fin 16) :
    broadcastTo S4000x16 v h (ix2 p q) = v (ix2 (0 : Fin 1) q) :=
  broadcastTo_1b_ab_apply v h p q

/-! The product's two operand indices, coordinate by coordinate: the left operand is read at the output's row and the
    contracted coordinate, the right one at the contracted coordinate and the output's column. -/

theorem lhs_row (i : S4000x40.Idx) (c : dot_S4000x16_S16x40_S4000x40_1_0_0_1_n_n.contr.Idx) :
    (dot_S4000x16_S16x40_S4000x40_1_0_0_1_n_n.lhsIdx i c 0).val = (i 0).val := by
  unfold DotDims.lhsIdx
  rw [dif_neg (show ¬(0 : Fin S4000x16.rank) ∈ dot_S4000x16_S16x40_S4000x40_1_0_0_1_n_n.lhsBatch by decide), dif_pos (show (0 : Fin S4000x16.rank) ∈ dot_S4000x16_S16x40_S4000x40_1_0_0_1_n_n.lhsNonContracting by decide)]
  rfl
theorem lhs_contracted (i : S4000x40.Idx) (c : dot_S4000x16_S16x40_S4000x40_1_0_0_1_n_n.contr.Idx) :
    (dot_S4000x16_S16x40_S4000x40_1_0_0_1_n_n.lhsIdx i c 1).val = (c ⟨0, by decide⟩).val :=
  dot_S4000x16_S16x40_S4000x40_1_0_0_1_n_n.lhsIdx_val_of_single rfl i c
theorem rhs_contracted (i : S4000x40.Idx) (c : dot_S4000x16_S16x40_S4000x40_1_0_0_1_n_n.contr.Idx) :
    (dot_S4000x16_S16x40_S4000x40_1_0_0_1_n_n.rhsIdx i c 0).val = (c ⟨0, by decide⟩).val :=
  dot_S4000x16_S16x40_S4000x40_1_0_0_1_n_n.rhsIdx_val_of_single rfl i c
theorem rhs_column (i : S4000x40.Idx) (c : dot_S4000x16_S16x40_S4000x40_1_0_0_1_n_n.contr.Idx) :
    (dot_S4000x16_S16x40_S4000x40_1_0_0_1_n_n.rhsIdx i c 1).val = (i 1).val := by
  unfold DotDims.rhsIdx
  rw [dif_neg (show ¬(1 : Fin S16x40.rank) ∈ dot_S4000x16_S16x40_S4000x40_1_0_0_1_n_n.rhsBatch by decide), dif_pos (show (1 : Fin S16x40.rank) ∈ dot_S4000x16_S16x40_S4000x40_1_0_0_1_n_n.rhsNonContracting by decide)]
  rfl

theorem lhs_index (p : Fin 4000) (q : Fin 40) (k : Fin 16) :
    dot_S4000x16_S16x40_S4000x40_1_0_0_1_n_n.lhsIdx (ix2 p q) ((contrEquiv1 dot_S4000x16_S16x40_S4000x40_1_0_0_1_n_n 16 rfl rfl).symm k) = ix2 p k := by
  have hk := contrEquiv1_symm_val dot_S4000x16_S16x40_S4000x40_1_0_0_1_n_n 16 rfl rfl k
  exact funext fun a => Fin.ext (by
    match a with
    | ⟨0, _⟩ => exact lhs_row _ _
    | ⟨1, _⟩ => exact (lhs_contracted _ _).trans hk)

theorem rhs_index (p : Fin 4000) (q : Fin 40) (k : Fin 16) :
    dot_S4000x16_S16x40_S4000x40_1_0_0_1_n_n.rhsIdx (ix2 p q) ((contrEquiv1 dot_S4000x16_S16x40_S4000x40_1_0_0_1_n_n 16 rfl rfl).symm k) = ix2 k q := by
  have hk := contrEquiv1_symm_val dot_S4000x16_S16x40_S4000x40_1_0_0_1_n_n 16 rfl rfl k
  exact funext fun a => Fin.ext (by
    match a with
    | ⟨0, _⟩ => exact (rhs_contracted _ _).trans hk
    | ⟨1, _⟩ => exact rhs_column _ _)

/-- The body's result at row `p`, lane `q` of the block: the row's scale times the row of hidden activations
    against the column of the weight matrix. -/
theorem pay_apply (x0 : Vec Ideal S4000x1 .f32) (x1 : Vec Ideal S4000x16 .f32) (x2 : Vec Ideal S1x16 .f32)
    (x3 : Vec Ideal S16x40 .f32) (p : Fin 4000) (q : Fin 40) :
    k1_pay1 x0 x1 x2 x3 (ix2 p q)
      = x0 (ix2 p (0 : Fin 1))
        * ∑ k : Fin 16, max (x0 (ix2 p (0 : Fin 1)) * x1 (ix2 p k) + x2 (ix2 (0 : Fin 1) k)) 0 * x3 (ix2 k q) := by
  unfold k1_pay1
  rw [mulf_apply, shapeCast_self, column_broadcast40]
  refine congrArg (x0 (ix2 p (0 : Fin 1)) * ·) ?_
  refine (Ideal.matmul_constant_zero_apply dot_S4000x16_S16x40_S4000x40_1_0_0_1_n_n none _ _ (ix2 p q)).trans ?_
  rw [← Equiv.sum_comp (contrEquiv1 dot_S4000x16_S16x40_S4000x40_1_0_0_1_n_n 16 rfl rfl).symm]
  refine Finset.sum_congr rfl fun k _ => ?_
  rw [lhs_index, rhs_index, truncf_apply, truncf_apply]
  rw [maximumf_apply, addf_apply, mulf_apply, broadcast_apply, shapeCast_self, shapeCast_self, column_broadcast16,
    row_broadcast]
  show max _ (Ideal.ofBits .f32 0x00000000#32) * _ = _
  rw [Ideal.ofBits_zero_f32]

/-! ## From the blocks to the whole array -/

/-- Row `r`, column `j` of the result: the row's scale times the product of row `r` of the hidden activations
    (the scaled aggregate plus the bias, clamped below at zero) with column `j` of the weight matrix. -/
def rowForm (agg : S100000x16.Idx → EReal) (dv : S100000x1.Idx → EReal) (b : S1x16.Idx → EReal)
    (w2 : S16x40.Idx → EReal) (r : Fin 100000) (j : Fin 40) : EReal :=
  dv (ix2 r (0 : Fin 1))
    * ∑ k : Fin 16, max (dv (ix2 r (0 : Fin 1)) * agg (ix2 r k) + b (ix2 (0 : Fin 1) k)) 0 * w2 (ix2 k j)

/-- The whole result as one function of the four argument arrays, index by index. -/
def G (agg : S100000x16.Idx → EReal) (dv : S100000x1.Idx → EReal) (b : S1x16.Idx → EReal)
    (w2 : S16x40.Idx → EReal) : S100000x40.Idx → EReal :=
  fun i => rowForm agg dv b w2 (i 0) (i 1)

/-- `G` at row `r`, column `j`. -/
theorem G_apply (agg : S100000x16.Idx → EReal) (dv : S100000x1.Idx → EReal) (b : S1x16.Idx → EReal)
    (w2 : S16x40.Idx → EReal) (r : Fin 100000) (j : Fin 40) :
    G agg dv b w2 (ix2 r j)
      = dv (ix2 r (0 : Fin 1))
        * ∑ k : Fin 16, max (dv (ix2 r (0 : Fin 1)) * agg (ix2 r k) + b (ix2 (0 : Fin 1) k)) 0 * w2 (ix2 k j) := rfl

theorem offsets_zero : (![0, 0] : Fin 2 → Nat) = fun _ => 0 := funext fun a => by fin_cases a <;> rfl

/-- The block indices at grid point `t`: the row-blocked windows sit at block row `t`, the bias row and the weight
    matrix are one block each. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section
variable (V : (c : Dev nD) → (b : Ref sig .tc) → Buf (Elt Ideal) ((c : Thread nD τ).loc b))

/-- Where an element of the aggregate's block at point `t` sits in its array. -/
theorem emb_agg (t : Fin cfg1.N) (p : Fin 4000) (k : Fin 16) (r : Fin 100000) (hr : r.val = t.val * 4000 + p.val) :
    ((cfg1.win 0).blk t).view.emb (ix2 p k) = ix2 r k := by
  obtain ⟨e00, e01, -⟩ := idx_facts t
  funext a; apply Fin.ext
  match a with
  | ⟨0, _⟩ => show win1_0.index t (0 : Fin 2) * 4000 + 1 * p.val = r.val; omega
  | ⟨1, _⟩ => show win1_0.index t (1 : Fin 2) * 16 + 1 * k.val = k.val; omega

/-- Where an element of the scale column's block at point `t` sits in its array. -/
theorem emb_scale (t : Fin cfg1.N) (p : Fin 4000) (r : Fin 100000) (hr : r.val = t.val * 4000 + p.val) :
    ((cfg1.win 1).blk t).view.emb (ix2 p (0 : Fin 1)) = ix2 r (0 : Fin 1) := by
  obtain ⟨-, -, e10, e11, -⟩ := idx_facts t
  funext a; apply Fin.ext
  match a with
  | ⟨0, _⟩ => show win1_1.index t (0 : Fin 2) * 4000 + 1 * p.val = r.val; omega
  | ⟨1, _⟩ => show win1_1.index t (1 : Fin 2) * 1 + 1 * 0 = 0; omega

/-- The bias row's one block is the row. -/
theorem emb_bias (t : Fin cfg1.N) (k : Fin 16) :
    ((cfg1.win 2).blk t).view.emb (ix2 (0 : Fin 1) k) = ix2 (0 : Fin 1) k := by
  obtain ⟨-, -, -, -, e20, e21, -⟩ := idx_facts t
  funext a; apply Fin.ext
  match a with
  | ⟨0, _⟩ => show win1_2.index t (0 : Fin 2) * 1 + 1 * 0 = 0; omega
  | ⟨1, _⟩ => show win1_2.index t (1 : Fin 2) * 16 + 1 * k.val = k.val; omega

/-- The weight matrix's one block is the matrix. -/
theorem emb_weight (t : Fin cfg1.N) (k : Fin 16) (q : Fin 40) :
    ((cfg1.win 3).blk t).view.emb (ix2 k q) = ix2 k q := by
  obtain ⟨-, -, -, -, -, -, e30, e31, -⟩ := idx_facts t
  funext a; apply Fin.ext
  match a with
  | ⟨0, _⟩ => show win1_3.index t (0 : Fin 2) * 16 + 1 * k.val = k.val; omega
  | ⟨1, _⟩ => show win1_3.index t (1 : Fin 2) * 40 + 1 * q.val = q.val; omega

/-- An element of the aggregate's block at point `t`, read off its array. -/
theorem iblk_agg (c : Dev nD) (t : Fin cfg1.N) (p : Fin 4000) (k : Fin 16) (r : Fin 100000) (hr : r.val = t.val * 4000 + p.val) :
    iblk1 V c 0 t (ix2 p k) = V c main_v26 (ix2 r k) := by
  show V c main_v26 (((cfg1.win 0).blk t).view.emb (ix2 p k)) = V c main_v26 (ix2 r k)
  exact congrArg _ (emb_agg t p k r hr)

/-- An element of the scale column's block at point `t`, read off its array. -/
theorem iblk_scale (c : Dev nD) (t : Fin cfg1.N) (p : Fin 4000) (r : Fin 100000) (hr : r.val = t.val * 4000 + p.val) :
    iblk1 V c 1 t (ix2 p (0 : Fin 1)) = V c main_v15 (ix2 r (0 : Fin 1)) := by
  show V c main_v15 (((cfg1.win 1).blk t).view.emb (ix2 p (0 : Fin 1))) = V c main_v15 (ix2 r (0 : Fin 1))
  exact congrArg _ (emb_scale t p r hr)

/-- An element of the bias row's block, read off its array. -/
theorem iblk_bias (c : Dev nD) (t : Fin cfg1.N) (k : Fin 16) :
    iblk1 V c 2 t (ix2 (0 : Fin 1) k) = V c main_v27 (ix2 (0 : Fin 1) k) := by
  show V c main_v27 (((cfg1.win 2).blk t).view.emb (ix2 (0 : Fin 1) k)) = V c main_v27 (ix2 (0 : Fin 1) k)
  exact congrArg _ (emb_bias t k)

/-- An element of the weight matrix's block, read off its array. -/
theorem iblk_weight (c : Dev nD) (t : Fin cfg1.N) (k : Fin 16) (q : Fin 40) :
    iblk1 V c 3 t (ix2 k q) = V c main_arg4 (ix2 k q) := by
  show V c main_arg4 (((cfg1.win 3).blk t).view.emb (ix2 k q)) = V c main_arg4 (ix2 k q)
  exact congrArg _ (emb_weight t k q)

/-- What grid point `t` writes back is block `t` of `G` of the arrays as the region finds them. -/
theorem flushed_eq (c : Dev nD) (t : Fin cfg1.N) :
    (dat1 (F := Ideal) V c).flushed 4 t
      = ((cfg1.win 4).blk t).view.read (Elt Ideal) (G (V c main_v26) (V c main_v15) (V c main_v27) (V c main_arg4)) := by
  show (cfg1.win 4).cut (grid1.coords t) ((dat1 V c).after 4 t) = _
  rw [after1_4]
  unfold out1_4
  rw [View.canon_unit_zero offsets_zero]
  simp only [View.ld_unit_zero (S := S4000x16) offsets_zero, View.ld_unit_zero (S := S4000x1) offsets_zero,
    View.ld_unit_zero (S := S1x16) offsets_zero, View.ld_unit_zero (S := S16x40) offsets_zero]
  have ht : t.val < 25 := t.isLt
  funext y
  have hy0 : (y 0).val < 4000 := (y 0).isLt
  have hy1 : (y 1).val < 40 := (y 1).isLt
  have hx : (cfg1.win 4).xinj (grid1.coords t) y = ix2 (⟨(y 0).val, hy0⟩ : Fin 4000) (⟨(y 1).val, hy1⟩ : Fin 40) :=
    funext fun a => by match a with | ⟨0, _⟩ => rfl | ⟨1, _⟩ => rfl
  have hr : t.val * 4000 + (y 0).val < 100000 := by omega
  have he : ((cfg1.win 4).blk t).view.emb y
      = ix2 (⟨t.val * 4000 + (y 0).val, hr⟩ : Fin 100000) (⟨(y 1).val, hy1⟩ : Fin 40) := by
    obtain ⟨-, -, -, -, -, -, -, -, e40, e41⟩ := idx_facts t
    funext a; apply Fin.ext
    match a with
    | ⟨0, _⟩ => show win1_4.index t (0 : Fin 2) * 4000 + 1 * (y 0).val = t.val * 4000 + (y 0).val; omega
    | ⟨1, _⟩ => show win1_4.index t (1 : Fin 2) * 40 + 1 * (y 1).val = (y 1).val; omega
  show k1_pay1 (iblk1 V c 1 t) (iblk1 V c 0 t) (iblk1 V c 2 t) (iblk1 V c 3 t) ((cfg1.win 4).xinj (grid1.coords t) y)
    = G (V c main_v26) (V c main_v15) (V c main_v27) (V c main_arg4) (((cfg1.win 4).blk t).view.emb y)
  rw [hx, he, G_apply]
  refine (pay_apply _ _ _ _ _ _).trans ?_
  have hs := iblk_scale V c t (⟨(y 0).val, hy0⟩ : Fin 4000) (⟨t.val * 4000 + (y 0).val, hr⟩ : Fin 100000) rfl
  exact congrArg₂ (· * ·) hs
    (Finset.sum_congr rfl fun k _ => congrArg₂ (· * ·)
      (congrArg (max · 0) (congrArg₂ (· + ·) (congrArg₂ (· * ·) hs (iblk_agg V c t _ k _ rfl)) (iblk_bias V c t k)))
      (iblk_weight V c t k _))

/-- An index of the result is in point `t`'s block iff each coordinate is in the block's range on its axis. -/
theorem mem_blk (t : Fin cfg1.N) (i : S100000x40.Idx) :
    i ∈ ((cfg1.win 4).blk t).view.set ↔ ∀ a : Fin 2, win1_4.index t a * S4000x40.size a ≤ (i a).val ∧ (i a).val < win1_4.index t a * S4000x40.size a + S4000x40.size a := by
  show i ∈ ((View.whole main_v28).slice (win1_4.rect t)).set ↔ _
  rw [View.set_slice_whole, Rect.mem_set_unit]
  exact Iff.rfl

/-- Every index of the result lies in the block of the point that holds its row: row `r` belongs to point `r / 4000`. -/
theorem cover (i : S100000x40.Idx) :
    ∃ t : Fin cfg1.N, (cfg1.win 4).flush t = true ∧ i ∈ ((cfg1.win 4).blk t).view.set := by
  have hi0 : (i 0).val < 100000 := (i 0).isLt
  have hi1 : (i 1).val < 40 := (i 1).isLt
  have hN : cfg1.N = 25 := N_1
  have hlt : (i 0).val / 4000 < cfg1.N := by rw [hN]; omega
  refine ⟨⟨(i 0).val / 4000, hlt⟩, flush1_4 _, ?_⟩
  rw [mem_blk]
  obtain ⟨-, -, -, -, -, -, -, -, e40, e41⟩ := idx_facts ⟨(i 0).val / 4000, hlt⟩
  intro a
  match a with
  | ⟨0, _⟩ =>
    show win1_4.index ⟨(i 0).val / 4000, hlt⟩ (0 : Fin 2) * 4000 ≤ (i 0).val ∧ (i 0).val < win1_4.index ⟨(i 0).val / 4000, hlt⟩ (0 : Fin 2) * 4000 + 4000
    rw [e40]
    show (i 0).val / 4000 * 4000 ≤ (i 0).val ∧ (i 0).val < (i 0).val / 4000 * 4000 + 4000
    omega
  | ⟨1, _⟩ =>
    show win1_4.index ⟨(i 0).val / 4000, hlt⟩ (1 : Fin 2) * 40 ≤ (i 1).val ∧ (i 1).val < win1_4.index ⟨(i 0).val / 4000, hlt⟩ (1 : Fin 2) * 40 + 40
    omega

/-- The result array after the region: `G` of the arrays the region found. -/
theorem arr_eq (c : Dev nD) :
    (dat1 (F := Ideal) V c).arrAt 4 cfg1.N = G (V c main_v26) (V c main_v15) (V c main_v27) (V c main_arg4) :=
  (dat1 (F := Ideal) V c).arrAt_eq_of_cover 4 (G (V c main_v26) (V c main_v15) (V c main_v27) (V c main_arg4))
    (fun t _ => flushed_eq V c t) cover

/-- The result at row `r`, column `j`: the row's scale times the product of the row of hidden activations with the
    column of the weight matrix (`agg`, `dv`, `b`, `w2` name the four arrays as the region finds them). -/
theorem final1 (c : Dev nD) (r : Fin 100000) (j : Fin 40)
    (agg : S100000x16.Idx → EReal) (dv : S100000x1.Idx → EReal) (b : S1x16.Idx → EReal) (w2 : S16x40.Idx → EReal)
    (hagg : V c main_v26 = agg) (hdv : V c main_v15 = dv) (hb : V c main_v27 = b) (hw2 : V c main_arg4 = w2) :
    (dat1 (F := Ideal) V c).arrAt 4 cfg1.N (ix2 r j)
      = dv (ix2 r (0 : Fin 1))
        * ∑ k : Fin 16, max (dv (ix2 r (0 : Fin 1)) * agg (ix2 r k) + b (ix2 (0 : Fin 1) k)) 0 * w2 (ix2 k j) := by
  rw [arr_eq, hagg, hdv, hb, hw2, G_apply]

end

end Cert.KernelIdeal.K1

end
-- ==== Proof.LsmSpec.lean ====
/-
  The row-wise log-softmax of a row of 40 extended reals, as one function of the row.

  With M the row's maximum (the fold of max over the row, started from -∞) the entry at lane j is
  (v j - M) - log (∑ k, exp (v k - M)): the row shifted by its maximum, minus the logarithm of the sum of the
  exponentials of the shifted row.  Both programs compute exactly this expression on the extended reals, so no law of
  exp or log is needed to compare them: it is enough that each of them is this function of its own row.
-/
import Idealize.ShloMosaic.PureOps.Ideal

namespace Cert.Spec

open Idealize.ShloMosaic

/-- The f32 word 0xFF800000 (sign set, exponent all ones, fraction zero) denotes -∞. -/
theorem negInf_word : Ideal.ofBits .f32 0xFF800000#32 = (⊥ : EReal) := by
  simp [Ideal.ofBits, Ideal.ieee]

/-- The f32 word 0 denotes 0. -/
theorem zero_word : Ideal.ofBits .f32 0x00000000#32 = (0 : EReal) := by
  simp [Ideal.ofBits, Ideal.ieee]

/-- The maximum of a row: the fold of max over its 40 lanes, started from -∞. -/
noncomputable def rowMax (v : Fin 40 → EReal) : EReal := (Finset.univ : Finset (Fin 40)).fold max ⊥ v

/-- The row-wise log-softmax at lane j. -/
noncomputable def rowLsm (v : Fin 40 → EReal) (j : Fin 40) : EReal :=
  (v j - rowMax v) - Ideal.log (∑ k : Fin 40, Ideal.exp (v k - rowMax v))

/-- One more maximum with -∞ changes nothing. -/
theorem max_bot_rowMax (v : Fin 40 → EReal) : max (⊥ : EReal) (rowMax v) = rowMax v := max_eq_right bot_le

end Cert.Spec
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.LibHostMaxForms.lean ====
/-
  The host's reduce with a maximum body over ONE axis of a rank-2 or rank-3 array, read at an index written by its
  coordinates: the maximum, folded from the initial value, of the operand along that axis.  (The general statement
  folds over the reduced index with the coordinate inserted; here the inserted index is spelt out.)
-/
import Idealize.ShloMosaic.PureOps.Ideal.Laws
import Idealize.ShloMosaic.Lib.ValueIdx

namespace Idealize.ShloMosaic.ValueIdx

open Idealize.ShloMosaic

variable {A B C : ℕ}

/-- (r, s) with k put back on the last axis is (r, s, k). -/
theorem lift3_last (h : (⟨3, ![A, B, C]⟩ : Shape).Reduces [2] (⟨2, ![A, B]⟩ : Shape)) (r : Fin A) (s : Fin B)
    (k : Fin ((⟨3, ![A, B, C]⟩ : Shape).size 2)) : h.lift (ix2 r s) k = ix3 r s (⟨k.val, k.isLt⟩ : Fin C) := by
  funext c; apply Fin.ext
  fin_cases c <;> rfl

/-- (r, q) with s put back on the middle axis is (r, s, q). -/
theorem lift3_middle (h : (⟨3, ![A, B, C]⟩ : Shape).Reduces [1] (⟨2, ![A, C]⟩ : Shape)) (r : Fin A) (q : Fin C)
    (s : Fin ((⟨3, ![A, B, C]⟩ : Shape).size 1)) : h.lift (ix2 r q) s = ix3 r (⟨s.val, s.isLt⟩ : Fin B) q := by
  funext c; apply Fin.ext
  fin_cases c <;> rfl

/-- r with k put back on the last axis is (r, k). -/
theorem lift2_last (h : (⟨2, ![A, B]⟩ : Shape).Reduces [1] (⟨1, ![A]⟩ : Shape)) (r : Fin A)
    (k : Fin ((⟨2, ![A, B]⟩ : Shape).size 1)) : h.lift (ix1 r) k = ix2 r (⟨k.val, k.isLt⟩ : Fin B) := by
  funext c; apply Fin.ext
  fin_cases c <;> rfl

/-- A rank-3 array reduced by maximum over its last axis, at (r, s). -/
theorem hostReduceMax3_last (x : (⟨3, ![A, B, C]⟩ : Shape).Idx → EReal) (init : (⟨0, ![]⟩ : Shape).Idx → EReal)
    (h' : (⟨3, ![A, B, C]⟩ : Shape).ReducesTo [2] (⟨2, ![A, B]⟩ : Shape))
    (h : (⟨3, ![A, B, C]⟩ : Shape).Reduces [2] (⟨2, ![A, B]⟩ : Shape)) (hu : 0 < (⟨0, ![]⟩ : Shape).numel)
    (r : Fin A) (s : Fin B) :
    Host.reduce (FloatOps.maximumf (F := Ideal) (φ := .f32)) x init h' hu (ix2 r s)
      = (Finset.univ : Finset (Fin C)).fold max (init (Shape.Idx.first hu)) fun k => x (ix3 r s k) := by
  rw [Host.reduce_eq_fold_single _ x init h' h hu]
  exact congrArg (fun f : Fin C → EReal => (Finset.univ : Finset (Fin C)).fold max (init (Shape.Idx.first hu)) f)
    (funext fun k => congrArg x (lift3_last h r s k))

/-- A rank-3 array reduced by maximum over its middle axis, at (r, q). -/
theorem hostReduceMax3_middle (x : (⟨3, ![A, B, C]⟩ : Shape).Idx → EReal) (init : (⟨0, ![]⟩ : Shape).Idx → EReal)
    (h' : (⟨3, ![A, B, C]⟩ : Shape).ReducesTo [1] (⟨2, ![A, C]⟩ : Shape))
    (h : (⟨3, ![A, B, C]⟩ : Shape).Reduces [1] (⟨2, ![A, C]⟩ : Shape)) (hu : 0 < (⟨0, ![]⟩ : Shape).numel)
    (r : Fin A) (q : Fin C) :
    Host.reduce (FloatOps.maximumf (F := Ideal) (φ := .f32)) x init h' hu (ix2 r q)
      = (Finset.univ : Finset (Fin B)).fold max (init (Shape.Idx.first hu)) fun s => x (ix3 r s q) := by
  rw [Host.reduce_eq_fold_single _ x init h' h hu]
  exact congrArg (fun f : Fin B → EReal => (Finset.univ : Finset (Fin B)).fold max (init (Shape.Idx.first hu)) f)
    (funext fun s => congrArg x (lift3_middle h r q s))

/-- A rank-2 array reduced by maximum over its last axis, at r. -/
theorem hostReduceMax2_last (x : (⟨2, ![A, B]⟩ : Shape).Idx → EReal) (init : (⟨0, ![]⟩ : Shape).Idx → EReal)
    (h' : (⟨2, ![A, B]⟩ : Shape).ReducesTo [1] (⟨1, ![A]⟩ : Shape))
    (h : (⟨2, ![A, B]⟩ : Shape).Reduces [1] (⟨1, ![A]⟩ : Shape)) (hu : 0 < (⟨0, ![]⟩ : Shape).numel) (r : Fin A) :
    Host.reduce (FloatOps.maximumf (F := Ideal) (φ := .f32)) x init h' hu (ix1 r)
      = (Finset.univ : Finset (Fin B)).fold max (init (Shape.Idx.first hu)) fun k => x (ix2 r k) := by
  rw [Host.reduce_eq_fold_single _ x init h' h hu]
  exact congrArg (fun f : Fin B → EReal => (Finset.univ : Finset (Fin B)).fold max (init (Shape.Idx.first hu)) f)
    (funext fun k => congrArg x (lift2_last h r k))

end Idealize.ShloMosaic.ValueIdx
-- ==== Proof.K2.lean ====
/-
  The value of the third kernel region (the row-wise log-softmax of a scaled and shifted array), read off its frame at
  the ideal values, for arbitrary contents V of the buffers when the region is entered.

  The region reads three arrays: a [100000, 40] array A, a [100000, 1] column d and a [1, 40] bias row b; its output
  is a [100000, 40] array written in 25 blocks of 4000 rows.  On a block the body forms v = d * A + b (the column
  broadcast over the 40 lanes, the bias row over the 4000 rows), takes each row's maximum m, shifts s = v - m, sums
  the exponentials of each shifted row, z, and stores s - log z.  So the entry at (p, q) of what the body stores depends
  only on row p of its three blocks, and is the log-softmax of that row (`Cert.Spec.rowLsm`) at lane q: first part.
  Block t of each of the two tall arrays and of the output is rows 4000 t … 4000 t + 3999, the bias row is one block;
  so what point t writes back is block t of one whole-array function G, the blocks cover the output, and the array ends
  holding G: second part.
-/
import proofs.«102929_j30116310680051_2_alg».proof.Proof.Gen.KernelIdeal.Frame
import proofs.«102929_j30116310680051_2_alg».proof.Proof.LsmSpec
import proofs.«102929_j30116310680051_2_alg».proof.Proof.LibColumnForms
import proofs.«102929_j30116310680051_2_alg».proof.Proof.LibHostMaxForms
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.K2

open Idealize.ShloMosaic Idealize.ShloMosaic.TcCoe Idealize.SL.Sem
open Idealize.ShloMosaic.ValueIdx Idealize.ShloMosaic.ValueLayout
open Idealize.ShloMosaic.Pipeline (Dat)
open Cert.KernelIdeal.Gen

/-! ## The body's stored value at an index -/

/-- The lane maximum of a block of 4000 rows, at row p: the maximum of that row. -/
theorem laneMax_apply (w : FVec Ideal S4000x40 .f32) (p : Fin 4000) :
    multiReduction .maximumf [1] S4000 w 0xFF800000#32 reduces_S4000x40_S4000 (.inl rfl) rfl (ix1 p)
      = Cert.Spec.rowMax (fun k => w (ix2 p k)) := by
  refine (Ideal.multiReduction_maximumf_single w 0xFF800000#32 reduces_S4000x40_S4000 (.inl rfl) rfl (ix1 p)).trans ?_
  unfold Cert.Spec.rowMax
  rw [Ideal.ofBits_def, Cert.Spec.negInf_word]
  exact congrArg (fun f : Fin 40 → EReal => (Finset.univ : Finset (Fin 40)).fold max ⊥ f)
    (funext fun k => congrArg w (lift2_last reduces_S4000x40_S4000 p k))

/-- The lane sum of a block of 4000 rows, at row p: the sum of that row. -/
theorem laneSum_apply (w : FVec Ideal S4000x40 .f32) (p : Fin 4000) :
    multiReduction .add [1] S4000 w 0x00000000#32 reduces_S4000x40_S4000 (.inl rfl) rfl (ix1 p)
      = ∑ k : Fin 40, w (ix2 p k) := by
  refine (Ideal.multiReduction_add_single w 0x00000000#32 reduces_S4000x40_S4000 (.inl rfl) rfl (ix1 p)).trans ?_
  exact Finset.sum_congr rfl fun k _ => congrArg w (lift2_last reduces_S4000x40_S4000 p k)

/-- The scaled and shifted block the body starts from: row p of the first operand's column times the second operand,
    plus the one row of the third. -/
def scaled (x0 : Vec Ideal S4000x1 .f32) (x1 : Vec Ideal S4000x40 .f32) (x2 : Vec Ideal S1x40 .f32) : FVec Ideal S4000x40 .f32 :=
  addf (mulf (broadcastTo S4000x40 (shapeCast S4000x1 x0 shapeCasts_S4000x1_S4000x1) broadcasts_S4000x1_S4000x40)
      (shapeCast S4000x40 x1 shapeCasts_S4000x40_S4000x40))
    (broadcastTo S4000x40 (shapeCast S1x40 x2 shapeCasts_S1x40_S1x40) broadcasts_S1x40_S4000x40)

/-- A block with each row's maximum subtracted from the row. -/
def shifted (w : FVec Ideal S4000x40 .f32) : FVec Ideal S4000x40 .f32 :=
  subf w (broadcastTo S4000x40 (shapeCast S4000x1
    (multiReduction .maximumf [1] S4000 w 0xFF800000#32 reduces_S4000x40_S4000 (.inl rfl) rfl) shapeCasts_S4000_S4000x1)
    broadcasts_S4000x1_S4000x40)

/-- The shifted block minus, row by row, the logarithm of the row's sum of exponentials. -/
def lsmBlock (w : FVec Ideal S4000x40 .f32) : FVec Ideal S4000x40 .f32 :=
  subf (shifted w) (broadcastTo S4000x40 (log (shapeCast S4000x1
    (multiReduction .add [1] S4000 (exp (shifted w)) 0x00000000#32 reduces_S4000x40_S4000 (.inl rfl) rfl) shapeCasts_S4000_S4000x1))
    broadcasts_S4000x1_S4000x40)

/-- The body's stored value is that chain of operations of its three loaded blocks. -/
theorem pay_eq (x0 : Vec Ideal S4000x1 .f32) (x1 : Vec Ideal S4000x40 .f32) (x2 : Vec Ideal S1x40 .f32) :
    k2_pay1 (F := Ideal) x0 x1 x2 = lsmBlock (scaled x0 x1 x2) := rfl

theorem scaled_apply (x0 : Vec Ideal S4000x1 .f32) (x1 : Vec Ideal S4000x40 .f32) (x2 : Vec Ideal S1x40 .f32)
    (p : Fin 4000) (k : Fin 40) :
    scaled x0 x1 x2 (ix2 p k) = x0 (ix2 p (0 : Fin 1)) * x1 (ix2 p k) + x2 (ix2 (0 : Fin 1) k) := by
  unfold scaled
  rw [addf_apply, mulf_apply, broadcastTo_a1_ab_apply, shapeCast_self, shapeCast_self, broadcastTo_1b_ab_apply, shapeCast_self]

theorem shifted_apply (w : FVec Ideal S4000x40 .f32) (p : Fin 4000) (k : Fin 40) :
    shifted w (ix2 p k) = w (ix2 p k) - Cert.Spec.rowMax (fun k => w (ix2 p k)) := by
  unfold shifted
  rw [subf_apply, broadcastTo_a1_ab_apply, shapeCast_a_a1_apply, laneMax_apply]

theorem lsmBlock_apply (w : FVec Ideal S4000x40 .f32) (p : Fin 4000) (q : Fin 40) :
    lsmBlock w (ix2 p q) = Cert.Spec.rowLsm (fun k => w (ix2 p k)) q := by
  have h1 : lsmBlock w (ix2 p q) = shifted w (ix2 p q) - Ideal.log
      (multiReduction .add [1] S4000 (exp (shifted w)) 0x00000000#32 reduces_S4000x40_S4000 (.inl rfl) rfl (ix1 p)) :=
    congrArg (fun z => shifted w (ix2 p q) - z)
      ((broadcastTo_a1_ab_apply _ broadcasts_S4000x1_S4000x40 p q).trans
        (congrArg Ideal.log (shapeCast_a_a1_apply _ shapeCasts_S4000_S4000x1 p (0 : Fin 1))))
  rw [h1, laneSum_apply, shifted_apply]
  unfold Cert.Spec.rowLsm
  exact congrArg (fun f : Fin 40 → EReal => (w (ix2 p q) - Cert.Spec.rowMax fun k => w (ix2 p k)) - Ideal.log (∑ k : Fin 40, f k))
    (funext fun k => congrArg Ideal.exp (shifted_apply w p k))

/-- THE BODY'S STORED VALUE AT (p, q): the log-softmax of row p of the scaled block, at lane q. -/
theorem pay_apply (x0 : Vec Ideal S4000x1 .f32) (x1 : Vec Ideal S4000x40 .f32) (x2 : Vec Ideal S1x40 .f32)
    (p : Fin 4000) (q : Fin 40) :
    k2_pay1 (F := Ideal) x0 x1 x2 (ix2 p q)
      = Cert.Spec.rowLsm (fun k => x0 (ix2 p (0 : Fin 1)) * x1 (ix2 p k) + x2 (ix2 (0 : Fin 1) k)) q := by
  rw [pay_eq, lsmBlock_apply]
  exact congrArg (fun f : Fin 40 → EReal => Cert.Spec.rowLsm f q) (funext fun k => scaled_apply x0 x1 x2 p k)

/-! ## From blocks to the array -/

/-- The body's stored value at an index of the block, by its two coordinates. -/
theorem pay_at (x0 : Vec Ideal S4000x1 .f32) (x1 : Vec Ideal S4000x40 .f32) (x2 : Vec Ideal S1x40 .f32) (y : S4000x40.Idx) :
    k2_pay1 (F := Ideal) x0 x1 x2 y
      = Cert.Spec.rowLsm (fun k => x0 (ix2 (y 0) (0 : Fin 1)) * x1 (ix2 (y 0) k) + x2 (ix2 (0 : Fin 1) k)) (y 1) :=
  (congrArg (k2_pay1 (F := Ideal) x0 x1 x2) (eq_ix2 y)).trans (pay_apply x0 x1 x2 (y 0) (y 1))

variable (V : (c : Dev nD) → (b : Ref sig .tc) → Buf (Elt Ideal) ((c : Thread nD τ).loc b))

/-- The whole output array as one function of the three arrays the region reads: at (r, j) the log-softmax, at lane j,
    of row r of the first scaled by the r-th entry of the column and shifted by the bias row. -/
def G (dv : S100000x1.Idx → EReal) (agg : S100000x40.Idx → EReal) (b : S1x40.Idx → EReal) : S100000x40.Idx → EReal :=
  fun i => Cert.Spec.rowLsm (fun k => dv (ix2 (i 0) (0 : Fin 1)) * agg (ix2 (i 0) k) + b (ix2 (0 : Fin 1) k)) (i 1)

theorem hz2 : (![0, 0] : Fin 2 → Nat) = fun _ => 0 := funext fun a => by fin_cases a <;> rfl

/-- The block indices over the grid: point t takes block row t of the two arrays of 100000 rows and of the output, and the
    one block of the bias row. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Window 0's block at point t is rows 4000 t … 4000 t + 3999 of its array. -/
theorem blk0_apply (c : Dev nD) (t : Fin cfg2.N) (p : Fin 4000) (k : Fin 40) (r : Fin 100000) (hr : r.val = t.val * 4000 + p.val) :
    (iblk2 V c 0 t : Vec Ideal S4000x40 .f32) (ix2 p k) = (V c main_v38 : S100000x40.Idx → EReal) (ix2 r k) := by
  obtain ⟨e0, e1, -⟩ := idx_facts2 t
  show V c main_v38 (((cfg2.win 0).blk t).view.emb (ix2 p k)) = V c main_v38 (ix2 r k)
  refine congrArg (V c main_v38) (funext fun a => Fin.ext ?_)
  match a with
  | ⟨0, _⟩ => show win2_0.index t (0 : Fin 2) * 4000 + 1 * p.val = r.val; omega
  | ⟨1, _⟩ => show win2_0.index t (1 : Fin 2) * 40 + 1 * k.val = k.val; omega

/-- Window 1's block at point t is rows 4000 t … 4000 t + 3999 of the column. -/
theorem blk1_apply (c : Dev nD) (t : Fin cfg2.N) (p : Fin 4000) (r : Fin 100000) (hr : r.val = t.val * 4000 + p.val) :
    (iblk2 V c 1 t : Vec Ideal S4000x1 .f32) (ix2 p (0 : Fin 1)) = (V c main_v15 : S100000x1.Idx → EReal) (ix2 r (0 : Fin 1)) := by
  obtain ⟨-, -, e2, e3, -⟩ := idx_facts2 t
  show V c main_v15 (((cfg2.win 1).blk t).view.emb (ix2 p (0 : Fin 1))) = V c main_v15 (ix2 r (0 : Fin 1))
  refine congrArg (V c main_v15) (funext fun a => Fin.ext ?_)
  match a with
  | ⟨0, _⟩ => show win2_1.index t (0 : Fin 2) * 4000 + 1 * p.val = r.val; omega
  | ⟨1, _⟩ => show win2_1.index t (1 : Fin 2) * 1 + 1 * 0 = 0; omega

/-- Window 2's block at every point is the whole bias row. -/
theorem blk2_apply (c : Dev nD) (t : Fin cfg2.N) (k : Fin 40) :
    (iblk2 V c 2 t : Vec Ideal S1x40 .f32) (ix2 (0 : Fin 1) k) = (V c main_v39 : S1x40.Idx → EReal) (ix2 (0 : Fin 1) k) := by
  obtain ⟨-, -, -, -, e4, e5, -⟩ := idx_facts2 t
  show V c main_v39 (((cfg2.win 2).blk t).view.emb (ix2 (0 : Fin 1) k)) = V c main_v39 (ix2 (0 : Fin 1) k)
  refine congrArg (V c main_v39) (funext fun a => Fin.ext ?_)
  match a with
  | ⟨0, _⟩ => show win2_2.index t (0 : Fin 2) * 1 + 1 * 0 = 0; omega
  | ⟨1, _⟩ => show win2_2.index t (1 : Fin 2) * 40 + 1 * k.val = k.val; omega

/-- WHAT POINT t WRITES BACK is block t of G of the three arrays as the region finds them. -/
theorem flushed_eq (c : Dev nD) (t : Fin cfg2.N) :
    (dat2 V c).flushed 3 t = ((cfg2.win 3).blk t).view.read (Elt Ideal)
      (G (V c main_v15) (V c main_v38) (V c main_v39)) := by
  show (cfg2.win 3).cut (grid2.coords t) ((dat2 V c).after 3 t) = _
  rw [after2_3]
  unfold out2_3
  rw [View.canon_unit_zero hz2]
  simp only [View.ld_unit_zero (S := S4000x40) hz2, View.ld_unit_zero (S := S4000x1) hz2, View.ld_unit_zero (S := S1x40) hz2]
  funext y
  show k2_pay1 (F := Ideal) (iblk2 V c 1 t) (iblk2 V c 0 t) (iblk2 V c 2 t) y
    = G (V c main_v15) (V c main_v38) (V c main_v39) (((cfg2.win 3).blk t).view.emb y)
  refine (pay_at (iblk2 V c 1 t) (iblk2 V c 0 t) (iblk2 V c 2 t) y).trans ?_
  obtain ⟨-, -, -, -, -, -, e6, e7⟩ := idx_facts2 t
  have hr : ((((cfg2.win 3).blk t).view.emb y) 0).val = t.val * 4000 + (y 0).val := by
    show win2_3.index t (0 : Fin 2) * 4000 + 1 * (y 0).val = t.val * 4000 + (y 0).val
    omega
  have hq : (((cfg2.win 3).blk t).view.emb y) 1 = y 1 := Fin.ext (by
    show win2_3.index t (1 : Fin 2) * 40 + 1 * (y 1).val = (y 1).val
    omega)
  unfold G
  refine congr (congrArg Cert.Spec.rowLsm (funext fun k => ?_)) hq.symm
  rw [blk1_apply V c t (y 0) _ hr, blk0_apply V c t (y 0) k _ hr, blk2_apply V c t k]

/-- An index of the array is in point t's block iff each coordinate is in the block's range on its axis. -/
theorem mem_blk3 (t : Fin cfg2.N) (i : S100000x40.Idx) :
    i ∈ ((cfg2.win 3).blk t).view.set ↔ ∀ a : Fin 2, win2_3.index t a * S4000x40.size a ≤ (i a).val ∧ (i a).val < win2_3.index t a * S4000x40.size a + S4000x40.size a := by
  show i ∈ ((View.whole main_v40).slice (win2_3.rect t)).set ↔ _
  rw [View.set_slice_whole, Rect.mem_set_unit]
  exact Iff.rfl

/-- Every index of the output array is in the block of the point its row falls in: row r in block r / 4000. -/
theorem cover3 (i : S100000x40.Idx) :
    ∃ t : Fin cfg2.N, (cfg2.win 3).flush t = true ∧ i ∈ ((cfg2.win 3).blk t).view.set := by
  have hi0 : (i 0).val < 100000 := (i 0).isLt
  have hi1 : (i 1).val < 40 := (i 1).isLt
  have hN : cfg2.N = 25 := N_2
  have hlt : (i 0).val / 4000 < cfg2.N := by rw [hN]; omega
  obtain ⟨-, -, -, -, -, -, e6, e7⟩ := idx_facts2 ⟨(i 0).val / 4000, hlt⟩
  refine ⟨⟨(i 0).val / 4000, hlt⟩, flush2_3 _, ?_⟩
  rw [mem_blk3]
  intro a
  match a with
  | ⟨0, _⟩ =>
    show win2_3.index ⟨(i 0).val / 4000, hlt⟩ (0 : Fin 2) * 4000 ≤ (i 0).val
      ∧ (i 0).val < win2_3.index ⟨(i 0).val / 4000, hlt⟩ (0 : Fin 2) * 4000 + 4000
    rw [e6]; show (i 0).val / 4000 * 4000 ≤ (i 0).val ∧ (i 0).val < (i 0).val / 4000 * 4000 + 4000
    omega
  | ⟨1, _⟩ =>
    show win2_3.index ⟨(i 0).val / 4000, hlt⟩ (1 : Fin 2) * 40 ≤ (i 1).val
      ∧ (i 1).val < win2_3.index ⟨(i 0).val / 4000, hlt⟩ (1 : Fin 2) * 40 + 40
    rw [e7]; omega

/-- THE OUTPUT ARRAY after the region is G of the three arrays the region reads, as it finds them. -/
theorem final_eq (c : Dev nD) :
    (dat2 V c).arrAt 3 cfg2.N = G (V c main_v15) (V c main_v38) (V c main_v39) :=
  (dat2 V c).arrAt_eq_of_cover 3 (G (V c main_v15) (V c main_v38) (V c main_v39))
    (fun t _ => flushed_eq V c t) cover3

/-- … read at (r, j), the three arrays the region finds named: the log-softmax, at lane j, of row r of the array scaled
    by the column's r-th entry plus the bias row. -/
theorem final2 (c : Dev nD) (r : Fin 100000) (j : Fin 40)
    (agg : S100000x40.Idx → EReal) (dv : S100000x1.Idx → EReal) (b : S1x40.Idx → EReal)
    (h0 : V c main_v38 = agg) (h1 : V c main_v15 = dv) (h2 : V c main_v39 = b) :
    (dat2 (F := Ideal) V c).arrAt 3 cfg2.N (ix2 r j)
      = Cert.Spec.rowLsm (fun k => dv (ix2 r (0 : Fin 1)) * agg (ix2 r k) + b (ix2 (0 : Fin 1) k)) j := by
  subst h0 h1 h2
  exact congrFun (final_eq V c) (ix2 r j)

end Cert.KernelIdeal.K2

end
-- ==== Proof.KHost.lean ====
/-
  The host side of the idealized kernel program, read array by array.

  Between its three pipelined regions the program runs stretches of host operations; the buffers at each boundary are
  the fold `Gen.W0` … `Gen.W8` of those stretches and of the regions' write-backs over the launch memory.  This module
  reads that fold at the buffers the regions take in:
   * the edge words: `src` (sources) and `dst` (targets), the two rows of `edge_index` each followed by the self-loops
     `0 … N-1`, computed once before region 0 and never written again;
   * the per-node scale as a column `[N, 1]`, computed once before region 0 and read by all three regions;
   * before regions 1 and 2, the aggregate: the rows of the previous region's result gathered at the (wrapped) source
     words and summed into the rows named by the target words (`segGather16`, `segGather40`);
   * the bias vectors as rows `[1, C]`; the weight matrices and the features as launched.
-/
import proofs.«102929_j30116310680051_2_alg».proof.Proof.Gen.KernelIdeal.Frame
import Idealize.ShloMosaic.Lib.StableHlo.Run
import Idealize.ShloMosaic.PureOps.Ideal

set_option maxRecDepth 16384

noncomputable section

namespace Cert.KernelIdeal.KHost

open Cert.KernelIdeal Cert.KernelIdeal.Gen
open Idealize.ShloMosaic Idealize.ShloMosaic.TcCoe Idealize.SL.Sem Idealize.ShloMosaic.StableHlo

/-- The source words with a negative word wrapped once by the node count (what indexing with a negative index means),
    as the column of start indices a gather takes. -/
def wrapCol (src : IVec S3300000 32) : IVec S3300000x1 32 :=
  broadcastInDim S3300000x1 ![0] bcast_S3300000_S3300000x1_0
    (select (cmpi .slt src (broadcastInDim S3300000 ![] bcast_S_S3300000 (constantI S_ 32 0#32)))
      (addi src (broadcastInDim S3300000 ![] bcast_S_S3300000 (constantI S_ 32 100000#32))) src)

/-- The target words as the column of scatter indices. -/
def col (dst : IVec S3300000 32) : IVec S3300000x1 32 :=
  broadcastInDim S3300000x1 ![0] bcast_S3300000_S3300000x1_0 dst

/-- Rows of `y : [N, 16]` gathered at the wrapped source words and summed into the rows the target words name. -/
def segGather16 (dst src : IVec S3300000 32) (y : FVec Ideal S100000x16 .f32) : FVec Ideal S100000x16 .f32 :=
  Host.scatterAdd (F := Ideal) scatter_S100000x16_S3300000x1_S3300000x16_1_0_0_1
    (broadcastInDim S100000x16 ![] bcast_S_S100000x16 (constant (F := Ideal) S_ .f32 0x00000000#32))
    (col dst)
    (Host.gather gather_S100000x16_S3300000x1_S3300000x16_1_0_n_n_0_1_116 y (wrapCol src))

/-- The same for `y : [N, 40]`. -/
def segGather40 (dst src : IVec S3300000 32) (y : FVec Ideal S100000x40 .f32) : FVec Ideal S100000x40 .f32 :=
  Host.scatterAdd (F := Ideal) scatter_S100000x40_S3300000x1_S3300000x40_1_0_0_1
    (broadcastInDim S100000x40 ![] bcast_S_S100000x40 (constant (F := Ideal) S_ .f32 0x00000000#32))
    (col dst)
    (Host.gather gather_S100000x40_S3300000x1_S3300000x40_1_0_n_n_0_1_140 y (wrapCol src))

variable (m : (ℓ : Loc nD τ sig) → Buf (Elt Ideal) ℓ) (ρ : Dev nD → PrngReg) (c : Dev nD)

/-- The source words, as the first stretch leaves them. -/
abbrev SRC : IVec S3300000 32 := W1 (F := Ideal) m ρ c (Proc.devRef .tc main_v3)
/-- The target words, as the first stretch leaves them. -/
abbrev DST : IVec S3300000 32 := W1 (F := Ideal) m ρ c (Proc.devRef .tc main_v6)
/-- The per-node scale as a column, as region 0 finds it. -/
abbrev DV : FVec Ideal S100000x1 .f32 := W3 (F := Ideal) m ρ c (Proc.devRef .tc main_v15)

/-- No operation of a stretch writes the buffer: the fold leaves it alone. -/
macro "not_written" : tactic => `(tactic| (
  refine StableHlo.after_of_forall_not_mem _ _ (List.forall_iff_forall_mem.mp ?_)
  simp only [hostOps0, hostOps0_1, hostOps0_2, hostOps1, hostOps2, List.flatten_cons, List.flatten_nil, List.append_nil,
    List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## Region 0's inputs -/

theorem W3_arg0 : W3 (F := Ideal) m ρ c (Proc.devRef .tc main_arg0) = m ((c : Thread nD τ).loc main_arg0) :=
  calc W3 (F := Ideal) m ρ c (Proc.devRef .tc main_arg0)
    _ = W2 m ρ c (Proc.devRef .tc main_arg0) := by not_written
    _ = W1 m ρ c (Proc.devRef .tc main_arg0) := by not_written
    _ = W0 m ρ c (Proc.devRef .tc main_arg0) := by not_written
    _ = m ((c : Thread nD τ).loc main_arg0) := rfl

theorem W3_arg2 : W3 (F := Ideal) m ρ c (Proc.devRef .tc main_arg2) = m ((c : Thread nD τ).loc main_arg2) :=
  calc W3 (F := Ideal) m ρ c (Proc.devRef .tc main_arg2)
    _ = W2 m ρ c (Proc.devRef .tc main_arg2) := by not_written
    _ = W1 m ρ c (Proc.devRef .tc main_arg2) := by not_written
    _ = W0 m ρ c (Proc.devRef .tc main_arg2) := by not_written
    _ = m ((c : Thread nD τ).loc main_arg2) := rfl

/-! ## What survives region 0 and the second stretch -/

theorem W4_v3 : W4 (F := Ideal) m ρ c (Proc.devRef .tc main_v3) = SRC m ρ c :=
  calc W4 (F := Ideal) m ρ c (Proc.devRef .tc main_v3)
    _ = W3 m ρ c (Proc.devRef .tc main_v3) := W4_of_ne m ρ c main_v3 (by decide)
    _ = W2 m ρ c (Proc.devRef .tc main_v3) := by not_written
    _ = W1 m ρ c (Proc.devRef .tc main_v3) := by not_written

theorem W4_v6 : W4 (F := Ideal) m ρ c (Proc.devRef .tc main_v6) = DST m ρ c :=
  calc W4 (F := Ideal) m ρ c (Proc.devRef .tc main_v6)
    _ = W3 m ρ c (Proc.devRef .tc main_v6) := W4_of_ne m ρ c main_v6 (by decide)
    _ = W2 m ρ c (Proc.devRef .tc main_v6) := by not_written
    _ = W1 m ρ c (Proc.devRef .tc main_v6) := by not_written

theorem W4_v15 : W4 (F := Ideal) m ρ c (Proc.devRef .tc main_v15) = DV m ρ c :=
  (W4_arr m ρ c 2).trans (((dat0 (V3 m ρ) c).arrAt_in 2 rfl _).trans (A_eq0 (V3 m ρ) c 2))

theorem W4_v16 : W4 (F := Ideal) m ρ c (Proc.devRef .tc main_v16) = (dat0 (V3 (F := Ideal) m ρ) c).arrAt 3 cfg0.N :=
  W4_arr m ρ c 3

theorem W4_arg3 : W4 (F := Ideal) m ρ c (Proc.devRef .tc main_arg3) = m ((c : Thread nD τ).loc main_arg3) :=
  calc W4 (F := Ideal) m ρ c (Proc.devRef .tc main_arg3)
    _ = W3 m ρ c (Proc.devRef .tc main_arg3) := W4_of_ne m ρ c main_arg3 (by decide)
    _ = W2 m ρ c (Proc.devRef .tc main_arg3) := by not_written
    _ = W1 m ρ c (Proc.devRef .tc main_arg3) := by not_written
    _ = W0 m ρ c (Proc.devRef .tc main_arg3) := by not_written
    _ = m ((c : Thread nD τ).loc main_arg3) := rfl

theorem W4_arg4 : W4 (F := Ideal) m ρ c (Proc.devRef .tc main_arg4) = m ((c : Thread nD τ).loc main_arg4) :=
  calc W4 (F := Ideal) m ρ c (Proc.devRef .tc main_arg4)
    _ = W3 m ρ c (Proc.devRef .tc main_arg4) := W4_of_ne m ρ c main_arg4 (by decide)
    _ = W2 m ρ c (Proc.devRef .tc main_arg4) := by not_written
    _ = W1 m ρ c (Proc.devRef .tc main_arg4) := by not_written
    _ = W0 m ρ c (Proc.devRef .tc main_arg4) := by not_written
    _ = m ((c : Thread nD τ).loc main_arg4) := rfl

theorem W4_arg5 : W4 (F := Ideal) m ρ c (Proc.devRef .tc main_arg5) = m ((c : Thread nD τ).loc main_arg5) :=
  calc W4 (F := Ideal) m ρ c (Proc.devRef .tc main_arg5)
    _ = W3 m ρ c (Proc.devRef .tc main_arg5) := W4_of_ne m ρ c main_arg5 (by decide)
    _ = W2 m ρ c (Proc.devRef .tc main_arg5) := by not_written
    _ = W1 m ρ c (Proc.devRef .tc main_arg5) := by not_written
    _ = W0 m ρ c (Proc.devRef .tc main_arg5) := by not_written
    _ = m ((c : Thread nD τ).loc main_arg5) := rfl

/-! ## Region 1's inputs -/

theorem W5_v26 : (W5 (F := Ideal) m ρ c (Proc.devRef .tc main_v26) : FVec Ideal S100000x16 .f32)
    = segGather16 (DST m ρ c) (SRC m ρ c) ((dat0 (V3 (F := Ideal) m ρ) c).arrAt 3 cfg0.N) := by
  rw [← W4_v3 m ρ c, ← W4_v6 m ρ c, ← W4_v16 m ρ c]
  dsimp only [W5, hostOps1]
  after_results
  rfl

theorem W5_v27 : (W5 (F := Ideal) m ρ c (Proc.devRef .tc main_v27) : FVec Ideal S1x16 .f32)
    = shapeCast S1x16 (m ((c : Thread nD τ).loc main_arg3) : FVec Ideal S16 .f32) shapeCasts_S16_S1x16 := by
  rw [← W4_arg3 m ρ c]
  dsimp only [W5, hostOps1]
  after_results
  rfl

theorem W5_v15 : W5 (F := Ideal) m ρ c (Proc.devRef .tc main_v15) = DV m ρ c :=
  (show W5 (F := Ideal) m ρ c (Proc.devRef .tc main_v15) = W4 m ρ c (Proc.devRef .tc main_v15) by not_written).trans
    (W4_v15 m ρ c)

theorem W5_arg4 : W5 (F := Ideal) m ρ c (Proc.devRef .tc main_arg4) = m ((c : Thread nD τ).loc main_arg4) :=
  (show W5 (F := Ideal) m ρ c (Proc.devRef .tc main_arg4) = W4 m ρ c (Proc.devRef .tc main_arg4) by not_written).trans
    (W4_arg4 m ρ c)

/-! ## What survives region 1 and the third stretch -/

theorem W6_v3 : W6 (F := Ideal) m ρ c (Proc.devRef .tc main_v3) = SRC m ρ c :=
  calc W6 (F := Ideal) m ρ c (Proc.devRef .tc main_v3)
    _ = W5 m ρ c (Proc.devRef .tc main_v3) := W6_of_ne m ρ c main_v3 (by decide)
    _ = W4 m ρ c (Proc.devRef .tc main_v3) := by not_written
    _ = SRC m ρ c := W4_v3 m ρ c

theorem W6_v6 : W6 (F := Ideal) m ρ c (Proc.devRef .tc main_v6) = DST m ρ c :=
  calc W6 (F := Ideal) m ρ c (Proc.devRef .tc main_v6)
    _ = W5 m ρ c (Proc.devRef .tc main_v6) := W6_of_ne m ρ c main_v6 (by decide)
    _ = W4 m ρ c (Proc.devRef .tc main_v6) := by not_written
    _ = DST m ρ c := W4_v6 m ρ c

theorem W6_v15 : W6 (F := Ideal) m ρ c (Proc.devRef .tc main_v15) = DV m ρ c :=
  ((W6_arr m ρ c 1).trans (((dat1 (V5 m ρ) c).arrAt_in 1 rfl _).trans (A_eq1 (V5 m ρ) c 1))).trans (W5_v15 m ρ c)

theorem W6_v28 : W6 (F := Ideal) m ρ c (Proc.devRef .tc main_v28) = (dat1 (V5 (F := Ideal) m ρ) c).arrAt 4 cfg1.N :=
  W6_arr m ρ c 4

theorem W6_arg5 : W6 (F := Ideal) m ρ c (Proc.devRef .tc main_arg5) = m ((c : Thread nD τ).loc main_arg5) :=
  calc W6 (F := Ideal) m ρ c (Proc.devRef .tc main_arg5)
    _ = W5 m ρ c (Proc.devRef .tc main_arg5) := W6_of_ne m ρ c main_arg5 (by decide)
    _ = W4 m ρ c (Proc.devRef .tc main_arg5) := by not_written
    _ = m ((c : Thread nD τ).loc main_arg5) := W4_arg5 m ρ c

/-! ## Region 2's inputs -/

theorem W7_v38 : (W7 (F := Ideal) m ρ c (Proc.devRef .tc main_v38) : FVec Ideal S100000x40 .f32)
    = segGather40 (DST m ρ c) (SRC m ρ c) ((dat1 (V5 (F := Ideal) m ρ) c).arrAt 4 cfg1.N) := by
  rw [← W6_v3 m ρ c, ← W6_v6 m ρ c, ← W6_v28 m ρ c]
  dsimp only [W7, hostOps2]
  after_results
  rfl

theorem W7_v39 : (W7 (F := Ideal) m ρ c (Proc.devRef .tc main_v39) : FVec Ideal S1x40 .f32)
    = shapeCast S1x40 (m ((c : Thread nD τ).loc main_arg5) : FVec Ideal S40 .f32) shapeCasts_S40_S1x40 := by
  rw [← W6_arg5 m ρ c]
  dsimp only [W7, hostOps2]
  after_results
  rfl

theorem W7_v15 : W7 (F := Ideal) m ρ c (Proc.devRef .tc main_v15) = DV m ρ c :=
  (show W7 (F := Ideal) m ρ c (Proc.devRef .tc main_v15) = W6 m ρ c (Proc.devRef .tc main_v15) by not_written).trans
    (W6_v15 m ρ c)

/-! ## The result -/

theorem W8_v40 : W8 (F := Ideal) m ρ c (Proc.devRef .tc main_v40) = (dat2 (V7 (F := Ideal) m ρ) c).arrAt 3 cfg2.N :=
  W8_arr m ρ c 3

end Cert.KernelIdeal.KHost

end
-- ==== Proof.LibRowGatherScatter.lean ====
/-
  Row gathers and row scatter-adds read at coordinates.

  What `x[idx]` and `jax.ops.segment_sum` lower to when the integer vector `idx : [E]` enters as start
  indices of shape `[E, 1]`:
   * a gather of single elements of a vector `x : [N]` (`take1Dims`), and of whole rows of a matrix
     `x : [N, C]` (`takeRowsDims`): result element `e` (row `e`) is the operand's at the start word
     `idx[e, 0]`, read as a signed integer and clamped into `[0, N − 1]`;
   * a scatter with an `add` body of a vector of updates `[E]` into `[N]` (`add1Dims`) and of rows
     `[E, C]` into `[N, C]` (`addRowsDims`): update `e` lands on element (row) `t` exactly when the start
     word `idx[e, 0]`, read signed and NOT clamped, is `t`; an update whose word is outside `[0, N)` is
     dropped.  On the extended reals the result at `t` is the operand's element plus the sum of the
     updates that land there.
-/
import Idealize.ShloMosaic.PureOps.Ideal
import Idealize.ShloMosaic.PureOps.Ideal.Laws
import Idealize.ShloMosaic.Lib.ValueIdx

noncomputable section

namespace Idealize.ShloMosaic.RowIdx

open Idealize.ShloMosaic Idealize.ShloMosaic.ValueIdx

variable {α : Type}

/-- The dimension numbers of `x[idx]` for `x : [N]`, start indices `[E, 1]`, result `[E]`. -/
abbrev take1Dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather of single elements read at `e`: the operand at the start word, signed and clamped. -/
theorem gather_take1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (take1Dims N E wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (take1Dims N E wf).start (ix1 e) idx 0 + (take1Dims N E wf).batchCoord (ix1 e) 0
    + (take1Dims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N E wf).startIndexMap from List.mem_singleton.mpr rfl)]
  have hsi : (take1Dims N E wf).siIdx (ix1 e) ⟨List.idxOf (0 : Fin 1) (take1Dims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The dimension numbers of `x[idx]` for `x : [N, C]`, start indices `[E, 1]`, result `[E, C]`. -/
abbrev takeRowsDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather of rows read at `(e, f)`: the operand's row at the start word, signed and clamped, column `f`. -/
theorem gather_takeRows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (takeRowsDims N E C wf) x idx (ix2 e f)
      = x (ix2 ⟨min (idx (ix2 e 0)).toInt.toNat (N - 1), by omega⟩ f) := by
  unfold Host.gather
  congr 1
  funext a
  refine Fin.ext ?_
  show (takeRowsDims N E C wf).start (ix2 e f) idx a + (takeRowsDims N E C wf).batchCoord (ix2 e f) a
    + (takeRowsDims N E C wf).offCoord (ix2 e f) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (takeRowsDims N E C wf).startIndexMap from List.mem_singleton.mpr rfl)]
    have hsi : (takeRowsDims N E C wf).siIdx (ix2 e f) ⟨List.idxOf (⟨0, by decide⟩ : Fin 2) (takeRowsDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, h1⟩ =>
    have hne : (⟨1, h1⟩ : Fin 2) ∉ ([0] : List (Fin 2)) := fun h =>
      Nat.one_ne_zero (congrArg Fin.val (List.mem_singleton.mp h))
    have hmem : (⟨1, h1⟩ : Fin 2) ∈ (takeRowsDims N E C wf).sKept :=
      (GatherDims.mem_sKept _ _).mpr ⟨hne, List.not_mem_nil⟩
    have hnot : (⟨1, h1⟩ : Fin 2) ∉ (takeRowsDims N E C wf).startIndexMap := hne
    unfold GatherDims.start GatherDims.offCoord
    rw [dif_neg hnot, dif_pos hmem]
    simp only [Nat.zero_add]
    rfl

/-- The dimension numbers of `segment_sum` of a vector `[E]` into `[N]`, scatter indices `[E, 1]`. -/
abbrev add1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on element `t` exactly when its start word, read signed, is `t`. -/
theorem add1_resultIdx?_eq_some_iff {N E w : Nat} (wf : ScatterDims.WF ⟨1, ![N]⟩ ⟨2, ![E, 1]⟩ ⟨1, ![E]⟩ [] [0] [0] 1)
    (idx : IVec ⟨2, ![E, 1]⟩ w) (e : Fin E) (t : Fin N) :
    (add1Dims N E wf).resultIdx? (ix1 e) idx = some (ix1 t) ↔ (idx (ix2 e 0)).toInt = (t.val : Int) := by
  have hstart : (add1Dims N E wf).start (ix1 e) idx 0 = (idx (ix2 e 0)).toInt := by
    unfold ScatterDims.start
    rw [dif_pos (show (0 : Fin 1) ∈ (add1Dims N E wf).scatterDimsToOperandDims from List.mem_singleton.mpr rfl)]
    have hsi : (add1Dims N E wf).siIdx (ix1 e) ⟨List.idxOf (0 : Fin 1) (add1Dims N E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hwin : (add1Dims N E wf).window (ix1 e) 0 = 0 := by
    unfold ScatterDims.window
    have hnk : (0 : Fin 1) ∉ (add1Dims N E wf).sKept := by
      intro h
      have h2 : (0 : Fin 1) ∉ ([0] : List (Fin 1)) := of_decide_eq_true (List.mem_filter.mp h).2
      exact h2 (List.mem_singleton.mpr rfl)
    rw [dif_neg hnk]
  unfold ScatterDims.resultIdx?
  constructor
  · intro h
    by_cases hc : ∀ a, 0 ≤ (add1Dims N E wf).start (ix1 e) idx a + (add1Dims N E wf).window (ix1 e) a
        ∧ (add1Dims N E wf).start (ix1 e) idx a + (add1Dims N E wf).window (ix1 e) a < (⟨1, ![N]⟩ : Shape).size a
    · rw [dif_pos hc] at h
      have h0 : ((add1Dims N E wf).start (ix1 e) idx 0 + ((add1Dims N E wf).window (ix1 e) 0 : Nat)).toNat = t.val :=
        congrArg Fin.val (congrFun (Option.some.inj h) 0)
      have hc0 := (hc 0).1
      rw [hstart, hwin] at h0 hc0
      omega
    · rw [dif_neg hc] at h
      exact absurd h (by simp)
  · intro h
    have hc : ∀ a, 0 ≤ (add1Dims N E wf).start (ix1 e) idx a + (add1Dims N E wf).window (ix1 e) a
        ∧ (add1Dims N E wf).start (ix1 e) idx a + (add1Dims N E wf).window (ix1 e) a < (⟨1, ![N]⟩ : Shape).size a := by
      intro a
      obtain rfl : a = 0 := Subsingleton.elim _ _
      rw [hstart, hwin, h]
      have ht : (t.val : Int) < (N : Int) := by exact_mod_cast t.isLt
      constructor
      · omega
      · show (t.val : Int) + ((0 : Nat) : Int) < (N : Int)
        omega
    rw [dif_pos hc]
    congr 1
    funext a
    obtain rfl : a = 0 := Subsingleton.elim _ _
    refine Fin.ext ?_
    show ((add1Dims N E wf).start (ix1 e) idx 0 + ((add1Dims N E wf).window (ix1 e) 0 : Nat)).toNat = t.val
    rw [hstart, hwin, h]
    omega

/-- The accumulating scatter of a vector on the extended reals, read at `t`. -/
theorem scatterAdd1_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (t : Fin N) :
    Ideal.hostScatterAdd (add1Dims N E wf) x idx upd (ix1 t)
      = x (ix1 t) + ∑ e ∈ Finset.univ.filter (fun e : Fin E => (idx (ix2 e 0)).toInt = (t.val : Int)), upd (ix1 e) := by
  show x (ix1 t) + ∑ j ∈ Finset.univ.filter (fun j => (add1Dims N E wf).resultIdx? j idx = some (ix1 t)), upd j = _
  congr 1
  refine Finset.sum_nbij' (fun j => (j 0 : Fin E)) (fun e => ix1 e) ?_ ?_ ?_ ?_ ?_
  · intro j hj
    obtain ⟨e, rfl⟩ : ∃ e, j = ix1 e := ⟨j 0, eq_ix1 j⟩
    exact Finset.mem_filter.mpr ⟨Finset.mem_univ _,
      (add1_resultIdx?_eq_some_iff wf idx e t).mp (Finset.mem_filter.mp hj).2⟩
  · intro e he
    exact Finset.mem_filter.mpr ⟨Finset.mem_univ _,
      (add1_resultIdx?_eq_some_iff wf idx e t).mpr (Finset.mem_filter.mp he).2⟩
  · intro j _
    exact (eq_ix1 j).symm
  · intro e _
    rfl
  · intro j _
    exact congrArg upd (eq_ix1 j)

/-- The dimension numbers of `segment_sum` of rows `[E, C]` into `[N, C]`, scatter indices `[E, 1]`. -/
abbrev addRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update `(e, f)` lands on `(t, g)` exactly when row `e`'s start word, read signed, is `t` and `f = g`. -/
theorem addRows_resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (f : Fin C) (t : Fin N) (g : Fin C) :
    (addRowsDims N E C wf).resultIdx? (ix2 e f) idx = some (ix2 t g) ↔ (idx (ix2 e 0)).toInt = (t.val : Int) ∧ f = g := by
  have hne : (1 : Fin 2) ∉ ([0] : List (Fin 2)) := by decide
  have hstart0 : (addRowsDims N E C wf).start (ix2 e f) idx 0 = (idx (ix2 e 0)).toInt := by
    unfold ScatterDims.start
    rw [dif_pos (show (0 : Fin 2) ∈ (addRowsDims N E C wf).scatterDimsToOperandDims from List.mem_singleton.mpr rfl)]
    have hsi : (addRowsDims N E C wf).siIdx (ix2 e f) ⟨List.idxOf (0 : Fin 2) (addRowsDims N E C wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hstart1 : (addRowsDims N E C wf).start (ix2 e f) idx 1 = 0 := by
    unfold ScatterDims.start
    rw [dif_neg hne]
  have hwin0 : (addRowsDims N E C wf).window (ix2 e f) 0 = 0 := by
    unfold ScatterDims.window
    have hnk : (0 : Fin 2) ∉ (addRowsDims N E C wf).sKept := by
      intro h
      have h2 : (0 : Fin 2) ∉ ([0] : List (Fin 2)) := of_decide_eq_true (List.mem_filter.mp h).2
      exact h2 (List.mem_singleton.mpr rfl)
    rw [dif_neg hnk]
  have hwin1 : (addRowsDims N E C wf).window (ix2 e f) 1 = f.val := by
    unfold ScatterDims.window
    have hk : (1 : Fin 2) ∈ (addRowsDims N E C wf).sKept := List.mem_filter.mpr ⟨List.mem_finRange _, decide_eq_true hne⟩
    rw [dif_pos hk]
    rfl
  unfold ScatterDims.resultIdx?
  constructor
  · intro h
    by_cases hc : ∀ a, 0 ≤ (addRowsDims N E C wf).start (ix2 e f) idx a + (addRowsDims N E C wf).window (ix2 e f) a
        ∧ (addRowsDims N E C wf).start (ix2 e f) idx a + (addRowsDims N E C wf).window (ix2 e f) a < (⟨2, ![N, C]⟩ : Shape).size a
    · rw [dif_pos hc] at h
      have h0 : ((addRowsDims N E C wf).start (ix2 e f) idx 0 + ((addRowsDims N E C wf).window (ix2 e f) 0 : Nat)).toNat = t.val :=
        congrArg Fin.val (congrFun (Option.some.inj h) 0)
      have h1 : ((addRowsDims N E C wf).start (ix2 e f) idx 1 + ((addRowsDims N E C wf).window (ix2 e f) 1 : Nat)).toNat = g.val :=
        congrArg Fin.val (congrFun (Option.some.inj h) 1)
      have hc0 := (hc 0).1
      rw [hstart0, hwin0] at h0 hc0
      rw [hstart1, hwin1] at h1
      exact ⟨by omega, Fin.ext (by omega)⟩
    · rw [dif_neg hc] at h
      exact absurd h (by simp)
  · rintro ⟨h, rfl⟩
    have hc : ∀ a, 0 ≤ (addRowsDims N E C wf).start (ix2 e f) idx a + (addRowsDims N E C wf).window (ix2 e f) a
        ∧ (addRowsDims N E C wf).start (ix2 e f) idx a + (addRowsDims N E C wf).window (ix2 e f) a < (⟨2, ![N, C]⟩ : Shape).size a := by
      intro a
      match a with
      | ⟨0, _⟩ =>
        show 0 ≤ (addRowsDims N E C wf).start (ix2 e f) idx 0 + ((addRowsDims N E C wf).window (ix2 e f) 0 : Nat)
          ∧ (addRowsDims N E C wf).start (ix2 e f) idx 0 + ((addRowsDims N E C wf).window (ix2 e f) 0 : Nat) < (N : Int)
        rw [hstart0, hwin0, h]
        have := t.isLt
        omega
      | ⟨1, _⟩ =>
        show 0 ≤ (addRowsDims N E C wf).start (ix2 e f) idx 1 + ((addRowsDims N E C wf).window (ix2 e f) 1 : Nat)
          ∧ (addRowsDims N E C wf).start (ix2 e f) idx 1 + ((addRowsDims N E C wf).window (ix2 e f) 1 : Nat) < (C : Int)
        rw [hstart1, hwin1]
        have := f.isLt
        omega
    rw [dif_pos hc]
    congr 1
    funext a
    refine Fin.ext ?_
    match a with
    | ⟨0, _⟩ =>
      show ((addRowsDims N E C wf).start (ix2 e f) idx 0 + ((addRowsDims N E C wf).window (ix2 e f) 0 : Nat)).toNat = t.val
      rw [hstart0, hwin0, h]
      omega
    | ⟨1, _⟩ =>
      show ((addRowsDims N E C wf).start (ix2 e f) idx 1 + ((addRowsDims N E C wf).window (ix2 e f) 1 : Nat)).toNat = f.val
      rw [hstart1, hwin1]
      omega

/-- The accumulating scatter of rows on the extended reals, read at `(t, g)`. -/
theorem scatterAddRows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (t : Fin N) (g : Fin C) :
    Ideal.hostScatterAdd (addRowsDims N E C wf) x idx upd (ix2 t g)
      = x (ix2 t g) + ∑ e ∈ Finset.univ.filter (fun e : Fin E => (idx (ix2 e 0)).toInt = (t.val : Int)), upd (ix2 e g) := by
  show x (ix2 t g) + ∑ j ∈ Finset.univ.filter (fun j => (addRowsDims N E C wf).resultIdx? j idx = some (ix2 t g)), upd j = _
  congr 1
  refine Finset.sum_nbij' (fun j => (j 0 : Fin E)) (fun e => ix2 e g) ?_ ?_ ?_ ?_ ?_
  · intro j hj
    obtain ⟨e, f, rfl⟩ : ∃ e f, j = ix2 e f := ⟨j 0, j 1, eq_ix2 j⟩
    exact Finset.mem_filter.mpr ⟨Finset.mem_univ _,
      ((addRows_resultIdx?_eq_some_iff wf idx e f t g).mp (Finset.mem_filter.mp hj).2).1⟩
  · intro e he
    exact Finset.mem_filter.mpr ⟨Finset.mem_univ _,
      (addRows_resultIdx?_eq_some_iff wf idx e g t g).mpr ⟨(Finset.mem_filter.mp he).2, rfl⟩⟩
  · intro j hj
    obtain ⟨e, f, rfl⟩ : ∃ e f, j = ix2 e f := ⟨j 0, j 1, eq_ix2 j⟩
    have hfg := ((addRows_resultIdx?_eq_some_iff wf idx e f t g).mp (Finset.mem_filter.mp hj).2).2
    show ix2 e g = ix2 e f
    rw [hfg]
  · intro e _
    rfl
  · intro j hj
    obtain ⟨e, f, rfl⟩ : ∃ e f, j = ix2 e f := ⟨j 0, j 1, eq_ix2 j⟩
    have hfg := ((addRows_resultIdx?_eq_some_iff wf idx e f t g).mp (Finset.mem_filter.mp hj).2).2
    show upd (ix2 e f) = upd (ix2 e g)
    rw [hfg]

end Idealize.ShloMosaic.RowIdx

end
-- ==== Proof.KIdx.lean ====
/-
  The kernel program's host aggregation read at a node and a feature.

  `segGather16 dst src y` (and its 40-column twin) gathers the rows of `y` at the source words and adds each gathered
  row into the row its target word names.  Read at node `d` and feature `j` it is the sum, over the edges whose
  target word reads (signed) as `d`, of `y` at the edge's source row and column `j`: the source row is the source
  word, wrapped once if negative and clamped into the node range; an edge whose target word is outside the node
  range lands nowhere.  The zero-filled operand of the scatter contributes `0`.
-/
import proofs.«102929_j30116310680051_2_alg».proof.Proof.KHost
import proofs.«102929_j30116310680051_2_alg».proof.Proof.LibRowGatherScatter
import Idealize.ShloMosaic.Lib.Pipeline.Value
import Idealize.ShloMosaic.Lib.ValueIdx
import Idealize.ShloMosaic.PureOps.Ideal.Laws

set_option maxRecDepth 16384

noncomputable section

namespace Cert.KernelIdeal.KHost

open Cert.KernelIdeal Cert.KernelIdeal.Gen
open Idealize.ShloMosaic Idealize.ShloMosaic.ValueIdx Idealize.ShloMosaic.RowIdx

/-- A word read as a signed integer and clamped into the node range. -/
def clampN (w : BitVec 32) : Fin 100000 := ⟨min w.toInt.toNat 99999, by omega⟩

/-- A negative index word wrapped once by the node count. -/
def wrapw (w : BitVec 32) : BitVec 32 := Scalar.select (IntOp.cmpi .slt w 0#32) (IntOp.addi w 100000#32) w

theorem col_apply (v : IVec S3300000 32) (e : Fin 3300000) : col v (ix2 e 0) = v (ix1 e) := by
  unfold col
  exact broadcastInDim_apply _ bcast_S3300000_S3300000x1_0 v (ix2 e 0) (ix1 e) (fun a => match a with
    | ⟨0, _⟩ => by show e.val = if (3300000 : Nat) = 1 then 0 else e.val; rw [if_neg (by decide)])

theorem wrapCol_apply (v : IVec S3300000 32) (e : Fin 3300000) : wrapCol v (ix2 e 0) = wrapw (v (ix1 e)) := by
  unfold wrapCol
  refine (broadcastInDim_apply _ bcast_S3300000_S3300000x1_0 _ (ix2 e 0) (ix1 e) (fun a => match a with
    | ⟨0, _⟩ => by show e.val = if (3300000 : Nat) = 1 then 0 else e.val; rw [if_neg (by decide)])).trans ?_
  rfl

theorem zeros16_apply (i : S100000x16.Idx) :
    broadcastInDim S100000x16 ![] bcast_S_S100000x16 (constant (F := Ideal) S_ .f32 0x00000000#32) i = 0 := by
  show Ideal.ofBits .f32 0x00000000#32 = 0
  exact Ideal.ofBits_zero_f32

theorem zeros40_apply (i : S100000x40.Idx) :
    broadcastInDim S100000x40 ![] bcast_S_S100000x40 (constant (F := Ideal) S_ .f32 0x00000000#32) i = 0 := by
  show Ideal.ofBits .f32 0x00000000#32 = 0
  exact Ideal.ofBits_zero_f32

/-- The printed gather and scatter records are the general row records at these sizes. -/
theorem takeRows16_eq : gather_S100000x16_S3300000x1_S3300000x16_1_0_n_n_0_1_116
    = takeRowsDims 100000 3300000 16 Facts₀.gather_S100000x16_S3300000x1_S3300000x16_1_0_n_n_0_1_116_wf := rfl
theorem takeRows40_eq : gather_S100000x40_S3300000x1_S3300000x40_1_0_n_n_0_1_140
    = takeRowsDims 100000 3300000 40 Facts₀.gather_S100000x40_S3300000x1_S3300000x40_1_0_n_n_0_1_140_wf := rfl
theorem addRows16_eq : scatter_S100000x16_S3300000x1_S3300000x16_1_0_0_1
    = addRowsDims 100000 3300000 16 Facts₀.scatter_S100000x16_S3300000x1_S3300000x16_1_0_0_1_wf := rfl
theorem addRows40_eq : scatter_S100000x40_S3300000x1_S3300000x40_1_0_0_1
    = addRowsDims 100000 3300000 40 Facts₀.scatter_S100000x40_S3300000x1_S3300000x40_1_0_0_1_wf := rfl

/-- Row `e` of a gather of 16-wide rows: the operand's row at the clamped start word. -/
theorem gatherRows16_apply (y : S100000x16.Idx → EReal) (idx : IVec S3300000x1 32) (e : Fin 3300000) (j : Fin 16) :
    Host.gather gather_S100000x16_S3300000x1_S3300000x16_1_0_n_n_0_1_116 y idx (ix2 e j) = y (ix2 (clampN (idx (ix2 e 0))) j) := by
  rw [takeRows16_eq]
  exact gather_takeRows_apply (by decide) _ y idx e j

/-- Row `e` of a gather of 40-wide rows. -/
theorem gatherRows40_apply (y : S100000x40.Idx → EReal) (idx : IVec S3300000x1 32) (e : Fin 3300000) (j : Fin 40) :
    Host.gather gather_S100000x40_S3300000x1_S3300000x40_1_0_n_n_0_1_140 y idx (ix2 e j) = y (ix2 (clampN (idx (ix2 e 0))) j) := by
  rw [takeRows40_eq]
  exact gather_takeRows_apply (by decide) _ y idx e j

/-- An accumulating scatter of 16-wide rows at node `d`, column `j`: the operand there plus the updates whose start
    word, read signed, is `d`. -/
theorem scatterRows16_apply (z : S100000x16.Idx → EReal) (idx : IVec S3300000x1 32) (upd : S3300000x16.Idx → EReal)
    (d : Fin 100000) (j : Fin 16) :
    Host.scatterAdd (F := Ideal) (φ := .f32) scatter_S100000x16_S3300000x1_S3300000x16_1_0_0_1 z idx upd (ix2 d j)
      = z (ix2 d j) + ∑ e ∈ Finset.univ.filter (fun e : Fin 3300000 => (idx (ix2 e 0)).toInt = (d.val : Int)), upd (ix2 e j) := by
  rw [addRows16_eq]
  exact scatterAddRows_apply _ z idx upd d j

/-- The same for 40-wide rows. -/
theorem scatterRows40_apply (z : S100000x40.Idx → EReal) (idx : IVec S3300000x1 32) (upd : S3300000x40.Idx → EReal)
    (d : Fin 100000) (j : Fin 40) :
    Host.scatterAdd (F := Ideal) (φ := .f32) scatter_S100000x40_S3300000x1_S3300000x40_1_0_0_1 z idx upd (ix2 d j)
      = z (ix2 d j) + ∑ e ∈ Finset.univ.filter (fun e : Fin 3300000 => (idx (ix2 e 0)).toInt = (d.val : Int)), upd (ix2 e j) := by
  rw [addRows40_eq]
  exact scatterAddRows_apply _ z idx upd d j

theorem segGather16_apply (dst src : IVec S3300000 32) (y : FVec Ideal S100000x16 .f32) (d : Fin 100000) (j : Fin 16) :
    segGather16 dst src y (ix2 d j)
      = ∑ e ∈ Finset.univ.filter (fun e : Fin 3300000 => (dst (ix1 e)).toInt = (d.val : Int)),
          y (ix2 (clampN (wrapw (src (ix1 e)))) j) := by
  unfold segGather16
  rw [scatterRows16_apply, zeros16_apply, zero_add]
  refine Finset.sum_congr (Finset.filter_congr fun e _ => by rw [col_apply]) fun e _ => ?_
  rw [gatherRows16_apply, wrapCol_apply]

theorem segGather40_apply (dst src : IVec S3300000 32) (y : FVec Ideal S100000x40 .f32) (d : Fin 100000) (j : Fin 40) :
    segGather40 dst src y (ix2 d j)
      = ∑ e ∈ Finset.univ.filter (fun e : Fin 3300000 => (dst (ix1 e)).toInt = (d.val : Int)),
          y (ix2 (clampN (wrapw (src (ix1 e)))) j) := by
  unfold segGather40
  rw [scatterRows40_apply, zeros40_apply, zero_add]
  refine Finset.sum_congr (Finset.filter_congr fun e _ => by rw [col_apply]) fun e _ => ?_
  rw [gatherRows40_apply, wrapCol_apply]

end Cert.KernelIdeal.KHost

end
-- ==== Proof.KRef.lean ====
/-
  The kernel program's edge words and per-node scale are the reference's.

  Both programs compute, from `edge_index` alone and by the same host operations, the source words, the target words
  and the per-node scale `δ = where(deg > 0, rsqrt(deg), 0)` of the in-degree (self-loops included).  Here the kernel
  program's three arrays (read off its first host stretches) are identified with the reference's stages
  `val_main_v4` (sources), `val_main_v7` (targets) and `val_main_v15` (the scale): the operations are the same, so
  the terms are the same up to unfolding names.  The bias rows `[1, C]` are read back at an entry.
-/
import proofs.«102929_j30116310680051_2_alg».proof.Proof.KHost
import proofs.«102929_j30116310680051_2_alg».proof.Proof.RefReadP
import proofs.«102929_j30116310680051_2_alg».proof.Proof.LibColumnForms
import Idealize.ShloMosaic.Lib.ValueLayout

set_option maxRecDepth 16384

noncomputable section

namespace Cert.KernelIdeal.KHost

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

theorem SRC_eq : SRC m ρ c = Cert.ReferenceIdeal.ReadP.val_main_v4 (F := Ideal) (m ((c : Thread nD τ).loc main_arg1)) := by
  dsimp only [SRC, W1, hostOps0]
  after_results
  rfl

theorem DST_eq : DST m ρ c = Cert.ReferenceIdeal.ReadP.val_main_v7 (F := Ideal) (m ((c : Thread nD τ).loc main_arg1)) := by
  dsimp only [DST, W1, hostOps0]
  after_results
  rfl

/-- The per-node scale of a target-word array: `where(deg > 0, rsqrt(deg), 0)` of the in-degree `deg`, the scatter-add of
    ones into zeros at the target words. -/
def dinvOf (dst : IVec S3300000 32) : FVec Ideal S100000 .f32 :=
  select
    (cmpf (F := Ideal) .ogt
      (Host.scatterAdd (F := Ideal) scatter_S100000_S3300000x1_S3300000_n_0_0_1
        (broadcastInDim S100000 ![] bcast_S_S100000 (constant (F := Ideal) S_ .f32 0x00000000#32)) (col dst)
        (broadcastInDim S3300000 ![] bcast_S_S3300000 (constant (F := Ideal) S_ .f32 0x3F800000#32)))
      (broadcastInDim S100000 ![] bcast_S_S100000 (constant (F := Ideal) S_ .f32 0x00000000#32)))
    (Host.rsqrt (F := Ideal)
      (Host.scatterAdd (F := Ideal) scatter_S100000_S3300000x1_S3300000_n_0_0_1
        (broadcastInDim S100000 ![] bcast_S_S100000 (constant (F := Ideal) S_ .f32 0x00000000#32)) (col dst)
        (broadcastInDim S3300000 ![] bcast_S_S3300000 (constant (F := Ideal) S_ .f32 0x3F800000#32))))
    (broadcastInDim S100000 ![] bcast_S_S100000 (id (constant (F := Ideal) S_ .f32 0x00000000#32)))

/-- The target words as a function of `edge_index`: its second row followed by the self-loops `0 … N-1`. -/
def dstOf (x1 : IVec S2x3200000 32) : IVec S3300000 32 :=
  concatenate S3300000 0
    [⟨S3200000, shapeCast S3200000 (extractStridedSlice S1x3200000 ![1, 0] x1 slices_S2x3200000_S1x3200000_1_0)
        shapeCasts_S1x3200000_S3200000⟩,
      ⟨S100000, iotaInDim S100000 32 0⟩]
    concatenates_S3200000_S100000_S3300000_d0

theorem DST_K : DST m ρ c = dstOf (m ((c : Thread nD τ).loc main_arg1)) := by
  dsimp only [DST, W1, hostOps0]
  after_results
  rfl

/-- Contents carried to a buffer's own type and back are unchanged. -/
theorem ofBuf_toBuf {T : BufTy} (x : StableHlo.TRef sig T) (v : T.Contents (Elt Ideal)) : x.ofBuf (x.toBuf v) = v := by
  obtain ⟨r, h, _, _⟩ := x
  subst h
  rfl

/-- The in-degree: ones added into zeros at the target words. -/
def degOf (dst : IVec S3300000 32) : FVec Ideal S100000 .f32 :=
  Host.scatterAdd (F := Ideal) scatter_S100000_S3300000x1_S3300000_n_0_0_1
    (broadcastInDim S100000 ![] bcast_S_S100000 (constant (F := Ideal) S_ .f32 0x00000000#32)) (col dst)
    (broadcastInDim S3300000 ![] bcast_S_S3300000 (constant (F := Ideal) S_ .f32 0x3F800000#32))

theorem dinvOf_eq (dst : IVec S3300000 32) : dinvOf dst
    = select (cmpf (F := Ideal) .ogt (degOf dst) (broadcastInDim S100000 ![] bcast_S_S100000 (constant (F := Ideal) S_ .f32 0x00000000#32)))
        (Host.rsqrt (F := Ideal) (degOf dst))
        (broadcastInDim S100000 ![] bcast_S_S100000 (id (constant (F := Ideal) S_ .f32 0x00000000#32))) := rfl

/-- From any contents, the first stretch leaves the comparison `deg > 0`, … -/
theorem cmp_of (V : Valuation τ sig (Elt Ideal)) :
    (StableHlo.after hostOps0 V (Proc.devRef .tc main_v12) : IVec S100000 1)
      = cmpf (F := Ideal) .ogt (degOf (dstOf (V (Proc.devRef .tc main_arg1))))
          (broadcastInDim S100000 ![] bcast_S_S100000 (constant (F := Ideal) S_ .f32 0x00000000#32)) := by
  dsimp only [hostOps0]
  after_results
  rfl

/-- … the reciprocal square root of the degree, … -/
theorem rsqrt_of (V : Valuation τ sig (Elt Ideal)) :
    (StableHlo.after hostOps0 V (Proc.devRef .tc main_v13) : FVec Ideal S100000 .f32)
      = Host.rsqrt (F := Ideal) (degOf (dstOf (V (Proc.devRef .tc main_arg1)))) := by
  dsimp only [hostOps0]
  after_results
  rfl

/-- … and the zero the selection falls back to. -/
theorem zero_of (V : Valuation τ sig (Elt Ideal)) :
    (StableHlo.after hostOps0 V (Proc.devRef .tc main_cst_2) : FVec Ideal S_ .f32) = constant (F := Ideal) S_ .f32 0x00000000#32 := by
  dsimp only [hostOps0]
  after_results

/-- From any contents, the second stretch selects between its second operand and the broadcast third by the first. -/
theorem where_of (V : Valuation τ sig (Elt Ideal)) :
    (StableHlo.after hostOps0_1 V (Proc.devRef .tc main_v14) : FVec Ideal S100000 .f32)
      = select (V (Proc.devRef .tc main_v12) : IVec S100000 1) (V (Proc.devRef .tc main_v13) : FVec Ideal S100000 .f32)
          (broadcastInDim S100000 ![] bcast_S_S100000 (id (V (Proc.devRef .tc main_cst_2) : FVec Ideal S_ .f32))) := by
  dsimp only [hostOps0_1]
  after_results
  repeat rw [ofBuf_toBuf]
  rfl

/-- From any contents, the first two stretches leave `dinvOf` of the target words in the scale's buffer. -/
theorem scale_of (V : Valuation τ sig (Elt Ideal)) :
    (StableHlo.after hostOps0_1 (StableHlo.after hostOps0 V) (Proc.devRef .tc main_v14) : FVec Ideal S100000 .f32)
      = dinvOf (dstOf (V (Proc.devRef .tc main_arg1))) := by
  rw [where_of, cmp_of, rsqrt_of, zero_of, dinvOf_eq]

/-- From any contents, the third stretch casts the scale to a column. -/
theorem column_of (V : Valuation τ sig (Elt Ideal)) :
    (StableHlo.after hostOps0_2 V (Proc.devRef .tc main_v15) : FVec Ideal S100000x1 .f32)
      = shapeCast S100000x1 (V (Proc.devRef .tc main_v14) : FVec Ideal S100000 .f32) shapeCasts_S100000_S100000x1 := by
  dsimp only [hostOps0_2]
  after_results
  rfl

/-- The scale column region 0 finds is `dinvOf` of the target words, as a column. -/
theorem DV_K : DV m ρ c = shapeCast S100000x1 (dinvOf (dstOf (m ((c : Thread nD τ).loc main_arg1)))) shapeCasts_S100000_S100000x1 :=
  (column_of (W2 m ρ c)).trans (congrArg (fun y => shapeCast S100000x1 y shapeCasts_S100000_S100000x1) (scale_of (W0 m ρ c)))

/-- On the reference's target words it is the reference's scale. -/
theorem dinvOf_ref (x1 : (⟨Cert.ReferenceIdeal.S2x3200000, .i32⟩ : BufTy).Contents (Elt Ideal)) :
    dinvOf (Cert.ReferenceIdeal.ReadP.val_main_v7 (F := Ideal) x1) = Cert.ReferenceIdeal.ReadP.val_main_v15 (F := Ideal) x1 := rfl

theorem DV_eq : DV m ρ c = shapeCast S100000x1
    (Cert.ReferenceIdeal.ReadP.val_main_v15 (F := Ideal) (m ((c : Thread nD τ).loc main_arg1))) shapeCasts_S100000_S100000x1 := by
  rw [DV_K, ← DST_K m ρ c, DST_eq, dinvOf_ref]

/-- The scale column at row `n` is the reference's scale at node `n`. -/
theorem DV_apply (n : Fin 100000) :
    DV m ρ c (ix2 n (0 : Fin 1)) = Cert.ReferenceIdeal.ReadP.val_main_v15 (F := Ideal) (m ((c : Thread nD τ).loc main_arg1)) (ix1 n) := by
  rw [DV_eq]
  exact ValueLayout.shapeCast_a_a1_apply _ _ n 0

/-- The first bias as a row, read at an entry. -/
theorem bias1_apply (k : Fin 16) :
    (W5 (F := Ideal) m ρ c (Proc.devRef .tc main_v27) : FVec Ideal S1x16 .f32) (ix2 (0 : Fin 1) k)
      = (m ((c : Thread nD τ).loc main_arg3) : FVec Ideal S16 .f32) (ix1 k) := by
  rw [W5_v27]
  exact shapeCast_a_1a_apply _ _ 0 k

/-- The second bias as a row, read at an entry. -/
theorem bias2_apply (k : Fin 40) :
    (W7 (F := Ideal) m ρ c (Proc.devRef .tc main_v39) : FVec Ideal S1x40 .f32) (ix2 (0 : Fin 1) k)
      = (m ((c : Thread nD τ).loc main_arg5) : FVec Ideal S40 .f32) (ix1 k) := by
  rw [W7_v39]
  exact shapeCast_a_1a_apply _ _ 0 k

end Cert.KernelIdeal.KHost

end
-- ==== Proof.RefLayers.lean ====
/-
  The two graph-convolution layers of the reference program, read at an index on the extended reals.

  With `E = 3300000` edges (self-loops included) over `N = 100000` nodes, each layer takes a feature
  matrix `h : [N, C]`, gathers for every edge the row of its source node, weights it by the product of
  the per-node scale at the source and at the target, and adds the weighted rows up at the edge's target
  node; a bias is then added to every row. A gather reads its start word as a signed integer clamped into
  `[0, N - 1]` (`clampN`); the accumulating scatter keeps update `e` for node `d` exactly when the raw target
  word of `e`, read signed, is `d`. So at node `d` and feature `j`

    out d j = (∑ over the edges e whose target word is d,
                 h (clamp (source e)) j * (scale (clamp (source e)) * scale (clamp (target e)))) + bias j.

  The second layer recomputes the edge lists and the scale from the same argument by the same operations;
  those copies are shown equal to the first layer's as whole arrays, and both layers are stated over the
  first layer's names. Also here: the two dense products and the rectifier between the layers, the in-degree
  count that the scale is computed from, and the gathers and scatters of these shapes read at coordinates
  over arbitrary operand arrays.
-/
import proofs.«102929_j30116310680051_2_alg».proof.Proof.RefReadP
import proofs.«102929_j30116310680051_2_alg».proof.Proof.LibRowGatherScatter
import Idealize.ShloMosaic.Lib.ValueIdx
import Idealize.ShloMosaic.Lib.Pipeline.Value
import Idealize.ShloMosaic.PureOps.Ideal.Laws

noncomputable section

namespace Cert.ReferenceIdeal.RefLayers

open Cert.ReferenceIdeal Cert.ReferenceIdeal.Gen Idealize.ShloMosaic Idealize.ShloMosaic.ValueIdx Idealize.ShloMosaic.RowIdx

/-! ## The printed dimension numbers are the row-gather and row-scatter ones -/

theorem take1_eq : gather_S100000_S3300000x1_S3300000_n_0_n_n_0_1_1
    = take1Dims 100000 3300000 Facts₀.gather_S100000_S3300000x1_S3300000_n_0_n_n_0_1_1_wf := rfl
theorem takeRows16_eq : gather_S100000x16_S3300000x1_S3300000x16_1_0_n_n_0_1_116
    = takeRowsDims 100000 3300000 16 Facts₀.gather_S100000x16_S3300000x1_S3300000x16_1_0_n_n_0_1_116_wf := rfl
theorem takeRows40_eq : gather_S100000x40_S3300000x1_S3300000x40_1_0_n_n_0_1_140
    = takeRowsDims 100000 3300000 40 Facts₀.gather_S100000x40_S3300000x1_S3300000x40_1_0_n_n_0_1_140_wf := rfl
theorem add1_eq : scatter_S100000_S3300000x1_S3300000_n_0_0_1
    = add1Dims 100000 3300000 Facts₀.scatter_S100000_S3300000x1_S3300000_n_0_0_1_wf := rfl
theorem addRows16_eq : scatter_S100000x16_S3300000x1_S3300000x16_1_0_0_1
    = addRowsDims 100000 3300000 16 Facts₀.scatter_S100000x16_S3300000x1_S3300000x16_1_0_0_1_wf := rfl
theorem addRows40_eq : scatter_S100000x40_S3300000x1_S3300000x40_1_0_0_1
    = addRowsDims 100000 3300000 40 Facts₀.scatter_S100000x40_S3300000x1_S3300000x40_1_0_0_1_wf := rfl

/-! ## Gathers and scatters of these shapes at coordinates, over arbitrary operands -/

/-- A start word read as a signed integer and clamped into the node range `[0, 99999]`. -/
def clampN (w : BitVec 32) : Fin 100000 := ⟨min w.toInt.toNat 99999, by omega⟩

/-- The f32 pattern of one denotes the extended real one: `2^23 · 2^(127 - 127 - 23)`. -/
theorem ofBits_one_f32 : Ideal.ofBits .f32 0x3F800000#32 = 1 := by
  simp [Ideal.ofBits, Ideal.ieee]
  rw [← EReal.coe_mul]
  norm_num

/-- Element `e` of a gather from a vector over the nodes: the operand at the clamped start word. -/
theorem gather1_apply (y : S100000.Idx → EReal) (idx : IVec S3300000x1 32) (e : Fin 3300000) :
    Host.gather gather_S100000_S3300000x1_S3300000_n_0_n_n_0_1_1 y idx (ix1 e) = y (ix1 (clampN (idx (ix2 e 0)))) := by
  rw [take1_eq]
  exact gather_take1_apply (by decide) _ y idx e

/-- Row `e` of a gather of 16-wide rows: the operand's row at the clamped start word. -/
theorem gatherRows16_apply (y : S100000x16.Idx → EReal) (idx : IVec S3300000x1 32) (e : Fin 3300000) (j : Fin 16) :
    Host.gather gather_S100000x16_S3300000x1_S3300000x16_1_0_n_n_0_1_116 y idx (ix2 e j) = y (ix2 (clampN (idx (ix2 e 0))) j) := by
  rw [takeRows16_eq]
  exact gather_takeRows_apply (by decide) _ y idx e j

/-- Row `e` of a gather of 40-wide rows: the operand's row at the clamped start word. -/
theorem gatherRows40_apply (y : S100000x40.Idx → EReal) (idx : IVec S3300000x1 32) (e : Fin 3300000) (j : Fin 40) :
    Host.gather gather_S100000x40_S3300000x1_S3300000x40_1_0_n_n_0_1_140 y idx (ix2 e j) = y (ix2 (clampN (idx (ix2 e 0))) j) := by
  rw [takeRows40_eq]
  exact gather_takeRows_apply (by decide) _ y idx e j

/-- An accumulating scatter into a vector over the nodes, at node `d`: the operand there plus the updates whose
    start word, read signed, is `d`. -/
theorem scatter1_apply (z : S100000.Idx → EReal) (idx : IVec S3300000x1 32) (upd : S3300000.Idx → EReal) (d : Fin 100000) :
    Host.scatterAdd (F := Ideal) (φ := .f32) scatter_S100000_S3300000x1_S3300000_n_0_0_1 z idx upd (ix1 d)
      = z (ix1 d) + ∑ e ∈ Finset.univ.filter (fun e : Fin 3300000 => (idx (ix2 e 0)).toInt = (d.val : Int)), upd (ix1 e) := by
  rw [add1_eq]
  exact scatterAdd1_apply _ z idx upd d

/-- An accumulating scatter of 16-wide rows, at node `d` and column `j`. -/
theorem scatterRows16_apply (z : S100000x16.Idx → EReal) (idx : IVec S3300000x1 32) (upd : S3300000x16.Idx → EReal)
    (d : Fin 100000) (j : Fin 16) :
    Host.scatterAdd (F := Ideal) (φ := .f32) scatter_S100000x16_S3300000x1_S3300000x16_1_0_0_1 z idx upd (ix2 d j)
      = z (ix2 d j) + ∑ e ∈ Finset.univ.filter (fun e : Fin 3300000 => (idx (ix2 e 0)).toInt = (d.val : Int)), upd (ix2 e j) := by
  rw [addRows16_eq]
  exact scatterAddRows_apply _ z idx upd d j

/-- An accumulating scatter of 40-wide rows, at node `d` and column `j`. -/
theorem scatterRows40_apply (z : S100000x40.Idx → EReal) (idx : IVec S3300000x1 32) (upd : S3300000x40.Idx → EReal)
    (d : Fin 100000) (j : Fin 40) :
    Host.scatterAdd (F := Ideal) (φ := .f32) scatter_S100000x40_S3300000x1_S3300000x40_1_0_0_1 z idx upd (ix2 d j)
      = z (ix2 d j) + ∑ e ∈ Finset.univ.filter (fun e : Fin 3300000 => (idx (ix2 e 0)).toInt = (d.val : Int)), upd (ix2 e j) := by
  rw [addRows40_eq]
  exact scatterAddRows_apply _ z idx upd d j

/-! ## The dense products and the rectifier -/

/-- The first dense product: row `d` of the input features against column `j` of the first weight matrix. -/
theorem dot1_apply (x0 : (⟨S100000x500, .f32⟩ : BufTy).Contents (Elt Ideal)) (x2 : (⟨S500x16, .f32⟩ : BufTy).Contents (Elt Ideal))
    (d : Fin 100000) (j : Fin 16) :
    ReadP.val_main_v0 (F := Ideal) x0 x2 (ix2 d j) = ∑ k : Fin 500, x0 (ix2 d k) * x2 (ix2 k j) := by
  rw [ReadP.val_main_v0_apply]
  refine Finset.sum_congr rfl fun k _ => ?_
  have el : ReadP.lidx_main_v0 (ix2 d j) k = ix2 d k :=
    funext fun a => Fin.ext (by match a with | ⟨0, _⟩ => rfl | ⟨1, _⟩ => rfl)
  have er : ReadP.ridx_main_v0 (ix2 d j) k = ix2 k j :=
    funext fun a => Fin.ext (by match a with | ⟨0, _⟩ => rfl | ⟨1, _⟩ => rfl)
  rw [el, er]

/-- The rectifier: the maximum with zero. -/
theorem relu_apply (x0 : (⟨S100000x500, .f32⟩ : BufTy).Contents (Elt Ideal)) (x1 : (⟨S2x3200000, .i32⟩ : BufTy).Contents (Elt Ideal))
    (x2 : (⟨S500x16, .f32⟩ : BufTy).Contents (Elt Ideal)) (x3 : (⟨S16, .f32⟩ : BufTy).Contents (Elt Ideal))
    (d : Fin 100000) (k : Fin 16) :
    ReadP.val_main_v47 (F := Ideal) x0 x1 x2 x3 (ix2 d k) = max (ReadP.val_main_v46 (F := Ideal) x0 x1 x2 x3 (ix2 d k)) 0 := by
  rw [ReadP.val_main_v47_apply, ReadP.val_main_call1_v0_apply, ReadP.val_main_call1_cst_apply, Ideal.maximumf_def,
    Ideal.ofBits_def, Ideal.ofBits_zero_f32]

/-- The second dense product: row `d` of the rectified first layer against column `j` of the second weight matrix. -/
theorem dot2_apply (x0 : (⟨S100000x500, .f32⟩ : BufTy).Contents (Elt Ideal)) (x1 : (⟨S2x3200000, .i32⟩ : BufTy).Contents (Elt Ideal))
    (x2 : (⟨S500x16, .f32⟩ : BufTy).Contents (Elt Ideal)) (x3 : (⟨S16, .f32⟩ : BufTy).Contents (Elt Ideal))
    (x4 : (⟨S16x40, .f32⟩ : BufTy).Contents (Elt Ideal)) (d : Fin 100000) (j : Fin 40) :
    ReadP.val_main_v48 (F := Ideal) x0 x1 x2 x3 x4 (ix2 d j)
      = ∑ k : Fin 16, ReadP.val_main_v47 (F := Ideal) x0 x1 x2 x3 (ix2 d k) * x4 (ix2 k j) := by
  rw [ReadP.val_main_v48_apply]
  refine Finset.sum_congr rfl fun k _ => ?_
  have el : ReadP.lidx_main_v48 (ix2 d j) k = ix2 d k :=
    funext fun a => Fin.ext (by match a with | ⟨0, _⟩ => rfl | ⟨1, _⟩ => rfl)
  have er : ReadP.ridx_main_v48 (ix2 d j) k = ix2 k j :=
    funext fun a => Fin.ext (by match a with | ⟨0, _⟩ => rfl | ⟨1, _⟩ => rfl)
  rw [el, er]

/-! ## The edge lists and the scale of the second layer are the first layer's

Each is the same operations on the same argument under other constant-buffer names: unfolding the names leaves
the same term on both sides (the joins of the edge list with the self-loops stay closed). -/

/-- The second layer's raw source words. -/
theorem v52_eq (x1 : (⟨S2x3200000, .i32⟩ : BufTy).Contents (Elt Ideal)) : ReadP.val_main_v52 (F := Ideal) x1 = ReadP.val_main_v4 (F := Ideal) x1 := by
  unfold ReadP.val_main_v52 ReadP.val_main_v4 ReadP.val_main_v51 ReadP.val_main_v3 ReadP.val_main_v50 ReadP.val_main_v2
    ReadP.val_main_v49 ReadP.val_main_v1
  rfl

/-- The second layer's raw target words. -/
theorem v55_eq (x1 : (⟨S2x3200000, .i32⟩ : BufTy).Contents (Elt Ideal)) : ReadP.val_main_v55 (F := Ideal) x1 = ReadP.val_main_v7 (F := Ideal) x1 := by
  unfold ReadP.val_main_v55 ReadP.val_main_v7 ReadP.val_main_v54 ReadP.val_main_v6 ReadP.val_main_v53 ReadP.val_main_v5
    ReadP.val_main_v49 ReadP.val_main_v1
  rfl

/-- The first layer's second copy of the wrapped source words (the one its row gather reads). -/
theorem v35_eq (x1 : (⟨S2x3200000, .i32⟩ : BufTy).Contents (Elt Ideal)) : ReadP.val_main_v35 (F := Ideal) x1 = ReadP.val_main_v20 (F := Ideal) x1 := by
  unfold ReadP.val_main_v35 ReadP.val_main_v20 ReadP.val_main_v32 ReadP.val_main_v17 ReadP.val_main_v34 ReadP.val_main_v19
    ReadP.val_main_v31 ReadP.val_main_v16 ReadP.val_main_v33 ReadP.val_main_v18
    ReadP.val_main_c_6 ReadP.val_main_c ReadP.val_main_c_7 ReadP.val_main_c_3
  rfl

/-- The second layer's wrapped source words (the copy its scale gather reads). -/
theorem v68_eq (x1 : (⟨S2x3200000, .i32⟩ : BufTy).Contents (Elt Ideal)) : ReadP.val_main_v68 (F := Ideal) x1 = ReadP.val_main_v20 (F := Ideal) x1 := by
  unfold ReadP.val_main_v68 ReadP.val_main_v65 ReadP.val_main_v67 ReadP.val_main_v64 ReadP.val_main_v66
    ReadP.val_main_c_13 ReadP.val_main_c_14
  rw [v52_eq]
  unfold ReadP.val_main_v20 ReadP.val_main_v17 ReadP.val_main_v19 ReadP.val_main_v16 ReadP.val_main_v18
    ReadP.val_main_c ReadP.val_main_c_3
  rfl

/-- The second layer's wrapped source words (the copy its row gather reads). -/
theorem v83_eq (x1 : (⟨S2x3200000, .i32⟩ : BufTy).Contents (Elt Ideal)) : ReadP.val_main_v83 (F := Ideal) x1 = ReadP.val_main_v20 (F := Ideal) x1 := by
  unfold ReadP.val_main_v83 ReadP.val_main_v80 ReadP.val_main_v82 ReadP.val_main_v79 ReadP.val_main_v81
    ReadP.val_main_c_17 ReadP.val_main_c_18
  rw [v52_eq]
  unfold ReadP.val_main_v20 ReadP.val_main_v17 ReadP.val_main_v19 ReadP.val_main_v16 ReadP.val_main_v18
    ReadP.val_main_c ReadP.val_main_c_3
  rfl

/-- The second layer's wrapped target words. -/
theorem v75_eq (x1 : (⟨S2x3200000, .i32⟩ : BufTy).Contents (Elt Ideal)) : ReadP.val_main_v75 (F := Ideal) x1 = ReadP.val_main_v27 (F := Ideal) x1 := by
  unfold ReadP.val_main_v75 ReadP.val_main_v72 ReadP.val_main_v74 ReadP.val_main_v71 ReadP.val_main_v73
    ReadP.val_main_c_15 ReadP.val_main_c_16
  rw [v55_eq]
  unfold ReadP.val_main_v27 ReadP.val_main_v24 ReadP.val_main_v26 ReadP.val_main_v23 ReadP.val_main_v25
    ReadP.val_main_c_4 ReadP.val_main_c_5
  rfl

/-- The second layer's in-degree count. -/
theorem v59_eq (x1 : (⟨S2x3200000, .i32⟩ : BufTy).Contents (Elt Ideal)) : ReadP.val_main_v59 (F := Ideal) x1 = ReadP.val_main_v11 (F := Ideal) x1 := by
  unfold ReadP.val_main_v59 ReadP.val_main_v57 ReadP.val_main_v58 ReadP.val_main_v56 ReadP.val_main_cst_10 ReadP.val_main_cst_9
  rw [v55_eq]
  unfold ReadP.val_main_v11 ReadP.val_main_v9 ReadP.val_main_v10 ReadP.val_main_v8 ReadP.val_main_cst_0 ReadP.val_main_cst
  rfl

/-- The second layer's per-node scale. -/
theorem v63_eq (x1 : (⟨S2x3200000, .i32⟩ : BufTy).Contents (Elt Ideal)) : ReadP.val_main_v63 (F := Ideal) x1 = ReadP.val_main_v15 (F := Ideal) x1 := by
  unfold ReadP.val_main_v63 ReadP.val_main_v61 ReadP.val_main_v62 ReadP.val_main_v60 ReadP.val_main_call2_v1
    ReadP.val_main_call2_v0 ReadP.val_main_cst_11 ReadP.val_main_cst_12
  rw [v59_eq]
  unfold ReadP.val_main_v15 ReadP.val_main_v13 ReadP.val_main_v14 ReadP.val_main_v12 ReadP.val_main_call0_v1
    ReadP.val_main_call0_v0 ReadP.val_main_cst_1 ReadP.val_main_cst_2
  rfl

/-! ## A vector of edge words laid out as a column of start indices, read at row `e` -/

theorem v10_at (x1 : (⟨S2x3200000, .i32⟩ : BufTy).Contents (Elt Ideal)) (e : Fin 3300000) :
    ReadP.val_main_v10 (F := Ideal) x1 (ix2 e (0 : Fin 1)) = ReadP.val_main_v7 (F := Ideal) x1 (ix1 e) := by
  rw [ReadP.val_main_v10_apply]
  exact congrArg _ (funext fun a => Fin.ext (by match a with | ⟨0, _⟩ => rfl))

theorem v21_at (x1 : (⟨S2x3200000, .i32⟩ : BufTy).Contents (Elt Ideal)) (e : Fin 3300000) :
    ReadP.val_main_v21 (F := Ideal) x1 (ix2 e (0 : Fin 1)) = ReadP.val_main_v20 (F := Ideal) x1 (ix1 e) := by
  rw [ReadP.val_main_v21_apply]
  exact congrArg _ (funext fun a => Fin.ext (by match a with | ⟨0, _⟩ => rfl))

theorem v28_at (x1 : (⟨S2x3200000, .i32⟩ : BufTy).Contents (Elt Ideal)) (e : Fin 3300000) :
    ReadP.val_main_v28 (F := Ideal) x1 (ix2 e (0 : Fin 1)) = ReadP.val_main_v27 (F := Ideal) x1 (ix1 e) := by
  rw [ReadP.val_main_v28_apply]
  exact congrArg _ (funext fun a => Fin.ext (by match a with | ⟨0, _⟩ => rfl))

theorem v36_at (x1 : (⟨S2x3200000, .i32⟩ : BufTy).Contents (Elt Ideal)) (e : Fin 3300000) :
    ReadP.val_main_v36 (F := Ideal) x1 (ix2 e (0 : Fin 1)) = ReadP.val_main_v20 (F := Ideal) x1 (ix1 e) := by
  rw [ReadP.val_main_v36_apply, v35_eq]
  exact congrArg _ (funext fun a => Fin.ext (by match a with | ⟨0, _⟩ => rfl))

theorem v42_at (x1 : (⟨S2x3200000, .i32⟩ : BufTy).Contents (Elt Ideal)) (e : Fin 3300000) :
    ReadP.val_main_v42 (F := Ideal) x1 (ix2 e (0 : Fin 1)) = ReadP.val_main_v7 (F := Ideal) x1 (ix1 e) := by
  rw [ReadP.val_main_v42_apply]
  exact congrArg _ (funext fun a => Fin.ext (by match a with | ⟨0, _⟩ => rfl))

theorem v69_at (x1 : (⟨S2x3200000, .i32⟩ : BufTy).Contents (Elt Ideal)) (e : Fin 3300000) :
    ReadP.val_main_v69 (F := Ideal) x1 (ix2 e (0 : Fin 1)) = ReadP.val_main_v20 (F := Ideal) x1 (ix1 e) := by
  rw [ReadP.val_main_v69_apply, v68_eq]
  exact congrArg _ (funext fun a => Fin.ext (by match a with | ⟨0, _⟩ => rfl))

theorem v76_at (x1 : (⟨S2x3200000, .i32⟩ : BufTy).Contents (Elt Ideal)) (e : Fin 3300000) :
    ReadP.val_main_v76 (F := Ideal) x1 (ix2 e (0 : Fin 1)) = ReadP.val_main_v27 (F := Ideal) x1 (ix1 e) := by
  rw [ReadP.val_main_v76_apply, v75_eq]
  exact congrArg _ (funext fun a => Fin.ext (by match a with | ⟨0, _⟩ => rfl))

theorem v84_at (x1 : (⟨S2x3200000, .i32⟩ : BufTy).Contents (Elt Ideal)) (e : Fin 3300000) :
    ReadP.val_main_v84 (F := Ideal) x1 (ix2 e (0 : Fin 1)) = ReadP.val_main_v20 (F := Ideal) x1 (ix1 e) := by
  rw [ReadP.val_main_v84_apply, v83_eq]
  exact congrArg _ (funext fun a => Fin.ext (by match a with | ⟨0, _⟩ => rfl))

theorem v90_at (x1 : (⟨S2x3200000, .i32⟩ : BufTy).Contents (Elt Ideal)) (e : Fin 3300000) :
    ReadP.val_main_v90 (F := Ideal) x1 (ix2 e (0 : Fin 1)) = ReadP.val_main_v7 (F := Ideal) x1 (ix1 e) := by
  rw [ReadP.val_main_v90_apply, v55_eq]
  exact congrArg _ (funext fun a => Fin.ext (by match a with | ⟨0, _⟩ => rfl))

/-! ## The in-degree count -/

/-- The count the scale is computed from: one for every edge whose raw target word is `n`. -/
theorem deg_apply (x1 : (⟨S2x3200000, .i32⟩ : BufTy).Contents (Elt Ideal)) (n : Fin 100000) :
    ReadP.val_main_v11 (F := Ideal) x1 (ix1 n)
      = ∑ e ∈ Finset.univ.filter (fun e : Fin 3300000 => (ReadP.val_main_v7 (F := Ideal) x1 (ix1 e)).toInt = (n.val : Int)),
          (1 : EReal) := by
  unfold ReadP.val_main_v11
  rw [scatter1_apply, ReadP.val_main_v9_apply, ReadP.val_main_cst_0_apply, Ideal.ofBits_def, Ideal.ofBits_zero_f32, zero_add]
  refine Finset.sum_congr (Finset.filter_congr fun e _ => ?_) fun e _ => ?_
  · rw [v10_at]
  · rw [ReadP.val_main_v8_apply, ReadP.val_main_cst_apply, Ideal.ofBits_def, ofBits_one_f32]

/-! ## The first layer -/

/-- The weight of edge `e`: the scale at its clamped source times the scale at its clamped target. -/
theorem v30_at (x1 : (⟨S2x3200000, .i32⟩ : BufTy).Contents (Elt Ideal)) (e : Fin 3300000) :
    ReadP.val_main_v30 (F := Ideal) x1 (ix1 e)
      = ReadP.val_main_v15 (F := Ideal) x1 (ix1 (clampN (ReadP.val_main_v20 (F := Ideal) x1 (ix1 e))))
          * ReadP.val_main_v15 (F := Ideal) x1 (ix1 (clampN (ReadP.val_main_v27 (F := Ideal) x1 (ix1 e)))) := by
  rw [ReadP.val_main_v30_apply, Ideal.mulf_def]
  unfold ReadP.val_main_v22 ReadP.val_main_v29
  rw [gather1_apply, gather1_apply, v21_at, v28_at]

/-- The edge weight repeated along the 16 features. -/
theorem v39_at (x1 : (⟨S2x3200000, .i32⟩ : BufTy).Contents (Elt Ideal)) (e : Fin 3300000) (j : Fin 16) :
    ReadP.val_main_v39 (F := Ideal) x1 (ix2 e j) = ReadP.val_main_v30 (F := Ideal) x1 (ix1 e) := by
  rw [ReadP.val_main_v39_apply, ReadP.val_main_v38_apply]
  exact congrArg _ (funext fun a => Fin.ext (by match a with | ⟨0, _⟩ => rfl))

/-- The feature row gathered for edge `e`: the row of its clamped source node. -/
theorem v37_at (x0 : (⟨S100000x500, .f32⟩ : BufTy).Contents (Elt Ideal)) (x1 : (⟨S2x3200000, .i32⟩ : BufTy).Contents (Elt Ideal)) (x2 : (⟨S500x16, .f32⟩ : BufTy).Contents (Elt Ideal)) (e : Fin 3300000) (j : Fin 16) :
    ReadP.val_main_v37 (F := Ideal) x0 x1 x2 (ix2 e j)
      = ReadP.val_main_v0 (F := Ideal) x0 x2 (ix2 (clampN (ReadP.val_main_v20 (F := Ideal) x1 (ix1 e))) j) := by
  unfold ReadP.val_main_v37
  rw [gatherRows16_apply, v36_at]

/-- The message of edge `e`: the gathered row times the edge weight. -/
theorem v40_at (x0 : (⟨S100000x500, .f32⟩ : BufTy).Contents (Elt Ideal)) (x1 : (⟨S2x3200000, .i32⟩ : BufTy).Contents (Elt Ideal)) (x2 : (⟨S500x16, .f32⟩ : BufTy).Contents (Elt Ideal)) (e : Fin 3300000) (j : Fin 16) :
    ReadP.val_main_v40 (F := Ideal) x0 x1 x2 (ix2 e j)
      = ReadP.val_main_v0 (F := Ideal) x0 x2 (ix2 (clampN (ReadP.val_main_v20 (F := Ideal) x1 (ix1 e))) j)
          * (ReadP.val_main_v15 (F := Ideal) x1 (ix1 (clampN (ReadP.val_main_v20 (F := Ideal) x1 (ix1 e))))
              * ReadP.val_main_v15 (F := Ideal) x1 (ix1 (clampN (ReadP.val_main_v27 (F := Ideal) x1 (ix1 e))))) := by
  rw [ReadP.val_main_v40_apply, Ideal.mulf_def, v37_at, v39_at, v30_at]

/-- The aggregation at node `d`: the messages of the edges whose raw target word is `d`, added up from zero. -/
theorem v43_at (x0 : (⟨S100000x500, .f32⟩ : BufTy).Contents (Elt Ideal)) (x1 : (⟨S2x3200000, .i32⟩ : BufTy).Contents (Elt Ideal)) (x2 : (⟨S500x16, .f32⟩ : BufTy).Contents (Elt Ideal)) (d : Fin 100000) (j : Fin 16) :
    ReadP.val_main_v43 (F := Ideal) x0 x1 x2 (ix2 d j)
      = ∑ e ∈ Finset.univ.filter (fun e : Fin 3300000 => (ReadP.val_main_v7 (F := Ideal) x1 (ix1 e)).toInt = (d.val : Int)),
          ReadP.val_main_v40 (F := Ideal) x0 x1 x2 (ix2 e j) := by
  unfold ReadP.val_main_v43
  rw [scatterRows16_apply, ReadP.val_main_v41_apply, ReadP.val_main_cst_8_apply, Ideal.ofBits_def, Ideal.ofBits_zero_f32, zero_add]
  refine Finset.sum_congr (Finset.filter_congr fun e _ => ?_) fun _ _ => rfl
  rw [v42_at]

/-- The first bias repeated over the nodes. -/
theorem v45_at (x3 : (⟨S16, .f32⟩ : BufTy).Contents (Elt Ideal)) (d : Fin 100000) (j : Fin 16) :
    ReadP.val_main_v45 (F := Ideal) x3 (ix2 d j) = x3 (ix1 j) := by
  rw [ReadP.val_main_v45_apply, ReadP.val_main_v44_apply]
  exact congrArg _ (funext fun a => Fin.ext (by match a with | ⟨0, _⟩ => rfl))

/-- The first graph-convolution layer at node `d` and feature `j`. -/
theorem layer1_apply (x0 : (⟨S100000x500, .f32⟩ : BufTy).Contents (Elt Ideal)) (x1 : (⟨S2x3200000, .i32⟩ : BufTy).Contents (Elt Ideal)) (x2 : (⟨S500x16, .f32⟩ : BufTy).Contents (Elt Ideal)) (x3 : (⟨S16, .f32⟩ : BufTy).Contents (Elt Ideal)) (d : Fin 100000) (j : Fin 16) :
    ReadP.val_main_v46 (F := Ideal) x0 x1 x2 x3 (ix2 d j)
      = (∑ e ∈ Finset.univ.filter (fun e : Fin 3300000 => (ReadP.val_main_v7 (F := Ideal) x1 (ix1 e)).toInt = (d.val : Int)),
            ReadP.val_main_v0 (F := Ideal) x0 x2 (ix2 (clampN (ReadP.val_main_v20 (F := Ideal) x1 (ix1 e))) j)
              * (ReadP.val_main_v15 (F := Ideal) x1 (ix1 (clampN (ReadP.val_main_v20 (F := Ideal) x1 (ix1 e))))
                  * ReadP.val_main_v15 (F := Ideal) x1 (ix1 (clampN (ReadP.val_main_v27 (F := Ideal) x1 (ix1 e))))))
        + x3 (ix1 j) := by
  rw [ReadP.val_main_v46_apply, Ideal.addf_def, v43_at, v45_at]
  exact congrArg (· + x3 (ix1 j)) (Finset.sum_congr rfl fun e _ => v40_at x0 x1 x2 e j)

/-! ## The second layer -/

/-- The weight of edge `e` as the second layer recomputes it: the first layer's. -/
theorem v78_at (x1 : (⟨S2x3200000, .i32⟩ : BufTy).Contents (Elt Ideal)) (e : Fin 3300000) :
    ReadP.val_main_v78 (F := Ideal) x1 (ix1 e)
      = ReadP.val_main_v15 (F := Ideal) x1 (ix1 (clampN (ReadP.val_main_v20 (F := Ideal) x1 (ix1 e))))
          * ReadP.val_main_v15 (F := Ideal) x1 (ix1 (clampN (ReadP.val_main_v27 (F := Ideal) x1 (ix1 e)))) := by
  rw [ReadP.val_main_v78_apply, Ideal.mulf_def]
  unfold ReadP.val_main_v70 ReadP.val_main_v77
  rw [gather1_apply, gather1_apply, v69_at, v76_at, v63_eq]

/-- The edge weight repeated along the 40 features. -/
theorem v87_at (x1 : (⟨S2x3200000, .i32⟩ : BufTy).Contents (Elt Ideal)) (e : Fin 3300000) (j : Fin 40) :
    ReadP.val_main_v87 (F := Ideal) x1 (ix2 e j) = ReadP.val_main_v78 (F := Ideal) x1 (ix1 e) := by
  rw [ReadP.val_main_v87_apply, ReadP.val_main_v86_apply]
  exact congrArg _ (funext fun a => Fin.ext (by match a with | ⟨0, _⟩ => rfl))

/-- The feature row gathered for edge `e`: the row of its clamped source node. -/
theorem v85_at (x0 : (⟨S100000x500, .f32⟩ : BufTy).Contents (Elt Ideal)) (x1 : (⟨S2x3200000, .i32⟩ : BufTy).Contents (Elt Ideal)) (x2 : (⟨S500x16, .f32⟩ : BufTy).Contents (Elt Ideal)) (x3 : (⟨S16, .f32⟩ : BufTy).Contents (Elt Ideal)) (x4 : (⟨S16x40, .f32⟩ : BufTy).Contents (Elt Ideal)) (e : Fin 3300000) (j : Fin 40) :
    ReadP.val_main_v85 (F := Ideal) x0 x1 x2 x3 x4 (ix2 e j)
      = ReadP.val_main_v48 (F := Ideal) x0 x1 x2 x3 x4 (ix2 (clampN (ReadP.val_main_v20 (F := Ideal) x1 (ix1 e))) j) := by
  unfold ReadP.val_main_v85
  rw [gatherRows40_apply, v84_at]

/-- The message of edge `e`: the gathered row times the edge weight. -/
theorem v88_at (x0 : (⟨S100000x500, .f32⟩ : BufTy).Contents (Elt Ideal)) (x1 : (⟨S2x3200000, .i32⟩ : BufTy).Contents (Elt Ideal)) (x2 : (⟨S500x16, .f32⟩ : BufTy).Contents (Elt Ideal)) (x3 : (⟨S16, .f32⟩ : BufTy).Contents (Elt Ideal)) (x4 : (⟨S16x40, .f32⟩ : BufTy).Contents (Elt Ideal)) (e : Fin 3300000) (j : Fin 40) :
    ReadP.val_main_v88 (F := Ideal) x0 x1 x2 x3 x4 (ix2 e j)
      = ReadP.val_main_v48 (F := Ideal) x0 x1 x2 x3 x4 (ix2 (clampN (ReadP.val_main_v20 (F := Ideal) x1 (ix1 e))) j)
          * (ReadP.val_main_v15 (F := Ideal) x1 (ix1 (clampN (ReadP.val_main_v20 (F := Ideal) x1 (ix1 e))))
              * ReadP.val_main_v15 (F := Ideal) x1 (ix1 (clampN (ReadP.val_main_v27 (F := Ideal) x1 (ix1 e))))) := by
  rw [ReadP.val_main_v88_apply, Ideal.mulf_def, v85_at, v87_at, v78_at]

/-- The aggregation at node `d`: the messages of the edges whose raw target word is `d`, added up from zero. -/
theorem v91_at (x0 : (⟨S100000x500, .f32⟩ : BufTy).Contents (Elt Ideal)) (x1 : (⟨S2x3200000, .i32⟩ : BufTy).Contents (Elt Ideal)) (x2 : (⟨S500x16, .f32⟩ : BufTy).Contents (Elt Ideal)) (x3 : (⟨S16, .f32⟩ : BufTy).Contents (Elt Ideal)) (x4 : (⟨S16x40, .f32⟩ : BufTy).Contents (Elt Ideal)) (d : Fin 100000) (j : Fin 40) :
    ReadP.val_main_v91 (F := Ideal) x0 x1 x2 x3 x4 (ix2 d j)
      = ∑ e ∈ Finset.univ.filter (fun e : Fin 3300000 => (ReadP.val_main_v7 (F := Ideal) x1 (ix1 e)).toInt = (d.val : Int)),
          ReadP.val_main_v88 (F := Ideal) x0 x1 x2 x3 x4 (ix2 e j) := by
  unfold ReadP.val_main_v91
  rw [scatterRows40_apply, ReadP.val_main_v89_apply, ReadP.val_main_cst_19_apply, Ideal.ofBits_def, Ideal.ofBits_zero_f32, zero_add]
  refine Finset.sum_congr (Finset.filter_congr fun e _ => ?_) fun _ _ => rfl
  rw [v90_at]

/-- The second bias repeated over the nodes. -/
theorem v93_at (x5 : (⟨S40, .f32⟩ : BufTy).Contents (Elt Ideal)) (d : Fin 100000) (j : Fin 40) :
    ReadP.val_main_v93 (F := Ideal) x5 (ix2 d j) = x5 (ix1 j) := by
  rw [ReadP.val_main_v93_apply, ReadP.val_main_v92_apply]
  exact congrArg _ (funext fun a => Fin.ext (by match a with | ⟨0, _⟩ => rfl))

/-- The second graph-convolution layer at node `d` and class `j`, over the first layer's edge lists and scale. -/
theorem layer2_apply (x0 : (⟨S100000x500, .f32⟩ : BufTy).Contents (Elt Ideal)) (x1 : (⟨S2x3200000, .i32⟩ : BufTy).Contents (Elt Ideal)) (x2 : (⟨S500x16, .f32⟩ : BufTy).Contents (Elt Ideal)) (x3 : (⟨S16, .f32⟩ : BufTy).Contents (Elt Ideal)) (x4 : (⟨S16x40, .f32⟩ : BufTy).Contents (Elt Ideal)) (x5 : (⟨S40, .f32⟩ : BufTy).Contents (Elt Ideal)) (d : Fin 100000) (j : Fin 40) :
    ReadP.val_main_v94 (F := Ideal) x0 x1 x2 x3 x4 x5 (ix2 d j)
      = (∑ e ∈ Finset.univ.filter (fun e : Fin 3300000 => (ReadP.val_main_v7 (F := Ideal) x1 (ix1 e)).toInt = (d.val : Int)),
            ReadP.val_main_v48 (F := Ideal) x0 x1 x2 x3 x4 (ix2 (clampN (ReadP.val_main_v20 (F := Ideal) x1 (ix1 e))) j)
              * (ReadP.val_main_v15 (F := Ideal) x1 (ix1 (clampN (ReadP.val_main_v20 (F := Ideal) x1 (ix1 e))))
                  * ReadP.val_main_v15 (F := Ideal) x1 (ix1 (clampN (ReadP.val_main_v27 (F := Ideal) x1 (ix1 e))))))
        + x5 (ix1 j) := by
  rw [ReadP.val_main_v94_apply, Ideal.addf_def, v91_at, v93_at]
  exact congrArg (· + x5 (ix1 j)) (Finset.sum_congr rfl fun e _ => v88_at x0 x1 x2 x3 x4 e j)

end Cert.ReferenceIdeal.RefLayers

end
-- ==== Proof.Words.lean ====
import Idealize.ShloMosaic.PureOps
import Mathlib.Tactic

/-!
  The index words. An index word that, read as a signed integer, is an in-range node `d` is not
  negative: the wrap of negative indices (add the node count when below zero) leaves it alone, and the
  clamp to the last node leaves `d` alone.
-/

namespace Cert.Words

open Idealize.ShloMosaic

/-- A word reading (signed) as the in-range node `d` survives the wrap and the clamp as `d`. -/
theorem clamp_wrap_of_hit (w : BitVec 32) (d : Nat) (hd : d < 100000) (h : w.toInt = (d : Int)) :
    min (Scalar.select (IntOp.cmpi .slt w 0#32) (IntOp.addi w 100000#32) w).toInt.toNat 99999 = d := by
  have hslt : w.slt 0#32 = false := by
    rw [BitVec.slt_eq_decide, h]
    simp
  have hc : IntOp.cmpi .slt w 0#32 = 0#1 := by
    simp [IntOp.cmpi, hslt]
  rw [hc]
  have hs : Scalar.select (0#1) (IntOp.addi w 100000#32) w = w := by
    simp [Scalar.select]
  rw [hs, h]
  simp only [Int.toNat_natCast]
  omega

end Cert.Words
-- ==== Proof.DinvReal.lean ====
import proofs.«102929_j30116310680051_2_alg».proof.Proof.RefReadP
import proofs.«102929_j30116310680051_2_alg».proof.Proof.LibRowGatherScatter
import Idealize.ShloMosaic.Lib.IdealHost
import Idealize.ShloMosaic.Lib.ValueIdx
import Idealize.ShloMosaic.PureOps.Ideal.Laws

/-!
  The per-node scale of the graph convolution is a real number. The in-degree of a node is zero plus a
  finite sum of ones, one per edge whose target word reads (signed) as that node: a count, hence a real
  number that is not negative. The scale is the reciprocal square root of the degree where the degree
  is positive and zero elsewhere; both are real numbers.
-/

noncomputable section

namespace Cert.DinvReal

open Idealize.ShloMosaic Idealize.ShloMosaic.ValueIdx Cert.ReferenceIdeal Cert.ReferenceIdeal.Gen

/-- A finite sum of real numbers, each read as an extended real, is the real sum read as an extended real. -/
theorem sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of ones is the number of terms, a real number. -/
theorem sum_one {ι : Type} (s : Finset ι) : ∑ _i ∈ s, (1 : EReal) = ((s.card : ℝ) : EReal) := by
  calc ∑ _i ∈ s, (1 : EReal) = ∑ _i ∈ s, ((1 : ℝ) : EReal) := Finset.sum_congr rfl (fun _ _ => EReal.coe_one.symm)
    _ = ((∑ _i ∈ s, (1 : ℝ) : ℝ) : EReal) := sum_coe s _
    _ = ((s.card : ℝ) : EReal) := by rw [Finset.sum_const, nsmul_eq_mul, mul_one]

/-- The printed scatter record is the scatter-add of a vector of updates into a vector. -/
theorem scatterAdd_apply (x : FVec Ideal S100000 .f32) (idx : IVec S3300000x1 32) (upd : FVec Ideal S3300000 .f32)
    (n : Fin 100000) :
    Host.scatterAdd scatter_S100000_S3300000x1_S3300000_n_0_0_1 x idx upd (ix1 n)
      = x (ix1 n) + ∑ e ∈ Finset.univ.filter (fun e : Fin 3300000 => (idx (ix2 e 0)).toInt = (n.val : Int)), upd (ix1 e) :=
  RowIdx.scatterAdd1_apply scatter_S100000_S3300000x1_S3300000_n_0_0_1_wf x idx upd n

/-- The scale at a node of real in-degree `k`: `k^(-1/2)` when `k > 0`, else `0`; a real number either way. -/
theorem select_eq (k : ℝ) :
    Scalar.select (Ideal.cmp .ogt (k : EReal) 0) (Ideal.rsqrt (k : EReal)) (0 : EReal)
      = ((if 0 < k then (Real.sqrt k)⁻¹ else 0 : ℝ) : EReal) := by
  by_cases hk : 0 < k
  · have h1 : Ideal.cmp .ogt (k : EReal) 0 = 1#1 := by simp [Ideal.cmp, hk]
    rw [h1, if_pos hk]
    simp [Scalar.select, Ideal.rsqrt_coe, not_lt.mpr hk.le, hk.ne']
  · have h1 : Ideal.cmp .ogt (k : EReal) 0 = 0#1 := by simp [Ideal.cmp, hk]
    rw [h1, if_neg hk]
    simp [Scalar.select]

/-- The in-degree of node `n`: zero plus one for every target word that reads, signed, as `n`. -/
theorem deg_apply (x1 : (⟨S2x3200000, .i32⟩ : BufTy).Contents (Elt Ideal)) (n : Fin 100000) :
    ReadP.val_main_v11 (F := Ideal) x1 (ix1 n)
      = (((Finset.univ.filter (fun e : Fin 3300000 =>
            (ReadP.val_main_v10 (F := Ideal) x1 (ix2 e 0)).toInt = (n.val : Int))).card : ℝ) : EReal) := by
  unfold ReadP.val_main_v11
  rw [scatterAdd_apply, ReadP.val_main_v9_apply, ReadP.val_main_cst_0_apply, Ideal.ofBits_def, Ideal.ofBits_zero_f32,
    zero_add, ← sum_one]
  refine Finset.sum_congr rfl (fun e _ => ?_)
  rw [ReadP.val_main_v8_apply, ReadP.val_main_cst_apply, Ideal.ofBits_def, Ideal.ofBits_one_f32]

/-- The per-node scale in closed form: with `k` the in-degree (a count), `k^(-1/2)` when `k > 0` and `0`
    otherwise. -/
theorem dinv_eq (x1 : (⟨S2x3200000, .i32⟩ : BufTy).Contents (Elt Ideal)) (n : Fin 100000) :
    ReadP.val_main_v15 (F := Ideal) x1 (ix1 n)
      = ((if 0 < (((Finset.univ.filter (fun e : Fin 3300000 =>
              (ReadP.val_main_v10 (F := Ideal) x1 (ix2 e 0)).toInt = (n.val : Int))).card : ℝ))
          then (Real.sqrt (((Finset.univ.filter (fun e : Fin 3300000 =>
              (ReadP.val_main_v10 (F := Ideal) x1 (ix2 e 0)).toInt = (n.val : Int))).card : ℝ)))⁻¹ else 0 : ℝ) : EReal) := by
  rw [ReadP.val_main_v15_apply, ReadP.val_main_v13_apply, ReadP.val_main_v14_apply, deg_apply,
    ReadP.val_main_v12_apply, ReadP.val_main_cst_1_apply, ReadP.val_main_call0_v1_apply,
    ReadP.val_main_call0_v0_apply, ReadP.val_main_cst_2_apply, Ideal.ofBits_def, Ideal.ofBits_zero_f32,
    Ideal.cmpf_def, Ideal.hostUnary_rsqrt_def]
  exact select_eq _

/-- The per-node scale is a real number. -/
theorem dinv_real (x1 : (⟨S2x3200000, .i32⟩ : BufTy).Contents (Elt Ideal)) (n : Fin 100000) :
    ∃ r : ℝ, ReadP.val_main_v15 (F := Ideal) x1 (ix1 n) = (r : EReal) :=
  ⟨_, dinv_eq x1 n⟩

end Cert.DinvReal

end
-- ==== Proof.RealSpec.lean ====
/-
  Real numbers inside the extended reals, and the one law the two programs differ by.

  Both programs compute, for a node `d`, a sum over the edges `e` that end in `d` of a feature row of the edge's
  source `g e`, weighted by the per-node scale `δ` of both ends.  The reference weights every term by
  `δ (g e) * δ d`; the kernel scales the rows by `δ (g e)` before the sum and multiplies the sum by `δ d` afterwards.
  On the extended reals a factor moves across a sum only when no infinity is involved, so the law is stated for
  quantities that are (coercions of) real numbers, and the closure of "is a real number" under the operations the
  programs apply is collected here.
-/
import Mathlib.Data.EReal.Basic
import Mathlib.Data.EReal.Operations
import Mathlib.Algebra.BigOperators.Ring.Finset
import Mathlib.Tactic.Ring

namespace Cert.RealSpec

/-- An extended real that is a real number. -/
def IsReal (a : EReal) : Prop := ∃ r : ℝ, a = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

theorem IsReal.add {a b : EReal} (ha : IsReal a) (hb : IsReal b) : IsReal (a + b) := by
  obtain ⟨x, rfl⟩ := ha
  obtain ⟨y, rfl⟩ := hb
  exact ⟨x + y, (EReal.coe_add x y).symm⟩

/-- The positive part of a real number is a real number. -/
theorem IsReal.max_zero {a : EReal} (ha : IsReal a) : IsReal (max a 0) := by
  obtain ⟨x, rfl⟩ := ha
  rcases le_total x 0 with h | h
  · refine ⟨0, ?_⟩
    rw [max_eq_right (show (x : EReal) ≤ 0 by exact_mod_cast h)]
    exact EReal.coe_zero.symm
  · exact ⟨x, max_eq_left (show (0 : EReal) ≤ (x : EReal) by exact_mod_cast h)⟩

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem IsReal.sum {ι : Type*} (s : Finset ι) (f : ι → EReal) (h : ∀ i, IsReal (f i)) :
    IsReal (∑ i ∈ s, f i) := by
  choose g hg using h
  exact ⟨∑ i ∈ s, g i, by rw [coe_sum]; exact Finset.sum_congr rfl fun i _ => hg i⟩

/-- THE LAW: a real factor `a` moves across a finite sum of products of reals, and into each product on the
    other side of its second factor: `a · Σ p·q = Σ q·(p·a)`. -/
theorem scale_sum {ι : Type*} (s : Finset ι) (a : EReal) (p q : ι → EReal)
    (ha : IsReal a) (hp : ∀ e, IsReal (p e)) (hq : ∀ e, IsReal (q e)) :
    a * ∑ e ∈ s, p e * q e = ∑ e ∈ s, q e * (p e * a) := by
  obtain ⟨ra, rfl⟩ := ha
  choose rp hrp using hp
  choose rq hrq using hq
  simp only [hrp, hrq, ← EReal.coe_mul, ← coe_sum]
  refine congrArg _ ?_
  rw [Finset.mul_sum]
  exact Finset.sum_congr rfl fun e _ => by ring

end Cert.RealSpec
-- ==== Proof.RefAlg.lean ====
/-
  The reference's two layers with the per-node scale of the target factored out of the sum.

  A layer of the reference is, at node `d` and feature `j`,
      Σ_{e → d} h[g e, j] · (δ (g e) · δ (g' e)) + b j
  over the edges `e` whose target word reads as `d`, where `g e` is the edge's source row, `g' e` the row its target
  word names when used as a gather index, and `δ` the per-node scale.  For an edge that lands on `d` the gather index
  of its target word is `d` itself (an in-range word is neither wrapped nor clamped), and `δ`, the features and the
  weights are real numbers, so the factor `δ d` moves out of the sum:
      = δ d · Σ_{e → d} δ (g e) · h[g e, j] + b j,
  which is the arrangement the kernel computes.  The features being real needs the inputs finite; it is carried here
  as hypotheses on the argument arrays.
-/
import proofs.«102929_j30116310680051_2_alg».proof.Proof.RefReadP
import proofs.«102929_j30116310680051_2_alg».proof.Proof.RefLayers
import proofs.«102929_j30116310680051_2_alg».proof.Proof.Words
import proofs.«102929_j30116310680051_2_alg».proof.Proof.DinvReal
import proofs.«102929_j30116310680051_2_alg».proof.Proof.RealSpec

set_option maxRecDepth 16384

noncomputable section

namespace Cert.ReferenceIdeal.RefAlg

open Cert.ReferenceIdeal Cert.ReferenceIdeal.ReadP Cert.ReferenceIdeal.RefLayers
open Idealize.ShloMosaic Idealize.ShloMosaic.ValueIdx Cert.RealSpec

variable (x0 : (⟨S100000x500, .f32⟩ : BufTy).Contents (Elt Ideal)) (x1 : (⟨S2x3200000, .i32⟩ : BufTy).Contents (Elt Ideal))
  (x2 : (⟨S500x16, .f32⟩ : BufTy).Contents (Elt Ideal)) (x3 : (⟨S16, .f32⟩ : BufTy).Contents (Elt Ideal))
  (x4 : (⟨S16x40, .f32⟩ : BufTy).Contents (Elt Ideal)) (x5 : (⟨S40, .f32⟩ : BufTy).Contents (Elt Ideal))

/-- The per-node scale at node `n`. -/
abbrev δ (n : Fin 100000) : EReal := val_main_v15 (F := Ideal) x1 (ix1 n)
/-- The edges that land on node `d`. -/
abbrev hit (d : Fin 100000) : Finset (Fin 3300000) :=
  Finset.univ.filter (fun e : Fin 3300000 => (val_main_v7 (F := Ideal) x1 (ix1 e)).toInt = (d.val : Int))
/-- An edge's source row. -/
abbrev gsrc (e : Fin 3300000) : Fin 100000 := clampN (val_main_v20 (F := Ideal) x1 (ix1 e))
/-- The row an edge's target word names as a gather index. -/
abbrev gdst (e : Fin 3300000) : Fin 100000 := clampN (val_main_v27 (F := Ideal) x1 (ix1 e))

theorem δ_real (n : Fin 100000) : IsReal (δ x1 n) := Cert.DinvReal.dinv_real x1 n

/-- An edge that lands on `d` names `d` as a gather index too. -/
theorem gdst_of_hit (e : Fin 3300000) (d : Fin 100000) (h : e ∈ hit x1 d) : gdst x1 e = d := by
  apply Fin.ext
  exact Cert.Words.clamp_wrap_of_hit (val_main_v7 (F := Ideal) x1 (ix1 e)) d.val d.isLt (Finset.mem_filter.mp h).2

/-- The target's scale moves out of the sum over the edges that land on it. -/
theorem layer_id (H : Fin 100000 → EReal) (hH : ∀ n, IsReal (H n)) (d : Fin 100000) :
    ∑ e ∈ hit x1 d, H (gsrc x1 e) * (δ x1 (gsrc x1 e) * δ x1 (gdst x1 e))
      = δ x1 d * ∑ e ∈ hit x1 d, δ x1 (gsrc x1 e) * H (gsrc x1 e) := by
  rw [scale_sum (hit x1 d) (δ x1 d) (fun e => δ x1 (gsrc x1 e)) (fun e => H (gsrc x1 e)) (δ_real x1 d)
    (fun e => δ_real x1 _) (fun e => hH _)]
  exact Finset.sum_congr rfl fun e he => by rw [gdst_of_hit x1 e d he]

section Reals
variable (h0 : ∀ i, IsReal (x0 i)) (h2 : ∀ i, IsReal (x2 i)) (h3 : ∀ i, IsReal (x3 i)) (h4 : ∀ i, IsReal (x4 i))

include h0 h2 in
theorem v0_real (n : Fin 100000) (q : Fin 16) : IsReal (val_main_v0 (F := Ideal) x0 x2 (ix2 n q)) := by
  rw [dot1_apply]
  exact IsReal.sum _ _ fun k => (h0 _).mul (h2 _)

include h0 h2 in
/-- Layer 1 with the target's scale factored out. -/
theorem v46_alt (d : Fin 100000) (q : Fin 16) :
    val_main_v46 (F := Ideal) x0 x1 x2 x3 (ix2 d q)
      = δ x1 d * (∑ e ∈ hit x1 d, δ x1 (gsrc x1 e) * val_main_v0 (F := Ideal) x0 x2 (ix2 (gsrc x1 e) q)) + x3 (ix1 q) := by
  rw [layer1_apply, layer_id x1 (fun n => val_main_v0 (F := Ideal) x0 x2 (ix2 n q)) (fun n => v0_real x0 x2 h0 h2 n q) d]

include h0 h2 h3 in
theorem v46_real (d : Fin 100000) (q : Fin 16) : IsReal (val_main_v46 (F := Ideal) x0 x1 x2 x3 (ix2 d q)) := by
  rw [v46_alt x0 x1 x2 x3 h0 h2]
  exact ((δ_real x1 d).mul (IsReal.sum _ _ fun e => (δ_real x1 _).mul (v0_real x0 x2 h0 h2 _ q))).add (h3 _)

include h0 h2 h3 h4 in
theorem v48_real (n : Fin 100000) (j : Fin 40) : IsReal (val_main_v48 (F := Ideal) x0 x1 x2 x3 x4 (ix2 n j)) := by
  rw [dot2_apply]
  refine IsReal.sum _ _ fun k => IsReal.mul ?_ (h4 _)
  rw [relu_apply]
  exact (v46_real x0 x1 x2 x3 h0 h2 h3 n k).max_zero

include h0 h2 h3 h4 in
/-- Layer 2 with the target's scale factored out. -/
theorem v94_alt (d : Fin 100000) (j : Fin 40) :
    val_main_v94 (F := Ideal) x0 x1 x2 x3 x4 x5 (ix2 d j)
      = δ x1 d * (∑ e ∈ hit x1 d, δ x1 (gsrc x1 e) * val_main_v48 (F := Ideal) x0 x1 x2 x3 x4 (ix2 (gsrc x1 e) j)) + x5 (ix1 j) := by
  rw [layer2_apply, layer_id x1 (fun n => val_main_v48 (F := Ideal) x0 x1 x2 x3 x4 (ix2 n j))
    (fun n => v48_real x0 x1 x2 x3 x4 h0 h2 h3 h4 n j) d]

end Reals

end Cert.ReferenceIdeal.RefAlg

end
-- ==== Proof.RefLsm.lean ====
/-
  The reference's outlined log-softmax, read at an index.

  On a [100000, 40] operand y the outlined function takes each row's maximum by a reduce over the lanes started from
  -∞, takes one more maximum with a broadcast -∞ (which changes nothing), sets the result up as a column and broadcasts
  it over the lanes, subtracts it from y, exponentiates, sums each row from 0, takes the logarithm, broadcasts it the same
  way and subtracts it from the shifted operand.  Every step but the two reductions reads one element of its operand, so
  the result at (r, j) is a term in the entries of row r alone: the log-softmax of that row (`Cert.Spec.rowLsm`) at lane j.
  The operand is kept as one opaque function throughout.
-/
import proofs.«102929_j30116310680051_2_alg».proof.Proof.RefReadP
import proofs.«102929_j30116310680051_2_alg».proof.Proof.LsmSpec
import proofs.«102929_j30116310680051_2_alg».proof.Proof.LibHostMaxForms
import Idealize.ShloMosaic.Lib.ValueIdx
import Idealize.ShloMosaic.PureOps.Ideal.Laws

noncomputable section

namespace Cert.ReferenceIdeal.RefLsm

open Idealize.ShloMosaic Idealize.ShloMosaic.ValueIdx
open Cert.ReferenceIdeal Cert.ReferenceIdeal.Gen Cert.ReferenceIdeal.ReadP

/-! ## The indices the broadcasts and the two reductions read -/

/-- A column broadcast over the lanes reads, at (r, j), the column's row r. -/
theorem idx_col_max (r : Fin 100000) (j : Fin 40) : idx_main_call3_v4 (ix2 r j) = ix2 r (0 : Fin 1) :=
  funext fun a => Fin.ext (by match a with | ⟨0, _⟩ => rfl | ⟨1, _⟩ => rfl)

theorem idx_col_log (r : Fin 100000) (j : Fin 40) : idx_main_call3_v10 (ix2 r j) = ix2 r (0 : Fin 1) :=
  funext fun a => Fin.ext (by match a with | ⟨0, _⟩ => rfl | ⟨1, _⟩ => rfl)

/-- A vector set up as a column reads, at (r, 0), its entry r. -/
theorem idx_vec_max (r : Fin 100000) : idx_main_call3_v3 (ix2 r (0 : Fin 1)) = ix1 r :=
  funext fun a => Fin.ext (by match a with | ⟨0, _⟩ => rfl)

theorem idx_vec_sum (r : Fin 100000) : idx_main_call3_v8 (ix2 r (0 : Fin 1)) = ix1 r :=
  funext fun a => Fin.ext (by match a with | ⟨0, _⟩ => rfl)

/-- The row sum at r reads lane k of row r. -/
theorem idx_lane (r : Fin 100000) (k : Fin 40) : idx_main_call3_v7 (ix1 r) k = ix2 r k :=
  funext fun a => Fin.ext (by match a with | ⟨0, _⟩ => rfl | ⟨1, _⟩ => rfl)

section
variable (x0 : (⟨S100000x500, .f32⟩ : BufTy).Contents (Elt Ideal)) (x1 : (⟨S2x3200000, .i32⟩ : BufTy).Contents (Elt Ideal))
  (x2 : (⟨S500x16, .f32⟩ : BufTy).Contents (Elt Ideal)) (x3 : (⟨S16, .f32⟩ : BufTy).Contents (Elt Ideal))
  (x4 : (⟨S16x40, .f32⟩ : BufTy).Contents (Elt Ideal)) (x5 : (⟨S40, .f32⟩ : BufTy).Contents (Elt Ideal))

/-- The reduce with a maximum body over the lanes, from -∞, at r: the maximum of row r. -/
theorem reduceMax_apply (r : Fin 100000) :
    val_main_call3_v0 (F := Ideal) x0 x1 x2 x3 x4 x5 (ix1 r)
      = Cert.Spec.rowMax (fun k => val_main_v94 (F := Ideal) x0 x1 x2 x3 x4 x5 (ix2 r k)) := by
  unfold val_main_call3_v0
  generalize val_main_v94 (F := Ideal) x0 x1 x2 x3 x4 x5 = y
  refine (hostReduceMax2_last y (val_main_call3_cst (F := Ideal)) reducesTo_S100000x40_S100000_d1 (by decide) h_S_ r).trans ?_
  unfold Cert.Spec.rowMax
  rw [val_main_call3_cst_apply, Ideal.ofBits_def, Cert.Spec.negInf_word]

/-- One more maximum with a broadcast -∞ leaves the row's maximum. -/
theorem max_apply (r : Fin 100000) :
    val_main_call3_v2 (F := Ideal) x0 x1 x2 x3 x4 x5 (ix1 r)
      = Cert.Spec.rowMax (fun k => val_main_v94 (F := Ideal) x0 x1 x2 x3 x4 x5 (ix2 r k)) := by
  rw [val_main_call3_v2_apply, val_main_call3_v1_apply, val_main_call3_cst_0_apply, reduceMax_apply,
    Ideal.maximumf_def, Ideal.ofBits_def, Cert.Spec.negInf_word]
  exact Cert.Spec.max_bot_rowMax _

/-- The row shifted by its maximum, at (r, k). -/
theorem shift_apply (r : Fin 100000) (k : Fin 40) :
    val_main_call3_v5 (F := Ideal) x0 x1 x2 x3 x4 x5 (ix2 r k)
      = val_main_v94 (F := Ideal) x0 x1 x2 x3 x4 x5 (ix2 r k)
        - Cert.Spec.rowMax (fun k => val_main_v94 (F := Ideal) x0 x1 x2 x3 x4 x5 (ix2 r k)) := by
  rw [val_main_call3_v5_apply, val_main_call3_v4_apply, idx_col_max, val_main_call3_v3_apply, idx_vec_max, max_apply,
    Ideal.subf_def]

/-- The sum over the lanes of the exponentials of the shifted row, from 0, at r. -/
theorem sum_apply (r : Fin 100000) :
    val_main_call3_v7 (F := Ideal) x0 x1 x2 x3 x4 x5 (ix1 r)
      = ∑ k : Fin 40, Ideal.exp (val_main_v94 (F := Ideal) x0 x1 x2 x3 x4 x5 (ix2 r k)
        - Cert.Spec.rowMax (fun k => val_main_v94 (F := Ideal) x0 x1 x2 x3 x4 x5 (ix2 r k))) := by
  rw [val_main_call3_v7_apply, val_main_call3_cst_1_apply, Ideal.ofBits_def, Cert.Spec.zero_word, zero_add]
  refine Finset.sum_congr rfl fun k _ => ?_
  rw [idx_lane, val_main_call3_v6_apply, shift_apply, Ideal.hostUnary_exp_def]

/-- THE OUTLINED LOG-SOFTMAX AT (r, j): the log-softmax of row r of its operand, at lane j. -/
theorem lsm_apply (r : Fin 100000) (j : Fin 40) :
    val_main_v95 (F := Ideal) x0 x1 x2 x3 x4 x5 (ix2 r j)
      = Cert.Spec.rowLsm (fun k => val_main_v94 (F := Ideal) x0 x1 x2 x3 x4 x5 (ix2 r k)) j := by
  rw [val_main_v95_apply, shift_apply, val_main_call3_v10_apply, idx_col_log, val_main_call3_v9_apply,
    val_main_call3_v8_apply, idx_vec_sum, sum_apply, Ideal.subf_def, Ideal.hostUnary_log_def]
  rfl

end

end Cert.ReferenceIdeal.RefLsm

end
-- ==== Proof.Finite.lean ====
import proofs.«102929_j30116310680051_2_alg».proof.Defs
import Idealize.ShloMosaic.Lib.ReduceAll
import Idealize.ShloMosaic.Lib.ValueIdx
import Idealize.ShloMosaic.PureOps.Ideal.Laws

/-!
  From the precondition "every float argument is finite" to "every entry of every float argument is a
  real number". The precondition is a conjunction of five `all (|x| < +∞)`; each conjunct, read at an
  element, says `max x (-x) < ⊤` on the extended reals, which rules out both infinities.
-/

noncomputable section

namespace Cert.Finite

open Idealize.ShloMosaic Idealize.SL.Sem

instance : Subsingleton Cert.Pre_finite_inputs.S_.Idx := ⟨fun a b => funext fun d => d.elim0⟩

/-- The pattern `0x7F800000` is `+∞`. -/
theorem ofBits_inf_f32 : Ideal.ofBits .f32 0x7F800000#32 = (⊤ : EReal) := by
  simp [Ideal.ofBits, Ideal.ieee]

/-- An extended real whose absolute value `max x (-x)` is below `+∞` is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- One conjunct of the precondition, generic in the shape: if `all (|x| < +∞)` came out true then every
    entry of `x` is a real number. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr h0 ValueIdx.ix0 = 1#1)
    (i : s.Idx) : ∃ r : ℝ, x i = (r : EReal) := by
  have h1 := Host.reduce_andi_all _ _ hr h0 ValueIdx.ix0 e i
  refine real_of_abs_lt_top (x i) ?_
  have h2 : Ideal.cmp .olt (max (x i) (-(x i))) (Ideal.ofBits .f32 0x7F800000#32) = 1#1 := h1
  rw [ofBits_inf_f32] at h2
  by_contra hc
  simp [Ideal.cmp, hc] at h2

open Cert.Pre_finite_inputs in
/-- The whole precondition, read back: all five float arguments have only real entries. -/
theorem reals_of_fn [Cert.Pre_finite_inputs.Facts]
    (x0 : FVec Ideal S100000x500 .f32) (x1 : IVec S2x3200000 32) (x2 : FVec Ideal S500x16 .f32)
    (x3 : FVec Ideal S16 .f32) (x4 : FVec Ideal S16x40 .f32) (x5 : FVec Ideal S40 .f32)
    (h : Cert.Pre_finite_inputs.fn (F := Ideal) x0 x1 x2 x3 x4 x5 = (fun _ => 1#1)) :
    (∀ i, ∃ r : ℝ, x0 i = (r : EReal)) ∧ (∀ i, ∃ r : ℝ, x2 i = (r : EReal)) ∧ (∀ i, ∃ r : ℝ, x3 i = (r : EReal))
      ∧ (∀ i, ∃ r : ℝ, x4 i = (r : EReal)) ∧ (∀ i, ∃ r : ℝ, x5 i = (r : EReal)) := by
  have e := congrFun h ValueIdx.ix0
  dsimp only [Cert.Pre_finite_inputs.fn, Cert.Pre_finite_inputs.fn_part1] at e
  simp only [andi, IntOp.andi_eq_one] at e
  obtain ⟨⟨⟨⟨e0, e2⟩, e3⟩, e4⟩, e5⟩ := e
  exact ⟨real_of_all x0 _ _ _ e0, real_of_all x2 _ _ _ e2, real_of_all x3 _ _ _ e3, real_of_all x4 _ _ _ e4,
    real_of_all x5 _ _ _ e5⟩

variable [Cert.Pre_finite_inputs.Facts]
  (m : (ℓ : Loc Cert.KernelIdeal.nD Cert.KernelIdeal.τ Cert.KernelIdeal.sig) → Buf (Elt Ideal) ℓ)
  (h : Cert.Pre_KernelIdeal m) (c : Dev Cert.KernelIdeal.nD)

include h in
theorem real_arg0 (i : Cert.KernelIdeal.S100000x500.Idx) :
    ∃ r : ℝ, (m ((c.tc : Thread Cert.KernelIdeal.nD Cert.KernelIdeal.τ).loc Cert.KernelIdeal.main_arg0) : _ → EReal) i = (r : EReal) :=
  (reals_of_fn _ _ _ _ _ _ (h c)).1 i

include h in
theorem real_arg2 (i : Cert.KernelIdeal.S500x16.Idx) :
    ∃ r : ℝ, (m ((c.tc : Thread Cert.KernelIdeal.nD Cert.KernelIdeal.τ).loc Cert.KernelIdeal.main_arg2) : _ → EReal) i = (r : EReal) :=
  (reals_of_fn _ _ _ _ _ _ (h c)).2.1 i

include h in
theorem real_arg3 (i : Cert.KernelIdeal.S16.Idx) :
    ∃ r : ℝ, (m ((c.tc : Thread Cert.KernelIdeal.nD Cert.KernelIdeal.τ).loc Cert.KernelIdeal.main_arg3) : _ → EReal) i = (r : EReal) :=
  (reals_of_fn _ _ _ _ _ _ (h c)).2.2.1 i

include h in
theorem real_arg4 (i : Cert.KernelIdeal.S16x40.Idx) :
    ∃ r : ℝ, (m ((c.tc : Thread Cert.KernelIdeal.nD Cert.KernelIdeal.τ).loc Cert.KernelIdeal.main_arg4) : _ → EReal) i = (r : EReal) :=
  (reals_of_fn _ _ _ _ _ _ (h c)).2.2.2.1 i

include h in
theorem real_arg5 (i : Cert.KernelIdeal.S40.Idx) :
    ∃ r : ℝ, (m ((c.tc : Thread Cert.KernelIdeal.nD Cert.KernelIdeal.τ).loc Cert.KernelIdeal.main_arg5) : _ → EReal) i = (r : EReal) :=
  (reals_of_fn _ _ _ _ _ _ (h c)).2.2.2.2 i

end Cert.Finite

end
-- ==== Proof.KVal.lean ====
/-
  The kernel program's result is the reference's.

  Region by region, at an entry `(n, j)`:
   * region 0 leaves `δ n · (x·W₁)[n, j]`: the first projection, each row scaled by its node's scale `δ`;
   * the host then sums, for each node `d`, the rows of that array at the sources of the edges that land on `d`;
   * region 1 scales that aggregate by `δ d`, adds the bias and takes the positive part — which is the reference's
     first layer with the target's scale factored out of the sum (legitimate: all quantities are real) —, projects by
     `W₂` and scales by `δ` again;
   * the host aggregates once more, and region 2 scales, adds the second bias — the reference's second layer — and
     takes the row-wise log-softmax, the same function of a row on both sides.
-/
import proofs.«102929_j30116310680051_2_alg».proof.Proof.K0
import proofs.«102929_j30116310680051_2_alg».proof.Proof.K1
import proofs.«102929_j30116310680051_2_alg».proof.Proof.K2
import proofs.«102929_j30116310680051_2_alg».proof.Proof.KIdx
import proofs.«102929_j30116310680051_2_alg».proof.Proof.KRef
import proofs.«102929_j30116310680051_2_alg».proof.Proof.RefAlg
import proofs.«102929_j30116310680051_2_alg».proof.Proof.RefLsm
import proofs.«102929_j30116310680051_2_alg».proof.Proof.Finite

set_option maxRecDepth 16384

noncomputable section

namespace Cert.KernelIdeal.KVal

open Cert.KernelIdeal Cert.KernelIdeal.Gen Cert.KernelIdeal.KHost
open Idealize.ShloMosaic Idealize.ShloMosaic.TcCoe Idealize.SL.Sem Idealize.ShloMosaic.ValueIdx
open Cert.RealSpec Cert.ReferenceIdeal.ReadP Cert.ReferenceIdeal.RefAlg

variable [hP : Cert.Pre_finite_inputs.Facts]
variable (m : (ℓ : Loc nD τ sig) → Buf (Elt Ideal) ℓ) (ρ : Dev nD → PrngReg) (hpre : Cert.Pre_KernelIdeal m) (c : Dev nD)

/-- The kernel program's argument arrays, typed as the reference's stages take them. -/
abbrev X0 : (⟨Cert.ReferenceIdeal.S100000x500, .f32⟩ : BufTy).Contents (Elt Ideal) := m ((c : Thread nD τ).loc main_arg0)
abbrev X1 : (⟨Cert.ReferenceIdeal.S2x3200000, .i32⟩ : BufTy).Contents (Elt Ideal) := m ((c : Thread nD τ).loc main_arg1)
abbrev X2 : (⟨Cert.ReferenceIdeal.S500x16, .f32⟩ : BufTy).Contents (Elt Ideal) := m ((c : Thread nD τ).loc main_arg2)
abbrev X3 : (⟨Cert.ReferenceIdeal.S16, .f32⟩ : BufTy).Contents (Elt Ideal) := m ((c : Thread nD τ).loc main_arg3)
abbrev X4 : (⟨Cert.ReferenceIdeal.S16x40, .f32⟩ : BufTy).Contents (Elt Ideal) := m ((c : Thread nD τ).loc main_arg4)
abbrev X5 : (⟨Cert.ReferenceIdeal.S40, .f32⟩ : BufTy).Contents (Elt Ideal) := m ((c : Thread nD τ).loc main_arg5)

include hpre in
theorem real0 (i) : IsReal (X0 m c i) := Cert.Finite.real_arg0 m hpre c i
include hpre in
theorem real2 (i) : IsReal (X2 m c i) := Cert.Finite.real_arg2 m hpre c i
include hpre in
theorem real3 (i) : IsReal (X3 m c i) := Cert.Finite.real_arg3 m hpre c i
include hpre in
theorem real4 (i) : IsReal (X4 m c i) := Cert.Finite.real_arg4 m hpre c i

/-- Region 0's result: the first projection with each row scaled by its node's scale. -/
theorem hs1_apply (n : Fin 100000) (q : Fin 16) :
    (dat0 (F := Ideal) (V3 m ρ) c).arrAt 3 cfg0.N (ix2 n q)
      = δ (X1 m c) n * val_main_v0 (F := Ideal) (X0 m c) (X2 m c) (ix2 n q) := by
  rw [Cert.ReferenceIdeal.RefLayers.dot1_apply]
  refine (K0.final0 (V3 m ρ) c n q (m ((c : Thread nD τ).loc main_arg0)) (m ((c : Thread nD τ).loc main_arg2)) (DV m ρ c)
    (W3_arg0 m ρ c) (W3_arg2 m ρ c) rfl).trans ?_
  rw [DV_apply m ρ c n]

/-- The first aggregate: for node `d`, the scaled rows at the sources of the edges that land on `d`, summed. -/
theorem agg1_apply (Y : S100000x16.Idx → EReal)
    (hY : (W5 (F := Ideal) m ρ c (Proc.devRef .tc main_v26) : FVec Ideal S100000x16 .f32) = Y) (d : Fin 100000) (q : Fin 16) :
    Y (ix2 d q)
      = ∑ e ∈ hit (X1 m c) d, δ (X1 m c) (gsrc (X1 m c) e)
          * val_main_v0 (F := Ideal) (X0 m c) (X2 m c) (ix2 (gsrc (X1 m c) e) q) := by
  rw [← hY, W5_v26, segGather16_apply, DST_eq, SRC_eq]
  exact Finset.sum_congr rfl fun e _ => hs1_apply m ρ c (gsrc (X1 m c) e) q

include hpre in
/-- Region 1's result: the second projection of the reference's first layer, each row scaled by its node's scale. -/
theorem hs2_apply (n : Fin 100000) (k : Fin 40) :
    (dat1 (F := Ideal) (V5 m ρ) c).arrAt 4 cfg1.N (ix2 n k)
      = δ (X1 m c) n * val_main_v48 (F := Ideal) (X0 m c) (X1 m c) (X2 m c) (X3 m c) (X4 m c) (ix2 n k) := by
  refine (K1.final1 (V5 m ρ) c n k (W5 (F := Ideal) m ρ c (Proc.devRef .tc main_v26)) (DV m ρ c)
    (W5 (F := Ideal) m ρ c (Proc.devRef .tc main_v27)) (m ((c : Thread nD τ).loc main_arg4))
    rfl (W5_v15 m ρ c) rfl (W5_arg4 m ρ c)).trans ?_
  rw [DV_apply m ρ c n, Cert.ReferenceIdeal.RefLayers.dot2_apply]
  refine congrArg _ (Finset.sum_congr rfl fun q _ => ?_)
  rw [Cert.ReferenceIdeal.RefLayers.relu_apply,
    v46_alt (X0 m c) (X1 m c) (X2 m c) (X3 m c) (real0 m hpre c) (real2 m hpre c) n q,
    agg1_apply m ρ c _ rfl n q, bias1_apply m ρ c q]

include hpre in
/-- The second aggregate. -/
theorem agg2_apply (Y : S100000x40.Idx → EReal)
    (hY : (W7 (F := Ideal) m ρ c (Proc.devRef .tc main_v38) : FVec Ideal S100000x40 .f32) = Y) (d : Fin 100000) (k : Fin 40) :
    Y (ix2 d k)
      = ∑ e ∈ hit (X1 m c) d, δ (X1 m c) (gsrc (X1 m c) e)
          * val_main_v48 (F := Ideal) (X0 m c) (X1 m c) (X2 m c) (X3 m c) (X4 m c) (ix2 (gsrc (X1 m c) e) k) := by
  rw [← hY, W7_v38, segGather40_apply, DST_eq, SRC_eq]
  exact Finset.sum_congr rfl fun e _ => hs2_apply m ρ hpre c (gsrc (X1 m c) e) k

include hpre in
/-- THE RESULT ARRAY of the kernel program is the reference's last stage of the same arguments. -/
theorem result_eq :
    (W8 (F := Ideal) m ρ c (Proc.devRef .tc main_v40) : FVec Ideal S100000x40 .f32)
      = val_main_v95 (F := Ideal) (X0 m c) (X1 m c) (X2 m c) (X3 m c) (X4 m c) (X5 m c) := by
  funext i
  obtain ⟨r, j, rfl⟩ : ∃ (r : Fin 100000) (j : Fin 40), i = ix2 r j := ⟨i 0, i 1, eq_ix2 i⟩
  rw [W8_v40, Cert.ReferenceIdeal.RefLsm.lsm_apply]
  refine (K2.final2 (V7 m ρ) c r j (W7 (F := Ideal) m ρ c (Proc.devRef .tc main_v38)) (DV m ρ c)
    (W7 (F := Ideal) m ρ c (Proc.devRef .tc main_v39)) rfl (W7_v15 m ρ c) rfl).trans ?_
  refine congrArg (fun f => Cert.Spec.rowLsm f j) (funext fun k => ?_)
  rw [DV_apply m ρ c r,
    v94_alt (X0 m c) (X1 m c) (X2 m c) (X3 m c) (X4 m c) (X5 m c) (real0 m hpre c) (real2 m hpre c) (real3 m hpre c)
      (real4 m hpre c) r k,
    agg2_apply m ρ hpre c _ rfl r k, bias2_apply m ρ c k]

end Cert.KernelIdeal.KVal

end
-- ==== Proof.lean ====
/-
  The certificate of a two-layer graph convolution with a row-wise log-softmax: a kernel program of three pipelined
  regions among host gathers and scatter-adds, against a plain reference.

  Both compute, from the features `x`, the edge list, two weight matrices and two biases,
      log_softmax( Â · relu( Â · (x W₁) + b₁ ) · W₂ + b₂ ),      Â = D^{-1/2} (A + I) D^{-1/2}.
  The reference weights every message by `δ(source) · δ(target)` inside the sum over the edges; the kernel scales the
  rows by `δ` before the sum and the sum by `δ(target)` after it.  The per-node scale `δ`, the features and the weights
  are real numbers (the inputs are finite, the degree is a finite count), so on the extended reals the factor moves
  across the sum and the two arrangements agree entry by entry (Proof/RealSpec.lean, Proof/RefAlg.lean,
  Proof/KVal.lean); the log-softmax is one function of a row on both sides (Proof/LsmSpec.lean).
  The three frames: the two kernel programs' runs and the reference's run leave the argument arrays as launched.
  The idealization rewrote nothing, so `preserves` has no conjunct.
-/
import proofs.«102929_j30116310680051_2_alg».proof.Defs
import proofs.«102929_j30116310680051_2_alg».proof.Proof.Gen.Kernel
import proofs.«102929_j30116310680051_2_alg».proof.Proof.Gen.Kernel.Skeleton
import proofs.«102929_j30116310680051_2_alg».proof.Proof.Gen.Kernel.Launch
import proofs.«102929_j30116310680051_2_alg».proof.Proof.Gen.Kernel.Points
import proofs.«102929_j30116310680051_2_alg».proof.Proof.Gen.Kernel.Frame
import proofs.«102929_j30116310680051_2_alg».proof.Proof.Gen.KernelIdeal
import proofs.«102929_j30116310680051_2_alg».proof.Proof.Gen.KernelIdeal.Skeleton
import proofs.«102929_j30116310680051_2_alg».proof.Proof.Gen.KernelIdeal.Launch
import proofs.«102929_j30116310680051_2_alg».proof.Proof.Gen.KernelIdeal.Points
import proofs.«102929_j30116310680051_2_alg».proof.Proof.Gen.KernelIdeal.Frame
import proofs.«102929_j30116310680051_2_alg».proof.Proof.Gen.ReferenceIdeal
import proofs.«102929_j30116310680051_2_alg».proof.Proof.Gen.Pre_finite_inputs
import proofs.«102929_j30116310680051_2_alg».proof.Proof.RefRunH
import proofs.«102929_j30116310680051_2_alg».proof.Proof.KRun
import proofs.«102929_j30116310680051_2_alg».proof.Proof.KVal
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- And the reference: its run with the result dropped. -/
theorem frame_ri : Cert.frame_ReferenceIdeal := fun m ρ _ =>
  (θ_run Cert.ReferenceIdeal.defs _ _).mono (fun _ h c => (h c).2) (Cert.ReferenceIdeal.RunH.run (F := Ideal) m ρ)

/-- The idealization rewrote no operation. -/
theorem preserves : Cert.preserves_Kernel_KernelIdeal := trivial

/-- From memories agreeing on the arguments both idealized programs end with the reference's last stage of those
    arguments in their result arrays: the kernel program by `KVal.result_eq` over its run, the reference by its run. -/
theorem algebraic : Cert.algebraic_KernelIdeal_ReferenceIdeal := by
  intro m ρ m' ρ' hpre hagree
  refine ⟨fun c => Cert.ReferenceIdeal.ReadP.val_main_v95 (F := Ideal) (Cert.KernelIdeal.KVal.X0 m c)
    (Cert.KernelIdeal.KVal.X1 m c) (Cert.KernelIdeal.KVal.X2 m c) (Cert.KernelIdeal.KVal.X3 m c)
    (Cert.KernelIdeal.KVal.X4 m c) (Cert.KernelIdeal.KVal.X5 m c), ?_, ?_⟩
  · exact (θ_run Cert.KernelIdeal.defs _ _).mono
      (fun r h c => ⟨(h c).1.trans (Cert.KernelIdeal.KVal.result_eq m ρ hpre c), (h c).2⟩)
      (Cert.KernelIdeal.KRun.run_result (F := Ideal) m ρ)
  · refine (θ_run Cert.ReferenceIdeal.defs _ _).mono (fun r h c => ⟨(h c).1.trans ?_, (h c).2⟩)
      (Cert.ReferenceIdeal.RunH.run (F := Ideal) m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
